-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x26 : Shape := ⟨2, ![50000, 26]⟩
abbrev S2x800000 : Shape := ⟨2, ![2, 800000]⟩
abbrev S800000x5 : Shape := ⟨2, ![800000, 5]⟩
abbrev S26x256 : Shape := ⟨2, ![26, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S50000x26 : S_.BroadcastsInDim S50000x26 (![] : Fin 0 → Fin S50000x26.rank)
  reducesTo_S50000x26_S_d0_1 : S50000x26.ReducesTo [0, 1] S_
  h_S_ : 0 < S_.numel
  bcast_S_S800000x5 : S_.BroadcastsInDim S800000x5 (![] : Fin 0 → Fin S800000x5.rank)
  reducesTo_S800000x5_S_d0_1 : S800000x5.ReducesTo [0, 1] S_
  bcast_S_S26x256 : S_.BroadcastsInDim S26x256 (![] : Fin 0 → Fin S26x256.rank)
  reducesTo_S26x256_S_d0_1 : S26x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S256x1 .f32) (main_arg16 : FVec F S1 .f32) (main_v63 : IVec S_ 1) (main_v67 : IVec S_ 1) : IVec S_ 1 :=
  let main_v68 : IVec S_ 1 := andi main_v63 main_v67
  let main_v69 : FVec F S256x1 .f32 := Host.absf main_arg15
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S256 .f32) (main_arg13 : FVec F S256 .f32) (main_arg14 : FVec F S256 .f32) (main_arg15 : FVec F S256x1 .f32) (main_arg16 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_v63 main_v67

def fn_part2 {F : FTy → Type} [FloatOps F] (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S256x1 .f32) (main_arg16 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_v48 main_v49 main_v50

def fn_part1 {F : FTy → Type} [FloatOps F] (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S256x1 .f32) (main_arg16 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x26 .f32) (main_arg1 : IVec S2x800000 32) (main_arg2 : FVec F S800000x5 .f32) (main_arg3 : FVec F S26x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S256x1 .f32) (main_arg16 : FVec F S1 .f32) : IVec S_ 1 :=
  let main_v0 : FVec F S50000x26 .f32 := Host.absf main_arg0
  let main_cst : FVec F S_ .f32 := constant S_ .f32 0x7F800000#32
  let main_v1 : FVec F S50000x26 .f32 := broadcastInDim S50000x26 ![] bcast_S_S50000x26 main_cst
  let main_v2 : IVec S50000x26 1 := cmpf .olt main_v0 main_v1
  let main_c : IVec S_ 1 := constantI S_ 1 1#1
  let main_v3 : IVec S_ 1 := (fun x v => Host.reduce IntOp.andi x v reducesTo_S50000x26_S_d0_1 h_S_) main_v2 main_c
  let main_v4 : FVec F S800000x5 .f32 := Host.absf main_arg2
  let main_cst_0 : FVec F S_ .f32 := constant S_ .f32 0x7F800000#32
  let main_v5 : FVec F S800000x5 .f32 := broadcastInDim S800000x5 ![] bcast_S_S800000x5 main_cst_0
  let main_v6 : IVec S800000x5 1 := cmpf .olt main_v4 main_v5
  let main_c_1 : IVec S_ 1 := constantI S_ 1 1#1
  let main_v7 : IVec S_ 1 := (fun x v => Host.reduce IntOp.andi x v reducesTo_S800000x5_S_d0_1 h_S_) main_v6 main_c_1
  let main_v8 : IVec S_ 1 := andi main_v3 main_v7
  let main_v9 : FVec F S26x256 .f32 := Host.absf main_arg3
  let main_cst_2 : FVec F S_ .f32 := constant S_ .f32 0x7F800000#32
  let main_v10 : FVec F S26x256 .f32 := broadcastInDim S26x256 ![] bcast_S_S26x256 main_cst_2
  let main_v11 : IVec S26x256 1 := cmpf .olt main_v9 main_v10
  let main_c_3 : IVec S_ 1 := constantI S_ 1 1#1
  let main_v12 : IVec S_ 1 := (fun x v => Host.reduce IntOp.andi x v reducesTo_S26x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x26 : Shape := ⟨2, ![50000, 26]⟩
abbrev S2x800000 : Shape := ⟨2, ![2, 800000]⟩
abbrev S800000x5 : Shape := ⟨2, ![800000, 5]⟩
abbrev S26x256 : Shape := ⟨2, ![26, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S1x256 : Shape := ⟨2, ![1, 256]⟩
abbrev S50000x256 : Shape := ⟨2, ![50000, 256]⟩
abbrev S2000x26 : Shape := ⟨2, ![2000, 26]⟩
abbrev S2000x256 : Shape := ⟨2, ![2000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x1 : Shape := ⟨2, ![1, 1]⟩
abbrev S50000x1 : Shape := ⟨2, ![50000, 1]⟩
abbrev S2000x1 : Shape := ⟨2, ![2000, 1]⟩

abbrev nBuf : Space → Nat
  | .hbm => 161
  | .vmem => 46
  | .smem => 0
  | _ => 0

abbrev hbmTy0_0 (i : Nat) : BufTy := match i % 128 with
  | 0 => ⟨S50000x26, .f32⟩
  | 1 => ⟨S2x800000, .i32⟩
  | 2 => ⟨S800000x5, .f32⟩
  | 3 => ⟨S26x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256, .f32⟩
  | 12 => ⟨S256, .f32⟩
  | 13 => ⟨S256, .f32⟩
  | 14 => ⟨S256, .f32⟩
  | 15 => ⟨S256x1, .f32⟩
  | 16 => ⟨S1, .f32⟩
  | 17 => ⟨S1x800000, .i32⟩
  | 18 => ⟨S800000, .i32⟩
  | 19 => ⟨S1x800000, .i32⟩
  | 20 => ⟨S800000, .i32⟩
  | 21 => ⟨S1x256, .f32⟩
  | 22 => ⟨S1x256, .f32⟩
  | 23 => ⟨S50000x256, .f32⟩
  | 24 => ⟨S50000x256, .f32⟩
  | 25 => ⟨S50000, .i32⟩
  | 26 => ⟨S850000, .i32⟩
  | 27 => ⟨S850000, .i32⟩
  | 28 => ⟨S_, .f32⟩
  | 29 => ⟨S850000, .f32⟩
  | 30 => ⟨S_, .f32⟩
  | 31 => ⟨S50000, .f32⟩
  | 32 => ⟨S850000x1, .i32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x256, .f32⟩
  | 63 => ⟨S850000x1, .f32⟩
  | 64 => ⟨S850000x256, .f32⟩
  | 65 => ⟨S850000x256, .f32⟩
  | 66 => ⟨S_, .f32⟩
  | 67 => ⟨S50000x256, .f32⟩
  | 68 => ⟨S850000x1, .i32⟩
  | 69 => ⟨S50000x256, .f32⟩
  | 70 => ⟨S1x256, .f32⟩
  | 71 => ⟨S1x256, .f32⟩
  | 72 => ⟨S1x256, .f32⟩
  | 73 => ⟨S_, .f32⟩
  | 74 => ⟨S1x256, .f32⟩
  | 75 => ⟨S1x256, .f32⟩
  | 76 => ⟨S_, .f32⟩
  | 77 => ⟨S1x256, .f32⟩
  | 78 => ⟨S1x256, .f32⟩
  | 79 => ⟨S1x256, .f32⟩
  | 80 => ⟨S1x256, .f32⟩
  | 81 => ⟨S1x256, .f32⟩
  | 82 => ⟨S_, .f32⟩
  | 83 => ⟨S1x256, .f32⟩
  | 84 => ⟨S1x256, .f32⟩
  | 85 => ⟨S1x256, .f32⟩
  | 86 => ⟨S1x256, .f32⟩
  | 87 => ⟨S1x256, .f32⟩
  | 88 => ⟨S1x256, .f32⟩
  | 89 => ⟨S1x256, .f32⟩
  | 90 => ⟨S1x256, .f32⟩
  | 91 => ⟨S50000x256, .f32⟩
  | 92 => ⟨S50000x256, .f32⟩
  | 93 => ⟨S50000, .i32⟩
  | 94 => ⟨S850000, .i32⟩
  | 95 => ⟨S850000, .i32⟩
  | 96 => ⟨S_, .f32⟩
  | 97 => ⟨S850000, .f32⟩
  | 98 => ⟨S_, .f32⟩
  | 99 => ⟨S50000, .f32⟩
  | 100 => ⟨S850000x1, .i32⟩
  | 101 => ⟨S50000, .f32⟩
  | 102 => ⟨S50000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000, .f32⟩
  | 121 => ⟨S850000, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x26, .f32⟩

abbrev hbmTy0_1 (i : Nat) : BufTy := match i % 128 with
  | 0 => ⟨S850000, .i32⟩
  | 1 => ⟨S850000x1, .i32⟩
  | 2 => ⟨S850000x256, .f32⟩
  | 3 => ⟨S850000x1, .f32⟩
  | 4 => ⟨S850000x256, .f32⟩
  | 5 => ⟨S850000x256, .f32⟩
  | 6 => ⟨S_, .f32⟩
  | 7 => ⟨S50000x256, .f32⟩
  | 8 => ⟨S850000x1, .i32⟩
  | 9 => ⟨S50000x256, .f32⟩
  | 10 => ⟨S1x256, .f32⟩
  | 11 => ⟨S1x256, .f32⟩
  | 12 => ⟨S1x256, .f32⟩
  | 13 => ⟨S_, .f32⟩
  | 14 => ⟨S1x256, .f32⟩
  | 15 => ⟨S1x256, .f32⟩
  | 16 => ⟨S_, .f32⟩
  | 17 => ⟨S1x256, .f32⟩
  | 18 => ⟨S1x256, .f32⟩
  | 19 => ⟨S1x256, .f32⟩
  | 20 => ⟨S1x256, .f32⟩
  | 21 => ⟨S1x256, .f32⟩
  | 22 => ⟨S_, .f32⟩
  | 23 => ⟨S1x256, .f32⟩
  | 24 => ⟨S1x256, .f32⟩
  | 25 => ⟨S1x256, .f32⟩
  | 26 => ⟨S1x256, .f32⟩
  | 27 => ⟨S1x256, .f32⟩
  | 28 => ⟨S1x256, .f32⟩
  | 29 => ⟨S1x256, .f32⟩
  | 30 => ⟨S1x256, .f32⟩
  | 31 => ⟨S1x1, .f32⟩
  | 32 => ⟨S50000x1, .f32⟩
  | _ => ⟨S50000x26, .f32⟩

abbrev hbmTy (i : Nat) : BufTy := match i / 128 with
  | 0 => hbmTy0_0 i
  | 1 => hbmTy0_1 i
  | _ => ⟨S50000x26, .f32⟩

abbrev bufTy : (tb : Table) → Fin (tcTables nBuf tb) → BufTy
  | .hbm, ⟨i, _⟩ => hbmTy i
  | .local _ .vmem, ⟨0, _⟩ => ⟨S2000x26, .f32⟩
  | .local _ .vmem, ⟨1, _⟩ => ⟨S2000x26, .f32⟩
  | .local _ .vmem, ⟨2, _⟩ => ⟨S26x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S256x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S2000x256, .f32⟩
  | .local _ .vmem, ⟨38, _⟩ => ⟨S2000x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S256x1, .f32⟩
  | .local _ .vmem, ⟨43, _⟩ => ⟨S1x1, .f32⟩
  | .local _ .vmem, ⟨44, _⟩ => ⟨S2000x1, .f32⟩
  | .local _ .vmem, ⟨45, _⟩ => ⟨S2000x1, .f32⟩
  | _, _ => ⟨S50000x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_2 : Ref sig .tc := ⟨.hbm, 44, rfl⟩
abbrev main_v23 : Ref sig .tc := ⟨.hbm, 45, rfl⟩
abbrev main_v24 : Ref sig .tc := ⟨.hbm, 46, rfl⟩
abbrev main_c_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_4 : Ref sig .tc := ⟨.hbm, 54, rfl⟩
abbrev main_v31 : Ref sig .tc := ⟨.hbm, 55, rfl⟩
abbrev main_v32 : Ref sig .tc := ⟨.hbm, 56, rfl⟩
abbrev main_c_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45_0 : Ref sig .tc := ⟨.hbm, 71, rfl⟩
abbrev main_v45_1 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_12 : Ref sig .tc := ⟨.hbm, 103, rfl⟩
abbrev main_v71 : Ref sig .tc := ⟨.hbm, 104, rfl⟩
abbrev main_v72 : Ref sig .tc := ⟨.hbm, 105, rfl⟩
abbrev main_c_13 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_14 : Ref sig .tc := ⟨.hbm, 112, rfl⟩
abbrev main_v78 : Ref sig .tc := ⟨.hbm, 113, rfl⟩
abbrev main_v79 : Ref sig .tc := ⟨.hbm, 114, rfl⟩
abbrev main_c_15 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_16 : Ref sig .tc := ⟨.hbm, 122, rfl⟩
abbrev main_v86 : Ref sig .tc := ⟨.hbm, 123, rfl⟩
abbrev main_v87 : Ref sig .tc := ⟨.hbm, 124, rfl⟩
abbrev main_c_17 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_18 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100_0 : Ref sig .tc := ⟨.hbm, 139, rfl⟩
abbrev main_v100_1 : Ref sig .tc := ⟨.hbm, 140, rfl⟩
abbrev main_cst_19 : Ref sig .tc := ⟨.hbm, 141, rfl⟩
abbrev main_v101 : Ref sig .tc := ⟨.hbm, 142, rfl⟩
abbrev main_v102 : Ref sig .tc := ⟨.hbm, 143, rfl⟩
abbrev main_cst_20 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_21 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg3_0 : Ref sig .tc := ⟨.vmem, 41, rfl⟩
abbrev cc6_stg4_0 : Ref sig .tc := ⟨.vmem, 42, rfl⟩
abbrev cc6_stg5_0 : Ref sig .tc := ⟨.vmem, 43, rfl⟩
abbrev cc6_stg6_0 : Ref sig .tc := ⟨.vmem, 44, rfl⟩
abbrev cc6_stg6_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem4_1 : DmaSem sig := 24
abbrev cc3_sem5_0 : DmaSem sig := 25
abbrev cc3_sem5_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem3_0 : DmaSem sig := 41
abbrev cc6_sem4_0 : DmaSem sig := 42
abbrev cc6_sem5_0 : DmaSem sig := 43
abbrev cc6_sem6_0 : DmaSem sig := 44
abbrev cc6_sem6_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S26x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x1 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S256_S1x256 : S256.ShapeCasts S1x256
  inb_S2000x26_S2000x26_0_0 : ∀ a, (![0, 0] : Fin 2 → Nat) a + S2000x26.size a ≤ S2000x26.size a
  h_S2000x26 : 0 < S2000x26.numel
  bitsLt_bf16_f32 : FTy.bits .bf16 < FTy.bits .f32
  inb_S26x256_S26x256_0_0 : ∀ a, (![0, 0] : Fin 2 → Nat) a + S26x256.size a ≤ S26x256.size a
  h_S26x256 : 0 < S26x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  reduces_S2000x256_S256 : S2000x256.Reduces [0] S256
  bcast_S_S1x256 : S_.BroadcastsInDim S1x256 (![] : Fin 0 → Fin S1x256.rank)
  shapeCasts_S1_S1x1 : S1.ShapeCasts S1x1
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S2000x26_S26x256_S2000x256_1_0_0_1_n_n_wf : DotDims.WF S2000x26 S26x256 S2000x256 [1] [0] [0] [1] [] []
  dot_S2000x256_S256x256_S2000x256_1_0_0_1_n_n_wf : DotDims.WF S2000x256 S256x256 S2000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x26.size a ≤ S50000x26.size a
  hwx0_0 : ∀ i : grid0.Coords, EltTy.bits .f32 = 32 ∨ (Rect.block (s := S50000x26) S2000x26.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S26x256.size a ≤ S26x256.size a
  hwx0_1 : ∀ i : grid0.Coords, EltTy.bits .f32 = 32 ∨ (Rect.block (s := S26x256) S26x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x1.size a ≤ S256x1.size a
  hwx6_4 : ∀ i : grid6.Coords, EltTy.bits .f32 = 32 ∨ (Rect.block (s := S256x1) S256x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x1.size a ≤ S1x1.size a
  hwx6_5 : ∀ i : grid6.Coords, EltTy.bits .f32 = 32 ∨ (Rect.block (s := S1x1) S1x1.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x1.size a ≤ S50000x1.size a
  hwx6_6 : ∀ i : grid6.Coords, EltTy.bits .f32 = 32 ∨ (Rect.block (s := S50000x1) S2000x1.size (cc6_transform_6 i) (hinb6_6 i)).WholeWords (EltTy.packing .f32)

variable [Facts₀]

def dot_S2000x26_S26x256_S2000x256_1_0_0_1_n_n : DotDims S2000x26 S26x256 S2000x256 where
  lhsContracting := [1]
  rhsContracting := [0]
  lhsNonContracting := [0]
  rhsNonContracting := [1]
  lhsBatch := []
  rhsBatch := []
  wf := dot_S2000x26_S26x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg0) S2000x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S26x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45_0) S1x256.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45_1) S1x256.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v6) S2000x256.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v61) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v61) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v98) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v99) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v100_0) S1x256.size cc5_transform_2 reads5_2 true true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100_1) S1x256.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v98) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v115) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v111) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v114) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg15) S256x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v116) S1x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v117) S2000x1.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S50000x26 : Shape := ⟨2, ![50000, 26]⟩
abbrev S2x800000 : Shape := ⟨2, ![2, 800000]⟩
abbrev S800000x5 : Shape := ⟨2, ![800000, 5]⟩
abbrev S26x256 : Shape := ⟨2, ![26, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S50000x256 : Shape := ⟨2, ![50000, 256]⟩
abbrev S1x256 : Shape := ⟨2, ![1, 256]⟩
abbrev S_ : Shape := ⟨0, ![]⟩
abbrev S50000 : Shape := ⟨1, ![50000]⟩
abbrev S850000 : Shape := ⟨1, ![850000]⟩
abbrev S850000x1 : Shape := ⟨2, ![850000, 1]⟩
abbrev S850000x256 : Shape := ⟨2, ![850000, 256]⟩
abbrev S50000x1 : Shape := ⟨2, ![50000, 1]⟩
abbrev S1x1 : Shape := ⟨2, ![1, 1]⟩

abbrev nBuf : Space → Nat
  | .hbm => 198
  | .vmem => 0
  | .smem => 0
  | _ => 0

abbrev hbmTy0_0 (i : Nat) : BufTy := match i % 128 with
  | 0 => ⟨S50000x26, .f32⟩
  | 1 => ⟨S2x800000, .i32⟩
  | 2 => ⟨S800000x5, .f32⟩
  | 3 => ⟨S26x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256, .f32⟩
  | 12 => ⟨S256, .f32⟩
  | 13 => ⟨S256, .f32⟩
  | 14 => ⟨S256, .f32⟩
  | 15 => ⟨S256x1, .f32⟩
  | 16 => ⟨S1, .f32⟩
  | 17 => ⟨S1x800000, .i32⟩
  | 18 => ⟨S800000, .i32⟩
  | 19 => ⟨S1x800000, .i32⟩
  | 20 => ⟨S800000, .i32⟩
  | 21 => ⟨S50000x256, .f32⟩
  | 22 => ⟨S1x256, .f32⟩
  | 23 => ⟨S50000x256, .f32⟩
  | 24 => ⟨S50000x256, .f32⟩
  | 25 => ⟨S_, .f32⟩
  | 26 => ⟨S50000x256, .f32⟩
  | 27 => ⟨S50000x256, .f32⟩
  | 28 => ⟨S50000x256, .f32⟩
  | 29 => ⟨S1x256, .f32⟩
  | 30 => ⟨S50000x256, .f32⟩
  | 31 => ⟨S50000x256, .f32⟩
  | 32 => ⟨S50000x256, .f32⟩
  | 33 => ⟨S50000, .i32⟩
  | 34 => ⟨S850000, .i32⟩
  | 35 => ⟨S850000, .i32⟩
  | 36 => ⟨S_, .f32⟩
  | 37 => ⟨S850000, .f32⟩
  | 38 => ⟨S_, .f32⟩
  | 39 => ⟨S50000, .f32⟩
  | 40 => ⟨S850000x1, .i32⟩
  | 41 => ⟨S50000, .f32⟩
  | 42 => ⟨S50000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000, .f32⟩
  | 61 => ⟨S850000, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x256, .f32⟩
  | 71 => ⟨S850000x1, .f32⟩
  | 72 => ⟨S850000x256, .f32⟩
  | 73 => ⟨S850000x256, .f32⟩
  | 74 => ⟨S_, .f32⟩
  | 75 => ⟨S50000x256, .f32⟩
  | 76 => ⟨S850000x1, .i32⟩
  | 77 => ⟨S50000x256, .f32⟩
  | 78 => ⟨S1x256, .f32⟩
  | 79 => ⟨S50000x256, .f32⟩
  | 80 => ⟨S50000x256, .f32⟩
  | 81 => ⟨S_, .f32⟩
  | 82 => ⟨S256, .f32⟩
  | 83 => ⟨S_, .f32⟩
  | 84 => ⟨S256, .f32⟩
  | 85 => ⟨S256, .f32⟩
  | 86 => ⟨S1x256, .f32⟩
  | 87 => ⟨S50000x256, .f32⟩
  | 88 => ⟨S50000x256, .f32⟩
  | 89 => ⟨S50000x256, .f32⟩
  | 90 => ⟨S_, .f32⟩
  | 91 => ⟨S256, .f32⟩
  | 92 => ⟨S_, .f32⟩
  | 93 => ⟨S256, .f32⟩
  | 94 => ⟨S256, .f32⟩
  | 95 => ⟨S1x256, .f32⟩
  | 96 => ⟨S50000x256, .f32⟩
  | 97 => ⟨S50000x256, .f32⟩
  | 98 => ⟨S1x256, .f32⟩
  | 99 => ⟨S50000x256, .f32⟩
  | 100 => ⟨S50000x256, .f32⟩
  | 101 => ⟨S_, .f32⟩
  | 102 => ⟨S256, .f32⟩
  | 103 => ⟨S256, .f32⟩
  | 104 => ⟨S256, .f32⟩
  | 105 => ⟨S1x256, .f32⟩
  | 106 => ⟨S50000x256, .f32⟩
  | 107 => ⟨S50000x256, .f32⟩
  | 108 => ⟨S1x256, .f32⟩
  | 109 => ⟨S50000x256, .f32⟩
  | 110 => ⟨S50000x256, .f32⟩
  | 111 => ⟨S_, .f32⟩
  | 112 => ⟨S50000x256, .f32⟩
  | 113 => ⟨S50000x256, .f32⟩
  | 114 => ⟨S50000x256, .f32⟩
  | 115 => ⟨S50000x256, .f32⟩
  | 116 => ⟨S50000, .i32⟩
  | 117 => ⟨S850000, .i32⟩
  | 118 => ⟨S850000, .i32⟩
  | 119 => ⟨S_, .f32⟩
  | 120 => ⟨S850000, .f32⟩
  | 121 => ⟨S_, .f32⟩
  | 122 => ⟨S50000, .f32⟩
  | 123 => ⟨S850000x1, .i32⟩
  | 124 => ⟨S50000, .f32⟩
  | 125 => ⟨S50000, .f32⟩
  | 126 => ⟨S_, .i32⟩
  | 127 => ⟨S850000, .i32⟩
  | _ => ⟨S50000x26, .f32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000, .f32⟩
  | 7 => ⟨S_, .i32⟩
  | 8 => ⟨S850000, .i32⟩
  | 9 => ⟨S850000, .i1⟩
  | 10 => ⟨S_, .i32⟩
  | 11 => ⟨S850000, .i32⟩
  | 12 => ⟨S850000, .i32⟩
  | 13 => ⟨S850000, .i32⟩
  | 14 => ⟨S850000x1, .i32⟩
  | 15 => ⟨S850000, .f32⟩
  | 16 => ⟨S850000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000x256, .f32⟩
  | 26 => ⟨S850000x1, .f32⟩
  | 27 => ⟨S850000x256, .f32⟩
  | 28 => ⟨S850000x256, .f32⟩
  | 29 => ⟨S_, .f32⟩
  | 30 => ⟨S50000x256, .f32⟩
  | 31 => ⟨S850000x1, .i32⟩
  | 32 => ⟨S50000x256, .f32⟩
  | 33 => ⟨S1x256, .f32⟩
  | 34 => ⟨S50000x256, .f32⟩
  | 35 => ⟨S50000x256, .f32⟩
  | 36 => ⟨S_, .f32⟩
  | 37 => ⟨S256, .f32⟩
  | 38 => ⟨S_, .f32⟩
  | 39 => ⟨S256, .f32⟩
  | 40 => ⟨S256, .f32⟩
  | 41 => ⟨S1x256, .f32⟩
  | 42 => ⟨S50000x256, .f32⟩
  | 43 => ⟨S50000x256, .f32⟩
  | 44 => ⟨S50000x256, .f32⟩
  | 45 => ⟨S_, .f32⟩
  | 46 => ⟨S256, .f32⟩
  | 47 => ⟨S_, .f32⟩
  | 48 => ⟨S256, .f32⟩
  | 49 => ⟨S256, .f32⟩
  | 50 => ⟨S1x256, .f32⟩
  | 51 => ⟨S50000x256, .f32⟩
  | 52 => ⟨S50000x256, .f32⟩
  | 53 => ⟨S1x256, .f32⟩
  | 54 => ⟨S50000x256, .f32⟩
  | 55 => ⟨S50000x256, .f32⟩
  | 56 => ⟨S_, .f32⟩
  | 57 => ⟨S256, .f32⟩
  | 58 => ⟨S256, .f32⟩
  | 59 => ⟨S256, .f32⟩
  | 60 => ⟨S1x256, .f32⟩
  | 61 => ⟨S50000x256, .f32⟩
  | 62 => ⟨S50000x256, .f32⟩
  | 63 => ⟨S1x256, .f32⟩
  | 64 => ⟨S50000x256, .f32⟩
  | 65 => ⟨S50000x256, .f32⟩
  | 66 => ⟨S50000x1, .f32⟩
  | 67 => ⟨S1x1, .f32⟩
  | 68 => ⟨S50000x1, .f32⟩
  | 69 => ⟨S50000x1, .f32⟩
  | _ => ⟨S50000x26, .f32⟩

abbrev hbmTy (i : Nat) : BufTy := match i / 128 with
  | 0 => hbmTy0_0 i
  | 1 => hbmTy0_1 i
  | _ => ⟨S50000x26, .f32⟩

abbrev bufTy : (tb : Table) → Fin (tcTables nBuf tb) → BufTy
  | .hbm, ⟨i, _⟩ => hbmTy i
  | _, _ => ⟨S50000x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_2 : Ref sig .tc := ⟨.hbm, 52, rfl⟩
abbrev main_v29 : Ref sig .tc := ⟨.hbm, 53, rfl⟩
abbrev main_v30 : Ref sig .tc := ⟨.hbm, 54, rfl⟩
abbrev main_c_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_4 : Ref sig .tc := ⟨.hbm, 62, rfl⟩
abbrev main_v37 : Ref sig .tc := ⟨.hbm, 63, rfl⟩
abbrev main_v38 : Ref sig .tc := ⟨.hbm, 64, rfl⟩
abbrev main_c_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_9 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_11 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call1_cst : Ref sig .tc := ⟨.hbm, 111, rfl⟩
abbrev main_call1_v0 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_12 : Ref sig .tc := ⟨.hbm, 119, rfl⟩
abbrev main_v84 : Ref sig .tc := ⟨.hbm, 120, rfl⟩
abbrev main_cst_13 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_14 : Ref sig .tc := ⟨.hbm, 126, rfl⟩
abbrev main_v89 : Ref sig .tc := ⟨.hbm, 127, rfl⟩
abbrev main_v90 : Ref sig .tc := ⟨.hbm, 128, rfl⟩
abbrev main_c_15 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_c_16 : Ref sig .tc := ⟨.hbm, 135, rfl⟩
abbrev main_v96 : Ref sig .tc := ⟨.hbm, 136, rfl⟩
abbrev main_v97 : Ref sig .tc := ⟨.hbm, 137, rfl⟩
abbrev main_c_17 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_c_18 : Ref sig .tc := ⟨.hbm, 145, rfl⟩
abbrev main_v104 : Ref sig .tc := ⟨.hbm, 146, rfl⟩
abbrev main_v105 : Ref sig .tc := ⟨.hbm, 147, rfl⟩
abbrev main_c_19 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_20 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_21 : Ref sig .tc := ⟨.hbm, 164, rfl⟩
abbrev main_v120 : Ref sig .tc := ⟨.hbm, 165, rfl⟩
abbrev main_cst_22 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_23 : Ref sig .tc := ⟨.hbm, 173, rfl⟩
abbrev main_v127 : Ref sig .tc := ⟨.hbm, 174, rfl⟩
abbrev main_cst_24 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_25 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  reducesTo_S50000x256_S256_d0 : S50000x256.ReducesTo [0] S256
  h_S_ : 0 < S_.numel
  bcast_S_S256 : S_.BroadcastsInDim S256 (![] : Fin 0 → Fin S256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x26_S26x256_S50000x256_1_0_0_1_n_n_wf : DotDims.WF S50000x26 S26x256 S50000x256 [1] [0] [0] [1] [] []
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x1_S50000x1_1_0_0_1_n_n_wf : DotDims.WF S50000x256 S256x1 S50000x1 [1] [0] [0] [1] [] []

variable [Facts₀]

def dot_S50000x26_S26x256_S50000x256_1_0_0_1_n_n : DotDims S50000x26 S26x256 S50000x256 where
  lhsContracting := [1]
  rhsContracting := [0]
  lhsNonContracting := [0]
  rhsNonContracting := [1]
  lhsBatch := []
  rhsBatch := []
  wf := dot_S50000x26_S26x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KRun.lean ====
/-
  The idealized kernel program's run with its result array named.

  Every weakly fair execution of the program terminates without a fault; the final memory holds, at every buffer that
  outlives the program, the contents the boundary fold assigns after the last region. Read at the result buffer this
  names the result; read at the arguments it gives them back unchanged.
-/
import proofs.«135957_j57604101374612_1_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v117) = W12 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v117 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c)⟩)

end Cert.KernelIdeal.KVal

end
-- ==== Proof.Spec.lean ====
/-
  The layers of a two-layer graph network as whole-array functions on the extended reals. Independent of any program.

  A matrix is a function of a rank-2 index. The layers are built from a few pieces: the product of two matrices
  (the sum over the shared axis), a row added to every row of a matrix, the entrywise maximum with zero, an affine map
  of every row by a row of scales and a row of shifts, the entrywise sum and square, and the sum of a matrix down each
  column. Each piece is read at an index (p, q) by unfolding, so a proof that a program computes one of them reads the
  program at (p, q) and compares.
-/
import Idealize.ShloMosaic.PureOps.Ideal
import Idealize.ShloMosaic.Lib.ValueIdx

noncomputable section

namespace Cert.Gnn

open Idealize.ShloMosaic Idealize.ShloMosaic.ValueIdx

/-- A matrix of extended reals with M rows and N columns. -/
abbrev Mat (M N : Nat) : Type := (⟨2, ![M, N]⟩ : Shape).Idx → EReal

/-- A vector of extended reals with N entries. -/
abbrev Vc (N : Nat) : Type := (⟨1, ![N]⟩ : Shape).Idx → EReal

/-- The value of the single-precision zero word (it is the real number 0). -/
abbrev zeroW : EReal := Ideal.ofBits .f32 0x00000000#32

variable {M K N : Nat}

/-- The matrix product: entry (p, q) is the sum over k of h (p, k) · w (k, q). -/
def lin (h : Mat M K) (w : Mat K N) : Mat M N :=
  fun i => ∑ k : Fin K, h (ix2 (i 0 : Fin M) k) * w (ix2 k (i 1 : Fin N))

/-- A row added to every row of a matrix. -/
def rowAdd (a : Mat M N) (r : Mat 1 N) : Mat M N := fun i => a i + r (ix2 (0 : Fin 1) (i 1 : Fin N))

/-- The entrywise maximum with the zero word's value. -/
def relu (a : Mat M N) : Mat M N := fun i => max (a i) zeroW

/-- Every row scaled entrywise by a row of scales, then shifted by a row of shifts. -/
def affine (sc sh : Mat 1 N) (a : Mat M N) : Mat M N :=
  fun i => sc (ix2 (0 : Fin 1) (i 1 : Fin N)) * a i + sh (ix2 (0 : Fin 1) (i 1 : Fin N))

/-- The entrywise sum of two matrices. -/
def addA (a b : Mat M N) : Mat M N := fun i => a i + b i

/-- The entrywise square. -/
def sq (a : Mat M N) : Mat M N := fun i => a i * a i

/-- The sum down each column, as a row. -/
def colSum (a : Mat M N) : Mat 1 N := fun i => ∑ n : Fin M, a (ix2 n (i 1 : Fin N))

/-- A vector laid out as a row. -/
def row (b : Vc N) : Mat 1 N := fun i => b (ix1 (i 1 : Fin N))

theorem lin_apply (h : Mat M K) (w : Mat K N) (p : Fin M) (q : Fin N) :
    lin h w (ix2 p q) = ∑ k : Fin K, h (ix2 p k) * w (ix2 k q) := rfl
theorem rowAdd_apply (a : Mat M N) (r : Mat 1 N) (p : Fin M) (q : Fin N) :
    rowAdd a r (ix2 p q) = a (ix2 p q) + r (ix2 0 q) := rfl
theorem relu_apply (a : Mat M N) (p : Fin M) (q : Fin N) : relu a (ix2 p q) = max (a (ix2 p q)) zeroW := rfl
theorem affine_apply (sc sh : Mat 1 N) (a : Mat M N) (p : Fin M) (q : Fin N) :
    affine sc sh a (ix2 p q) = sc (ix2 0 q) * a (ix2 p q) + sh (ix2 0 q) := rfl
theorem addA_apply (a b : Mat M N) (p : Fin M) (q : Fin N) : addA a b (ix2 p q) = a (ix2 p q) + b (ix2 p q) := rfl
theorem sq_apply (a : Mat M N) (p : Fin M) (q : Fin N) : sq a (ix2 p q) = a (ix2 p q) * a (ix2 p q) := rfl
theorem colSum_apply (a : Mat M N) (p : Fin 1) (q : Fin N) : colSum a (ix2 p q) = ∑ n : Fin M, a (ix2 n q) := rfl
theorem row_apply (b : Vc N) (p : Fin 1) (q : Fin N) : row b (ix2 p q) = b (ix1 q) := rfl

/-- The encoder: two dense layers, each with a bias row, the first followed by the maximum with zero. -/
def enc {D H : Nat} (x : Mat M D) (w1 : Mat D H) (b1 : Mat 1 H) (w2 : Mat H N) (b2 : Mat 1 N) : Mat M N :=
  rowAdd (lin (relu (rowAdd (lin x w1) b1)) w2) b2

end Cert.Gnn

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.KEnc.lean ====
/-
  The encoder of region 0: two dense layers over a [50000, 26] array of rows, computed 2000 rows at a time over 25
  grid points.

  At each point the body takes a block of 2000 rows x, multiplies it by the first weight matrix into a zero
  accumulator, adds the first bias row to every row, takes the entrywise maximum with zero, multiplies the result by
  the second weight matrix into a zero accumulator and adds the second bias row to every row (the changes of float
  format around the products are the identity on the extended reals). So the block's result at (p, q) is the
  encoder of the block read at (p, q), and that entry depends on the rows only through row p of the block, which is
  row 2000 t + p of the array; the weights and the bias rows are whole-array windows, the same at every point. Hence
  point t writes back block t of the whole-array encoder, and since the 25 blocks tile the 50000 rows (row r lies
  in block r / 2000) the output array ends as the whole-array encoder.
-/
import proofs.«135957_j57604101374612_1_alg».proof.Proof.Gen.KernelIdeal.Frame
import proofs.«135957_j57604101374612_1_alg».proof.Proof.Spec
import proofs.«135957_j57604101374612_1_alg».proof.Proof.LibPlainDot
import proofs.«135957_j57604101374612_1_alg».proof.Proof.LibRowLayout
import Idealize.ShloMosaic.Lib.Pipeline.Value
import Idealize.ShloMosaic.Lib.ValueIdx
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen Cert.Gnn
open Idealize.ShloMosaic.Pipeline (Dat Cfg Window)

variable (V : (c : Dev nD) → (b : Ref sig .tc) → Buf (Elt Ideal) ((c : Thread nD τ).loc b))

/-- The offsets of a whole-buffer access are zero on both axes. -/
theorem enc_hz : (![0, 0] : Fin 2 → Nat) = fun _ => 0 := funext fun a => by fin_cases a <;> rfl

/-- The body's result at (p, q) is the encoder of its five loaded blocks at (p, q). -/
theorem enc_pay_apply (x0 : FVec Ideal S2000x26 .f32) (x1 : FVec Ideal S26x256 .f32) (x2 : FVec Ideal S1x256 .f32)
    (x3 : FVec Ideal S256x256 .f32) (x4 : FVec Ideal S1x256 .f32) (p : Fin 2000) (q : Fin 256) :
    k0_pay1 (F := Ideal) x0 x1 x2 x3 x4 (ix2 p q)
      = enc (x0 : Mat 2000 26) (x1 : Mat 26 256) (x2 : Mat 1 256) (x3 : Mat 256 256) (x4 : Mat 1 256) (ix2 p q) := by
  unfold k0_pay1
  rw [shapeCast_self, shapeCast_self]
  refine (addf_apply _ _ (ix2 p q)).trans ?_
  refine Eq.trans ?_ (rowAdd_apply _ (x4 : Mat 1 256) p q).symm
  refine congrArg₂ (· + ·) ?_ ?_
  · refine (Cert.Lib.matmul_zero_apply _ none _ _ p q).trans ?_
    refine Eq.trans ?_ (lin_apply _ (x3 : Mat 256 256) p q).symm
    refine Finset.sum_congr rfl fun k _ => ?_
    refine congrArg₂ (· * ·) ?_ rfl
    refine (truncf_apply (ψ := .bf16) _ bitsLt_bf16_f32 (ix2 p k)).trans ?_
    refine (maximumf_apply _ _ (ix2 p k)).trans ?_
    refine Eq.trans ?_ (relu_apply _ p k).symm
    refine congrArg₂ max ?_ rfl
    refine (addf_apply _ _ (ix2 p k)).trans ?_
    refine Eq.trans ?_ (rowAdd_apply _ (x2 : Mat 1 256) p k).symm
    refine congrArg₂ (· + ·) ?_ ?_
    · exact Cert.Lib.matmul_zero_apply _ none _ _ p k
    · exact Cert.Lib.rowBroadcast_apply _ _ p k
  · exact Cert.Lib.rowBroadcast_apply _ _ p q

/-- An entry of the encoder depends on the rows only through its own row: two row arrays that agree on one row
    each, with the same weights and bias rows, give the same entry in that row and a given column. -/
theorem enc_row_congr {M M' : Nat} (x : Mat M 26) (x' : Mat M' 26) (w1 w1' : Mat 26 256) (b1 b1' : Mat 1 256)
    (w2 w2' : Mat 256 256) (b2 b2' : Mat 1 256) (p : Fin M) (q : Fin 256) (i' : (⟨2, ![M', 256]⟩ : Shape).Idx)
    (hx : ∀ d : Fin 26, x (ix2 p d) = x' (ix2 (i' 0 : Fin M') d)) (hq : (i' 1).val = q.val)
    (h1 : w1 = w1') (h2 : b1 = b1') (h3 : w2 = w2') (h4 : b2 = b2') :
    enc x w1 b1 w2 b2 (ix2 p q) = enc x' w1' b1' w2' b2' i' := by
  subst h1 h2 h3 h4
  obtain ⟨p', q', rfl⟩ : ∃ (p' : Fin M') (q' : Fin 256), i' = ix2 p' q' := ⟨i' 0, i' 1, eq_ix2 i'⟩
  obtain rfl : q' = q := Fin.ext hq
  have hx' : ∀ d : Fin 26, x (ix2 p d) = x' (ix2 p' d) := hx
  show (∑ k : Fin 256, max ((∑ d : Fin 26, x (ix2 p d) * w1 (ix2 d k)) + b1 (ix2 0 k)) zeroW * w2 (ix2 k q')) + b2 (ix2 0 q')
    = (∑ k : Fin 256, max ((∑ d : Fin 26, x' (ix2 p' d) * w1 (ix2 d k)) + b1 (ix2 0 k)) zeroW * w2 (ix2 k q')) + b2 (ix2 0 q')
  simp only [hx']

/-- The index maps over the 25 points: the row window moves with the output window; the weight and bias windows and
    every column index stay at block 0. -/
theorem enc_idx : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every one of the 25 row blocks is some point's output block. -/
theorem enc_onto : ∀ (q0 : Fin 25) (q1 : Fin 1), ∃ t : Fin cfg0.N, win0_5.index t = ![q0.val, q1.val] :=
  (by decide +kernel : ∀ (q0 : Fin 25) (q1 : Fin 1), ∃ t : Fin grid0.N, win0_5.index t = ![q0.val, q1.val])

/-- An entry of the row window's block at point t is the array's entry in the same column, at the block's first row
    plus the row inside the block. -/
theorem enc_rows (c : Dev nD) (t : Fin cfg0.N) (y : S2000x26.Idx) (i : S50000x26.Idx)
    (h0 : (i 0).val = win0_0.index t (0 : Fin 2) * 2000 + (y 0).val)
    (h1 : (i 1).val = win0_0.index t (1 : Fin 2) * 26 + (y 1).val) :
    (iblk0 (F := Ideal) V c 0 t : Vec Ideal S2000x26 .f32) y = (V c main_arg0 : S50000x26.Idx → EReal) i := by
  unfold iblk0
  rw [View.read_apply]
  show V c main_arg0 _ = V c main_arg0 _
  refine congrArg _ ?_
  funext a
  apply Fin.ext
  match a with
  | ⟨0, _⟩ => show win0_0.index t (0 : Fin 2) * 2000 + 1 * (y 0).val = (i 0).val; omega
  | ⟨1, _⟩ => show win0_0.index t (1 : Fin 2) * 26 + 1 * (y 1).val = (i 1).val; omega

/-- The first weight window's block at a point is the whole first weight matrix. -/
theorem enc_w1_at (c : Dev nD) (t : Fin cfg0.N) (y : S26x256.Idx) :
    (iblk0 (F := Ideal) V c 1 t : Vec Ideal S26x256 .f32) y = (V c main_arg3 : S26x256.Idx → EReal) y := by
  obtain ⟨_, _, e0, e1, _⟩ := enc_idx t
  unfold iblk0
  rw [View.read_apply]
  show V c main_arg3 _ = V c main_arg3 _
  refine congrArg _ ?_
  funext a
  apply Fin.ext
  match a with
  | ⟨0, _⟩ => show win0_1.index t (0 : Fin 2) * 26 + 1 * (y 0).val = (y 0).val; omega
  | ⟨1, _⟩ => show win0_1.index t (1 : Fin 2) * 256 + 1 * (y 1).val = (y 1).val; omega

/-- The first bias window's block at a point is the whole first bias row. -/
theorem enc_b1_at (c : Dev nD) (t : Fin cfg0.N) (y : S1x256.Idx) :
    (iblk0 (F := Ideal) V c 2 t : Vec Ideal S1x256 .f32) y = (V c main_v4 : S1x256.Idx → EReal) y := by
  obtain ⟨_, _, _, _, e0, e1, _⟩ := enc_idx t
  unfold iblk0
  rw [View.read_apply]
  show V c main_v4 _ = V c main_v4 _
  refine congrArg _ ?_
  funext a
  apply Fin.ext
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The second weight window's block at a point is the whole second weight matrix. -/
theorem enc_w2_at (c : Dev nD) (t : Fin cfg0.N) (y : S256x256.Idx) :
    (iblk0 (F := Ideal) V c 3 t : Vec Ideal S256x256 .f32) y = (V c main_arg5 : S256x256.Idx → EReal) y := by
  obtain ⟨_, _, _, _, _, _, e0, e1, _⟩ := enc_idx t
  unfold iblk0
  rw [View.read_apply]
  show V c main_arg5 _ = V c main_arg5 _
  refine congrArg _ ?_
  funext a
  apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- The second bias window's block at a point is the whole second bias row. -/
theorem enc_b2_at (c : Dev nD) (t : Fin cfg0.N) (y : S1x256.Idx) :
    (iblk0 (F := Ideal) V c 4 t : Vec Ideal S1x256 .f32) y = (V c main_v5 : S1x256.Idx → EReal) y := by
  obtain ⟨_, _, _, _, _, _, _, _, e0, e1, _⟩ := enc_idx t
  unfold iblk0
  rw [View.read_apply]
  show V c main_v5 _ = V c main_v5 _
  refine congrArg _ ?_
  funext a
  apply Fin.ext
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- What point t writes back is block t of the whole-array encoder. -/
theorem enc_flushed_eq (c : Dev nD) (t : Fin cfg0.N) :
    (dat0 (F := Ideal) V c).flushed 5 t
      = ((cfg0.win 5).blk t).view.read (Elt Ideal)
          (enc (V c main_arg0) (V c main_arg3) (V c main_v4) (V c main_arg5) (V c main_v5)) := by
  show (cfg0.win 5).cut (grid0.coords t) ((dat0 (F := Ideal) V c).after 5 t) = _
  rw [after0_5]
  unfold out0_5
  rw [View.canon_unit_zero enc_hz]
  simp only [View.ld_unit_zero (S := S2000x26) enc_hz, View.ld_unit_zero (S := S26x256) enc_hz,
    View.ld_unit_zero (S := S1x256) enc_hz, View.ld_unit_zero (S := S256x256) enc_hz]
  obtain ⟨e0, e1, _, _, _, _, _, _, _, _, e10⟩ := enc_idx t
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = enc (V c main_arg0) (V c main_arg3) (V c main_v4) (V c main_arg5) (V c main_v5)
        (((cfg0.win 5).blk t).view.emb (ix2 p q))
  refine (enc_pay_apply _ _ _ _ _ p q).trans ?_
  have r0 : ((((cfg0.win 5).blk t).view.emb (ix2 p q)) (0 : Fin 2)).val = win0_5.index t (0 : Fin 2) * 2000 + 1 * p.val := rfl
  have r1 : ((((cfg0.win 5).blk t).view.emb (ix2 p q)) (1 : Fin 2)).val = win0_5.index t (1 : Fin 2) * 256 + 1 * q.val := rfl
  refine enc_row_congr _ _ _ _ _ _ _ _ _ _ p q _ (fun d => ?_) ?_
    (funext fun y => enc_w1_at V c t y) (funext fun y => enc_b1_at V c t y)
    (funext fun y => enc_w2_at V c t y) (funext fun y => enc_b2_at V c t y)
  · refine enc_rows V c t (ix2 p d) _ ?_ ?_
    · show ((((cfg0.win 5).blk t).view.emb (ix2 p q)) (0 : Fin 2)).val = win0_0.index t (0 : Fin 2) * 2000 + p.val
      omega
    · show d.val = win0_0.index t (1 : Fin 2) * 26 + d.val
      omega
  · omega

/-- An index of the output array is in point t's block iff each coordinate is in the block's range on its axis. -/
theorem enc_mem_blk (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v6).slice (win0_5.rect t)).set ↔ _
  rw [View.set_slice_whole, Rect.mem_set_unit]
  exact Iff.rfl

/-- Row r of the output array lies in the block of the point whose block index is r / 2000: the blocks cover the array. -/
theorem enc_cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := enc_onto ⟨(i 0).val / 2000, by omega⟩ ⟨(i 1).val / 256, by omega⟩
  have q0 : win0_5.index t (0 : Fin 2) = (i 0).val / 2000 := congrFun ht 0
  have q1 : win0_5.index t (1 : Fin 2) = (i 1).val / 256 := congrFun ht 1
  refine ⟨t, flush0_5 t, ?_⟩
  rw [enc_mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 256 ≤ (i 1).val ∧ (i 1).val < win0_5.index t (1 : Fin 2) * 256 + 256
    omega

/-- The output array after the region is the encoder of the row array, the two weight matrices and the two bias rows. -/
theorem enc_final (c : Dev nD) :
    (dat0 (F := Ideal) V c).arrAt 5 cfg0.N
      = enc (V c main_arg0) (V c main_arg3) (V c main_v4) (V c main_arg5) (V c main_v5) :=
  (dat0 (F := Ideal) V c).arrAt_eq_of_cover 5
    (enc (V c main_arg0) (V c main_arg3) (V c main_v4) (V c main_arg5) (V c main_v5))
    (fun t _ => enc_flushed_eq V c t) enc_cover

end Cert.KernelIdeal.KVal

end
-- ==== Proof.KLin1.lean ====
/-
  The dense layer of region 1: a [50000, 256] array of rows times a [256, 256] weight matrix, computed 2000 rows at a
  time over 25 grid points.

  At each point the body multiplies the block of rows it was given by the whole weight matrix into a zero accumulator
  (the changes of float format around the product are the identity on the extended reals). Entry (p, q) of the block's
  result is therefore the sum over k of row p of the block at k times the weight at (k, q); row p of block t is row
  2000 t + p of the array, so what point t writes back is block t of the whole-array product. The 25 blocks tile the
  50000 rows (row r lies in block r / 2000), so the output array ends as the whole product.
-/
import proofs.«135957_j57604101374612_1_alg».proof.Proof.Gen.KernelIdeal.Frame
import proofs.«135957_j57604101374612_1_alg».proof.Proof.Spec
import proofs.«135957_j57604101374612_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen Cert.Gnn
open Idealize.ShloMosaic.Pipeline (Dat Cfg Window)

variable (V : (c : Dev nD) → (b : Ref sig .tc) → Buf (Elt Ideal) ((c : Thread nD τ).loc b))

/-- The offsets of a whole-buffer access are zero on both axes. -/
theorem lin1_hz : (![0, 0] : Fin 2 → Nat) = fun _ => 0 := funext fun a => by fin_cases a <;> rfl

/-- The body's result at (p, q): the sum over k of the row block at (p, k) times the weight at (k, q). -/
theorem lin1_pay_apply (x0 : FVec Ideal S2000x256 .f32) (x1 : FVec Ideal S256x256 .f32) (p : Fin 2000) (q : Fin 256) :
    k1_pay1 (F := Ideal) x0 x1 (ix2 p q) = ∑ k : Fin 256, x0 (ix2 p k) * x1 (ix2 k q) := by
  unfold k1_pay1
  rw [shapeCast_self]
  exact Cert.Lib.matmul_zero_apply _ none _ _ p q

/-- The index maps over the 25 points: the row window moves with the output window, the weight window and every
    column index stay at block 0. -/
theorem lin1_idx : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every one of the 25 row blocks is some point's output block. -/
theorem lin1_onto : ∀ (q0 : Fin 25) (q1 : Fin 1), ∃ t : Fin cfg1.N, win1_2.index t = ![q0.val, q1.val] :=
  (by decide +kernel : ∀ (q0 : Fin 25) (q1 : Fin 1), ∃ t : Fin grid1.N, win1_2.index t = ![q0.val, q1.val])

/-- An entry of the row window's block at point t is the array's entry in the same column, at the block's first row
    plus the row inside the block. -/
theorem lin1_rows (c : Dev nD) (t : Fin cfg1.N) (y : S2000x256.Idx) (i : S50000x256.Idx)
    (h0 : (i 0).val = win1_0.index t (0 : Fin 2) * 2000 + (y 0).val)
    (h1 : (i 1).val = win1_0.index t (1 : Fin 2) * 256 + (y 1).val) :
    (iblk1 (F := Ideal) V c 0 t : Vec Ideal S2000x256 .f32) y = (V c main_v6 : S50000x256.Idx → EReal) i := by
  unfold iblk1
  rw [View.read_apply]
  show V c main_v6 _ = V c main_v6 _
  refine congrArg _ ?_
  funext a
  apply Fin.ext
  match a with
  | ⟨0, _⟩ => show win1_0.index t (0 : Fin 2) * 2000 + 1 * (y 0).val = (i 0).val; omega
  | ⟨1, _⟩ => show win1_0.index t (1 : Fin 2) * 256 + 1 * (y 1).val = (i 1).val; omega

/-- An entry of the weight window's block at point t is the weight matrix's entry at the block's offsets plus the
    position inside the block. -/
theorem lin1_weight (c : Dev nD) (t : Fin cfg1.N) (y : S256x256.Idx) (i : S256x256.Idx)
    (h0 : (i 0).val = win1_1.index t (0 : Fin 2) * 256 + (y 0).val)
    (h1 : (i 1).val = win1_1.index t (1 : Fin 2) * 256 + (y 1).val) :
    (iblk1 (F := Ideal) V c 1 t : Vec Ideal S256x256 .f32) y = (V c main_arg7 : S256x256.Idx → EReal) i := by
  unfold iblk1
  rw [View.read_apply]
  show V c main_arg7 _ = V c main_arg7 _
  refine congrArg _ ?_
  funext a
  apply Fin.ext
  match a with
  | ⟨0, _⟩ => show win1_1.index t (0 : Fin 2) * 256 + 1 * (y 0).val = (i 0).val; omega
  | ⟨1, _⟩ => show win1_1.index t (1 : Fin 2) * 256 + 1 * (y 1).val = (i 1).val; omega

/-- What point t writes back is block t of the whole-array product. -/
theorem lin1_flushed_eq (c : Dev nD) (t : Fin cfg1.N) :
    (dat1 (F := Ideal) V c).flushed 2 t
      = ((cfg1.win 2).blk t).view.read (Elt Ideal) (lin (V c main_v6) (V c main_arg7)) := by
  show (cfg1.win 2).cut (grid1.coords t) ((dat1 (F := Ideal) V c).after 2 t) = _
  rw [after1_2]
  unfold out1_2
  rw [View.canon_unit_zero lin1_hz]
  simp only [View.ld_unit_zero (S := S2000x256) lin1_hz, View.ld_unit_zero (S := S256x256) lin1_hz]
  obtain ⟨e0, e1, e2, e3, e4⟩ := lin1_idx t
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (ix2 p q)
    = lin (V c main_v6) (V c main_arg7) (((cfg1.win 2).blk t).view.emb (ix2 p q))
  refine (lin1_pay_apply _ _ p q).trans ?_
  have r0 : ((((cfg1.win 2).blk t).view.emb (ix2 p q)) (0 : Fin 2)).val = win1_2.index t (0 : Fin 2) * 2000 + 1 * p.val := rfl
  have r1 : ((((cfg1.win 2).blk t).view.emb (ix2 p q)) (1 : Fin 2)).val = win1_2.index t (1 : Fin 2) * 256 + 1 * q.val := rfl
  refine Finset.sum_congr rfl fun k _ => ?_
  refine congrArg₂ (· * ·) ?_ ?_
  · refine lin1_rows V c t (ix2 p k) _ ?_ ?_
    · show ((((cfg1.win 2).blk t).view.emb (ix2 p q)) (0 : Fin 2)).val = win1_0.index t (0 : Fin 2) * 2000 + p.val
      omega
    · show k.val = win1_0.index t (1 : Fin 2) * 256 + k.val
      omega
  · refine lin1_weight V c t (ix2 k q) _ ?_ ?_
    · show k.val = win1_1.index t (0 : Fin 2) * 256 + k.val
      omega
    · show ((((cfg1.win 2).blk t).view.emb (ix2 p q)) (1 : Fin 2)).val = win1_1.index t (1 : Fin 2) * 256 + q.val
      omega

/-- An index of the output array is in point t's block iff each coordinate is in the block's range on its axis. -/
theorem lin1_mem_blk (t : Fin cfg1.N) (i : S50000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v7).slice (win1_2.rect t)).set ↔ _
  rw [View.set_slice_whole, Rect.mem_set_unit]
  exact Iff.rfl

/-- Row r of the output array lies in the block of the point whose block index is r / 2000: the blocks cover the array. -/
theorem lin1_cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := lin1_onto ⟨(i 0).val / 2000, by omega⟩ ⟨(i 1).val / 256, by omega⟩
  have q0 : win1_2.index t (0 : Fin 2) = (i 0).val / 2000 := congrFun ht 0
  have q1 : win1_2.index t (1 : Fin 2) = (i 1).val / 256 := congrFun ht 1
  refine ⟨t, flush1_2 t, ?_⟩
  rw [lin1_mem_blk]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 256 ≤ (i 1).val ∧ (i 1).val < win1_2.index t (1 : Fin 2) * 256 + 256
    omega

/-- The output array after the region is the product of the row array and the weight matrix. -/
theorem lin1_final (c : Dev nD) :
    (dat1 (F := Ideal) V c).arrAt 2 cfg1.N = lin (V c main_v6) (V c main_arg7) :=
  (dat1 (F := Ideal) V c).arrAt_eq_of_cover 2 (lin (V c main_v6) (V c main_arg7))
    (fun t _ => lin1_flushed_eq V c t) lin1_cover

end Cert.KernelIdeal.KVal

end
-- ==== Proof.KLin4.lean ====
/-
  The dense layer of region 4: a [50000, 256] array of rows times a [256, 256] weight matrix, computed 2000 rows at a
  time over 25 grid points.

  At each point the body multiplies the block of rows it was given by the whole weight matrix into a zero accumulator
  (the changes of float format around the product are the identity on the extended reals). Entry (p, q) of the block's
  result is therefore the sum over k of row p of the block at k times the weight at (k, q); row p of block t is row
  2000 t + p of the array, so what point t writes back is block t of the whole-array product. The 25 blocks tile the
  50000 rows (row r lies in block r / 2000), so the output array ends as the whole product.
-/
import proofs.«135957_j57604101374612_1_alg».proof.Proof.Gen.KernelIdeal.Frame
import proofs.«135957_j57604101374612_1_alg».proof.Proof.Spec
import proofs.«135957_j57604101374612_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen Cert.Gnn
open Idealize.ShloMosaic.Pipeline (Dat Cfg Window)

variable (V : (c : Dev nD) → (b : Ref sig .tc) → Buf (Elt Ideal) ((c : Thread nD τ).loc b))

/-- The offsets of a whole-buffer access are zero on both axes. -/
theorem lin4_hz : (![0, 0] : Fin 2 → Nat) = fun _ => 0 := funext fun a => by fin_cases a <;> rfl

/-- The body's result at (p, q): the sum over k of the row block at (p, k) times the weight at (k, q). -/
theorem lin4_pay_apply (x0 : FVec Ideal S2000x256 .f32) (x1 : FVec Ideal S256x256 .f32) (p : Fin 2000) (q : Fin 256) :
    k4_pay1 (F := Ideal) x0 x1 (ix2 p q) = ∑ k : Fin 256, x0 (ix2 p k) * x1 (ix2 k q) := by
  unfold k4_pay1
  rw [shapeCast_self]
  exact Cert.Lib.matmul_zero_apply _ none _ _ p q

/-- The index maps over the 25 points: the row window moves with the output window, the weight window and every
    column index stay at block 0. -/
theorem lin4_idx : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every one of the 25 row blocks is some point's output block. -/
theorem lin4_onto : ∀ (q0 : Fin 25) (q1 : Fin 1), ∃ t : Fin cfg4.N, win4_2.index t = ![q0.val, q1.val] :=
  (by decide +kernel : ∀ (q0 : Fin 25) (q1 : Fin 1), ∃ t : Fin grid4.N, win4_2.index t = ![q0.val, q1.val])

/-- An entry of the row window's block at point t is the array's entry in the same column, at the block's first row
    plus the row inside the block. -/
theorem lin4_rows (c : Dev nD) (t : Fin cfg4.N) (y : S2000x256.Idx) (i : S50000x256.Idx)
    (h0 : (i 0).val = win4_0.index t (0 : Fin 2) * 2000 + (y 0).val)
    (h1 : (i 1).val = win4_0.index t (1 : Fin 2) * 256 + (y 1).val) :
    (iblk4 (F := Ideal) V c 0 t : Vec Ideal S2000x256 .f32) y = (V c main_v61 : S50000x256.Idx → EReal) i := by
  unfold iblk4
  rw [View.read_apply]
  show V c main_v61 _ = V c main_v61 _
  refine congrArg _ ?_
  funext a
  apply Fin.ext
  match a with
  | ⟨0, _⟩ => show win4_0.index t (0 : Fin 2) * 2000 + 1 * (y 0).val = (i 0).val; omega
  | ⟨1, _⟩ => show win4_0.index t (1 : Fin 2) * 256 + 1 * (y 1).val = (i 1).val; omega

/-- An entry of the weight window's block at point t is the weight matrix's entry at the block's offsets plus the
    position inside the block. -/
theorem lin4_weight (c : Dev nD) (t : Fin cfg4.N) (y : S256x256.Idx) (i : S256x256.Idx)
    (h0 : (i 0).val = win4_1.index t (0 : Fin 2) * 256 + (y 0).val)
    (h1 : (i 1).val = win4_1.index t (1 : Fin 2) * 256 + (y 1).val) :
    (iblk4 (F := Ideal) V c 1 t : Vec Ideal S256x256 .f32) y = (V c main_arg9 : S256x256.Idx → EReal) i := by
  unfold iblk4
  rw [View.read_apply]
  show V c main_arg9 _ = V c main_arg9 _
  refine congrArg _ ?_
  funext a
  apply Fin.ext
  match a with
  | ⟨0, _⟩ => show win4_1.index t (0 : Fin 2) * 256 + 1 * (y 0).val = (i 0).val; omega
  | ⟨1, _⟩ => show win4_1.index t (1 : Fin 2) * 256 + 1 * (y 1).val = (i 1).val; omega

/-- What point t writes back is block t of the whole-array product. -/
theorem lin4_flushed_eq (c : Dev nD) (t : Fin cfg4.N) :
    (dat4 (F := Ideal) V c).flushed 2 t
      = ((cfg4.win 2).blk t).view.read (Elt Ideal) (lin (V c main_v61) (V c main_arg9)) := by
  show (cfg4.win 2).cut (grid4.coords t) ((dat4 (F := Ideal) V c).after 2 t) = _
  rw [after4_2]
  unfold out4_2
  rw [View.canon_unit_zero lin4_hz]
  simp only [View.ld_unit_zero (S := S2000x256) lin4_hz, View.ld_unit_zero (S := S256x256) lin4_hz]
  obtain ⟨e0, e1, e2, e3, e4⟩ := lin4_idx t
  funext j
  obtain ⟨p, q, rfl⟩ : ∃ (p : Fin 2000) (q : Fin 256), j = ix2 p q := ⟨j 0, j 1, eq_ix2 j⟩
  show k4_pay1 (F := Ideal) (iblk4 V c 0 t) (iblk4 V c 1 t) (ix2 p q)
    = lin (V c main_v61) (V c main_arg9) (((cfg4.win 2).blk t).view.emb (ix2 p q))
  refine (lin4_pay_apply _ _ p q).trans ?_
  have r0 : ((((cfg4.win 2).blk t).view.emb (ix2 p q)) (0 : Fin 2)).val = win4_2.index t (0 : Fin 2) * 2000 + 1 * p.val := rfl
  have r1 : ((((cfg4.win 2).blk t).view.emb (ix2 p q)) (1 : Fin 2)).val = win4_2.index t (1 : Fin 2) * 256 + 1 * q.val := rfl
  refine Finset.sum_congr rfl fun k _ => ?_
  refine congrArg₂ (· * ·) ?_ ?_
  · refine lin4_rows V c t (ix2 p k) _ ?_ ?_
    · show ((((cfg4.win 2).blk t).view.emb (ix2 p q)) (0 : Fin 2)).val = win4_0.index t (0 : Fin 2) * 2000 + p.val
      omega
    · show k.val = win4_0.index t (1 : Fin 2) * 256 + k.val
      omega
  · refine lin4_weight V c t (ix2 k q) _ ?_ ?_
    · show k.val = win4_1.index t (0 : Fin 2) * 256 + k.val
      omega
    · show ((((cfg4.win 2).blk t).view.emb (ix2 p q)) (1 : Fin 2)).val = win4_1.index t (1 : Fin 2) * 256 + q.val
      omega

/-- An index of the output array is in point t's block iff each coordinate is in the block's range on its axis. -/
theorem lin4_mem_blk (t : Fin cfg4.N) (i : S50000x256.Idx) :
    i ∈ ((cfg4.win 2).blk t).view.set ↔ ∀ a : Fin 2, win4_2.index t a * S2000x256.size a ≤ (i a).val
      ∧ (i a).val < win4_2.index t a * S2000x256.size a + S2000x256.size a := by
  show i ∈ ((View.whole main_v62).slice (win4_2.rect t)).set ↔ _
  rw [View.set_slice_whole, Rect.mem_set_unit]
  exact Iff.rfl

/-- Row r of the output array lies in the block of the point whose block index is r / 2000: the blocks cover the array. -/
theorem lin4_cover (i : S50000x256.Idx) :
    ∃ t : Fin cfg4.N, (cfg4.win 2).flush t = true ∧ i ∈ ((cfg4.win 2).blk t).view.set := by
  have hi0 : (i 0).val < 50000 := (i 0).isLt
  have hi1 : (i 1).val < 256 := (i 1).isLt
  obtain ⟨t, ht⟩ := lin4_onto ⟨(i 0).val / 2000, by omega⟩ ⟨(i 1).val / 256, by omega⟩
  have q0 : win4_2.index t (0 : Fin 2) = (i 0).val / 2000 := congrFun ht 0
  have q1 : win4_2.index t (1 : Fin 2) = (i 1).val / 256 := congrFun ht 1
  refine ⟨t, flush4_2 t, ?_⟩
  rw [lin4_mem_blk]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 256 ≤ (i 1).val ∧ (i 1).val < win4_2.index t (1 : Fin 2) * 256 + 256
    omega

/-- The output array after the region is the product of the row array and the weight matrix. -/
theorem lin4_final (c : Dev nD) :
    (dat4 (F := Ideal) V c).arrAt 2 cfg4.N = lin (V c main_v61) (V c main_arg9) :=
  (dat4 (F := Ideal) V c).arrAt_eq_of_cover 2 (lin (V c main_v61) (V c main_arg9))
    (fun t _ => lin4_flushed_eq V c t) lin4_cover

end Cert.KernelIdeal.KVal

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibBlockSum.lean ====
/-
  A sum over the first B·(j+1) natural numbers, taken block by block: the terms before block j, plus the B terms of
  block j. This is how a contraction over a long axis is accumulated in pieces of width B; over a commutative monoid
  (the extended reals under addition are one) the pieces add up to the whole sum, whatever the values.
-/
import Mathlib.Algebra.BigOperators.Fin
import Mathlib.Algebra.BigOperators.Intervals

namespace Cert.Lib.BlockSum

open Finset

variable {M : Type*} [AddCommMonoid M]

/-- The terms before block `j`, plus the `B` terms of block `j`, are the terms before block `j + 1`. -/
theorem sum_range_block (f : ℕ → M) (B j : ℕ) :
    ∑ k ∈ range (B * j), f k + ∑ k : Fin B, f (B * j + k.val) = ∑ k ∈ range (B * (j + 1)), f k := by
  rw [Nat.mul_succ, Finset.sum_range_add, Finset.sum_range (fun k => f (B * j + k))]

/-- Block 0 alone: its `B` terms are the terms before block 1. -/
theorem sum_first_block (f : ℕ → M) (B : ℕ) :
    ∑ k : Fin B, f (B * 0 + k.val) = ∑ k ∈ range (B * (0 + 1)), f k := by
  rw [← sum_range_block f B 0, Nat.mul_zero, Finset.range_zero, Finset.sum_empty, zero_add]

end Cert.Lib.BlockSum
-- ==== Proof.KStats2.lean ====
/-
  The two accumulated rows of the first of the program's two column-statistics regions: what its two [1, 256] output
  arrays hold after the region, as functions of the two arrays it reads.

  The region visits 25 points. Point t reads rows 2000·t … 2000·t + 1999 of a [50000, 256] matrix A and, whole, a
  [1, 256] bias row b. Write X for A with b added to every row. Each output is one row that stays in place from point to
  point: the first point stores the zero row into it, and every point, the first included, adds to the row it finds the
  sum down each column of its 2000 rows of X (first output), or of the squares of those entries (second output). The rows
  are written back once, after the last point.

  So after point n the first row holds, at column q, the sum of X over rows 0 … 2000·(n + 1) - 1 of column q, and the
  second the sum of the squares; after point 24 these are the sums over all 50000 rows: the first output is the row of
  column sums of X, the second the row of column sums of the entrywise square of X. Over the extended reals addition is
  commutative and associative at every value, infinite ones included, and the zero word is the number 0, so the
  block-by-block accumulation is the one sum with no condition on the entries.
-/
import proofs.«135957_j57604101374612_1_alg».proof.Proof.Gen.KernelIdeal.Frame
import proofs.«135957_j57604101374612_1_alg».proof.Proof.Spec
import proofs.«135957_j57604101374612_1_alg».proof.Proof.LibAxisSums
import proofs.«135957_j57604101374612_1_alg».proof.Proof.LibRowLayout
import proofs.«135957_j57604101374612_1_alg».proof.Proof.LibBlockSum
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen Cert.Gnn
open Idealize.ShloMosaic.Pipeline (Dat Cfg Window)

/-! ## What each case of the body leaves in the two accumulator rows

The body keeps two rows of 256 entries, one per output. At the first point it stores the zero row into each and reads it
back; at every point it then adds, to the row it reads, the column sums of the point's block of 2000 rows shifted by the
bias row (for the first output) and the column sums of the squares of those shifted entries (for the second). -/

section Pieces
variable {F : FTy → Type} [FloatOps F]

theorem stats2_hz : (![0, 0] : Fin 2 → Nat) = fun _ => 0 := funext fun a => by fin_cases a <;> rfl

/-- A later point leaves, in the first output's row holding `xo2`, that row plus the block's shifted column sums. -/
theorem stats2_later_sum (c : Dev nD) (i : grid2.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : ¬cond2_0 i)
    (x0 : Vec F S2000x256 .f32) (x1 xo2 xo3 : Vec F S1x256 .f32) :
    out2_B_2 c i a1 h1 a2 h2 a3 h3 a4 h4 hc x0 x1 xo2 xo3 = k2_pay4 x0 x1 xo2 := by
  unfold out2_B_2
  rw [View.read_writes_eq_canon _ _ _ (cover2_B_2 c i a1 h1 a2 h2 a3 h3 a4 h4 hc x0 x1 xo2 xo3)]
  unfold kernelRun2_B
  dsimp only
  try sl_unfold_words
  rw [View.canon_unit_zero stats2_hz]
  simp only [View.readAt_eq_ld, h1.read_unread, h2.read_unread, h3.read_unread,
    View.ld_unit_zero (S := S2000x256) stats2_hz, View.ld_unit_zero (S := S1x256) stats2_hz]

/-- A later point leaves, in the second output's row holding `xo3`, that row plus the block's column sums of squares. -/
theorem stats2_later_sumsq (c : Dev nD) (i : grid2.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : ¬cond2_0 i)
    (x0 : Vec F S2000x256 .f32) (x1 xo2 xo3 : Vec F S1x256 .f32) :
    out2_B_3 c i a1 h1 a2 h2 a3 h3 a4 h4 hc x0 x1 xo2 xo3 = k2_pay5 x0 x1 xo3 := by
  unfold out2_B_3
  rw [View.read_writes_eq_canon _ _ _ (cover2_B_3 c i a1 h1 a2 h2 a3 h3 a4 h4 hc x0 x1 xo2 xo3)]
  unfold kernelRun2_B
  dsimp only
  try sl_unfold_words
  rw [View.canon_unit_zero stats2_hz]
  simp only [View.readAt_eq_ld, h1.read_unread, h2.read_unread, h4.read_unread,
    View.ld_unit_zero (S := S2000x256) stats2_hz, View.ld_unit_zero (S := S1x256) stats2_hz]

/-- The first point leaves, in the first output's row, the zero row plus the block's shifted column sums. -/
theorem stats2_first_sum (c : Dev nD) (i : grid2.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : cond2_0 i)
    (x0 : Vec F S2000x256 .f32) (x1 : Vec F S1x256 .f32) :
    out2_A_2 c i a1 h1 a2 h2 a3 h3 a4 h4 hc x0 x1 = k2_pay4 x0 x1 k2_pay1 := by
  unfold out2_A_2
  rw [View.read_writes_eq_canon _ _ _ (cover2_A_2 c i a1 h1 a2 h2 a3 h3 a4 h4 hc x0 x1)]
  unfold kernelRun2_A
  dsimp only
  sl_unfold_words
  rw [View.canon_cons_unit_zero (S := S1x256) stats2_hz, View.readCov_unit_zero (S := S1x256) _ stats2_hz]
  simp only [View.readAt_eq_ld, h1.read_unread, h2.read_unread,
    View.ld_unit_zero (S := S2000x256) stats2_hz, View.ld_unit_zero (S := S1x256) stats2_hz]

/-- The first point leaves, in the second output's row, the zero row plus the block's column sums of squares. -/
theorem stats2_first_sumsq (c : Dev nD) (i : grid2.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : cond2_0 i)
    (x0 : Vec F S2000x256 .f32) (x1 : Vec F S1x256 .f32) :
    out2_A_3 c i a1 h1 a2 h2 a3 h3 a4 h4 hc x0 x1 = k2_pay5 x0 x1 k2_pay2 := by
  unfold out2_A_3
  rw [View.read_writes_eq_canon _ _ _ (cover2_A_3 c i a1 h1 a2 h2 a3 h3 a4 h4 hc x0 x1)]
  unfold kernelRun2_A
  dsimp only
  sl_unfold_words
  rw [View.canon_cons_unit_zero (S := S1x256) stats2_hz, View.readCov_unit_zero (S := S1x256) _ stats2_hz]
  simp only [View.readAt_eq_ld, h1.read_unread, h2.read_unread,
    View.ld_unit_zero (S := S2000x256) stats2_hz, View.ld_unit_zero (S := S1x256) stats2_hz]

end Pieces

/-! ## The body's arithmetic read at a column, over the extended reals -/

section Payloads

/-- The zero row stored into the first output is 0 at every column. -/
theorem stats2_zeroRowSum_apply (q : Fin 256) : k2_pay1 (F := Ideal) (ix2 0 q) = 0 := by
  unfold k2_pay1
  exact Ideal.ofBits_zero_f32

/-- The zero row stored into the second output is 0 at every column. -/
theorem stats2_zeroRowSq_apply (q : Fin 256) : k2_pay2 (F := Ideal) (ix2 0 q) = 0 := by
  unfold k2_pay2
  exact Ideal.ofBits_zero_f32

/-- The shifted block: entry (p, q) of the block plus entry q of the bias row. -/
theorem stats2_shifted_apply (x0 : Vec Ideal S2000x256 .f32) (x1 : Vec Ideal S1x256 .f32) (p : Fin 2000) (q : Fin 256) :
    k2_pay3 (F := Ideal) x0 x1 (ix2 p q) = x0 (ix2 p q) + x1 (ix2 0 q) := by
  unfold k2_pay3
  refine (addf_apply _ _ _).trans ?_
  rw [shapeCast_self, shapeCast_self, Cert.Lib.rowBroadcast_apply]

/-- The new first row at column q: the old entry plus the sum down column q of the shifted block. -/
theorem stats2_sumRow_apply (x0 : Vec Ideal S2000x256 .f32) (x1 xo : Vec Ideal S1x256 .f32) (q : Fin 256) :
    k2_pay4 (F := Ideal) x0 x1 xo (ix2 0 q) = xo (ix2 0 q) + ∑ k : Fin 2000, (x0 (ix2 k q) + x1 (ix2 0 q)) := by
  unfold k2_pay4
  refine (addf_apply _ _ _).trans ?_
  rw [shapeCast_self]
  refine congrArg (xo (ix2 0 q) + ·) ?_
  refine (Cert.Lib.vecToRow_apply _ _ q).trans ?_
  refine (Cert.Lib.colSum_apply (a := 2000) (b := 256) _ _ _ _ _ q).trans ?_
  exact Finset.sum_congr rfl fun k _ => stats2_shifted_apply x0 x1 k q

/-- The new second row at column q: the old entry plus the sum down column q of the squares of the shifted block. -/
theorem stats2_sqRow_apply (x0 : Vec Ideal S2000x256 .f32) (x1 xo : Vec Ideal S1x256 .f32) (q : Fin 256) :
    k2_pay5 (F := Ideal) x0 x1 xo (ix2 0 q)
      = xo (ix2 0 q) + ∑ k : Fin 2000, (x0 (ix2 k q) + x1 (ix2 0 q)) * (x0 (ix2 k q) + x1 (ix2 0 q)) := by
  unfold k2_pay5
  refine (addf_apply _ _ _).trans ?_
  rw [shapeCast_self]
  refine congrArg (xo (ix2 0 q) + ·) ?_
  refine (Cert.Lib.vecToRow_apply _ _ q).trans ?_
  refine (Cert.Lib.colSum_apply (a := 2000) (b := 256) _ _ _ _ _ q).trans ?_
  refine Finset.sum_congr rfl fun k _ => ?_
  refine (mulf_apply _ _ _).trans ?_
  rw [stats2_shifted_apply]

end Payloads

/-! ## The blocks the body reads, as entries of the two input arrays

Point t's block of the first input is rows 2000·t … 2000·t + 1999 of the [50000, 256] array; the second input, the bias
row, is read whole at every point; each output's one block is its whole [1, 256] array. -/

/-- Where each window's block sits at point t, decided over the 25 points: the first input's block index is (t, 0),
    every other window's is (0, 0). -/
theorem stats2_blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

variable (V : (c : Dev nD) → (b : Ref sig .tc) → Buf (Elt Ideal) ((c : Thread nD τ).loc b))

/-- Entry (k, q) of point t's block of the first input is entry (2000·t + k, q) of the array. -/
theorem stats2_rowsBlock_apply (c : Dev nD) (t : Fin cfg2.N) (k : Fin 2000) (q : Fin 256) (r : Fin 50000)
    (hr : r.val = 2000 * t.val + k.val) :
    (iblk2 (F := Ideal) V c 0 t : Vec Ideal S2000x256 .f32) (ix2 k q) = (V c main_v43 : Mat 50000 256) (ix2 r q) := by
  obtain ⟨e0, e1, -⟩ := stats2_blockIndex t
  unfold iblk2
  rw [View.read_apply]
  show V c main_v43 (((cfg2.win 0).blk t).view.emb (ix2 k q)) = V c main_v43 (ix2 r q)
  refine congrArg (V c main_v43) (funext fun a => Fin.ext ?_)
  match a with
  | ⟨0, _⟩ => show win2_0.index t (0 : Fin 2) * 2000 + 1 * k.val = r.val; rw [e0, hr]; omega
  | ⟨1, _⟩ => show win2_0.index t (1 : Fin 2) * 256 + 1 * q.val = q.val; rw [e1]; omega

/-- Entry (0, q) of the second input's block, at any point, is entry (0, q) of the bias row. -/
theorem stats2_biasBlock_apply (c : Dev nD) (t : Fin cfg2.N) (q : Fin 256) :
    (iblk2 (F := Ideal) V c 1 t : Vec Ideal S1x256 .f32) (ix2 0 q) = (V c main_v44 : Mat 1 256) (ix2 0 q) := by
  obtain ⟨-, -, e0, e1, -⟩ := stats2_blockIndex t
  unfold iblk2
  rw [View.read_apply]
  show V c main_v44 (((cfg2.win 1).blk t).view.emb (ix2 0 q)) = V c main_v44 (ix2 0 q)
  refine congrArg (V c main_v44) (funext fun a => Fin.ext ?_)
  match a with
  | ⟨0, _⟩ => show win2_1.index t (0 : Fin 2) * 1 + 1 * 0 = 0; rw [e0]
  | ⟨1, _⟩ => show win2_1.index t (1 : Fin 2) * 256 + 1 * q.val = q.val; rw [e1]; omega

/-! ## The running sums

Column q of a matrix with 50000 rows is continued by zeros to a sequence over all natural numbers, so that the rows
before block j + 1 are a range of naturals whatever j is. After point n each output row holds, at column q, the sum of
the first 2000·(n + 1) terms of the column's sequence: the first point starts from the zero row, every later point adds
its block's 2000 terms to what the point before left. Addition of extended reals is commutative and associative, so no
entry needs to be finite. -/

/-- Column q of a 50000-row matrix as a sequence: its entries in row order, then zeros. -/
def stats2_colSeq (Y : Mat 50000 256) (q : Fin 256) : ℕ → EReal :=
  Function.extend (Fin.val : Fin 50000 → ℕ) (fun r => Y (ix2 r q)) 0

/-- The sequence at a row number is the matrix's entry in that row. -/
theorem stats2_colSeq_row (Y : Mat 50000 256) (q : Fin 256) (r : Fin 50000) : stats2_colSeq Y q r.val = Y (ix2 r q) :=
  Fin.val_injective.extend_apply (fun r => Y (ix2 r q)) 0 r

/-- The first 50000 terms add up to the column's sum. -/
theorem stats2_colSeq_total (Y : Mat 50000 256) (q : Fin 256) :
    ∑ k ∈ Finset.range 50000, stats2_colSeq Y q k = colSum Y (ix2 0 q) := by
  rw [Finset.sum_range]
  exact Finset.sum_congr rfl fun r _ => stats2_colSeq_row Y q r

/-- The matrix both sums are taken of: the first input with the bias row added to every row. -/
abbrev stats2_shifted (c : Dev nD) : Mat 50000 256 := rowAdd (V c main_v43 : Mat 50000 256) (V c main_v44 : Mat 1 256)

/-- Point t's block of the first input, and the bias row as point t reads it. -/
abbrev stats2_rowsAt (c : Dev nD) (t : Fin cfg2.N) : Vec Ideal S2000x256 .f32 := iblk2 (F := Ideal) V c 0 t
abbrev stats2_biasAt (c : Dev nD) (t : Fin cfg2.N) : Vec Ideal S1x256 .f32 := iblk2 (F := Ideal) V c 1 t

/-- Term k of point t's block, shifted, is term 2000·t + k of the shifted matrix's column. -/
theorem stats2_blockTerm (c : Dev nD) (t : Fin cfg2.N) (k : Fin 2000) (q : Fin 256) :
    stats2_rowsAt V c t (ix2 k q) + stats2_biasAt V c t (ix2 0 q) = stats2_colSeq (stats2_shifted V c) q (2000 * t.val + k.val) := by
  unfold stats2_rowsAt stats2_biasAt
  have hN : t.val < 25 := lt_of_lt_of_eq t.isLt (show cfg2.N = 25 from N_2)
  have hr : 2000 * t.val + k.val < 50000 := by have := k.isLt; omega
  rw [stats2_rowsBlock_apply V c t k q ⟨2000 * t.val + k.val, hr⟩ rfl, stats2_biasBlock_apply V c t q]
  exact (stats2_colSeq_row (stats2_shifted V c) q ⟨2000 * t.val + k.val, hr⟩).symm

/-- The same for the squares. -/
theorem stats2_blockSqTerm (c : Dev nD) (t : Fin cfg2.N) (k : Fin 2000) (q : Fin 256) :
    (stats2_rowsAt V c t (ix2 k q) + stats2_biasAt V c t (ix2 0 q)) * (stats2_rowsAt V c t (ix2 k q) + stats2_biasAt V c t (ix2 0 q))
      = stats2_colSeq (sq (stats2_shifted V c)) q (2000 * t.val + k.val) := by
  unfold stats2_rowsAt stats2_biasAt
  have hN : t.val < 25 := lt_of_lt_of_eq t.isLt (show cfg2.N = 25 from N_2)
  have hr : 2000 * t.val + k.val < 50000 := by have := k.isLt; omega
  rw [stats2_rowsBlock_apply V c t k q ⟨2000 * t.val + k.val, hr⟩ rfl, stats2_biasBlock_apply V c t q]
  exact (stats2_colSeq_row (sq (stats2_shifted V c)) q ⟨2000 * t.val + k.val, hr⟩).symm

/-- What the first output's row holds after the first point: the zero row and the first block's sums. -/
theorem stats2_rowAfterFirst (c : Dev nD) (t : Fin cfg2.N) (h0 : t.val % 25 = 0) :
    (outsAt2 (F := Ideal) V c t.val t.isLt).1 = k2_pay4 (iblk2 V c 0 t) (iblk2 V c 1 t) (k2_pay1 (F := Ideal)) := by
  rw [outsAt2_A V c t h0]
  exact stats2_first_sum (F := Ideal) c (grid2.coords t) (ms2_0 t) (hs2_0 t) (ms2_1 t) (hs2_1 t) (ms2_2 t) (hs2_2 t) (ms2_3 t) (hs2_3 t) ((hcond2_0 t).mpr h0) (iblk2 V c 0 t) (iblk2 V c 1 t)

theorem stats2_sqRowAfterFirst (c : Dev nD) (t : Fin cfg2.N) (h0 : t.val % 25 = 0) :
    (outsAt2 (F := Ideal) V c t.val t.isLt).2 = k2_pay5 (iblk2 V c 0 t) (iblk2 V c 1 t) (k2_pay2 (F := Ideal)) := by
  rw [outsAt2_A V c t h0]
  exact stats2_first_sumsq (F := Ideal) c (grid2.coords t) (ms2_0 t) (hs2_0 t) (ms2_1 t) (hs2_1 t) (ms2_2 t) (hs2_2 t) (ms2_3 t) (hs2_3 t) ((hcond2_0 t).mpr h0) (iblk2 V c 0 t) (iblk2 V c 1 t)

/-- What the first output's row holds after a later point: what the point before left and this block's sums. -/
theorem stats2_rowAfterLater (c : Dev nD) (t : Fin cfg2.N) (h0 : ¬t.val % 25 = 0) :
    (outsAt2 (F := Ideal) V c t.val t.isLt).1
      = k2_pay4 (iblk2 V c 0 t) (iblk2 V c 1 t) (outsAt2 V c (t.val - 1) (Nat.lt_of_le_of_lt (Nat.sub_le _ _) t.isLt)).1 := by
  rw [outsAt2_B V c t h0]
  exact stats2_later_sum (F := Ideal) c (grid2.coords t) (ms2_0 t) (hs2_0 t) (ms2_1 t) (hs2_1 t) (ms2_2 t) (hs2_2 t) (ms2_3 t) (hs2_3 t) (fun h => h0 ((hcond2_0 t).mp h)) (iblk2 V c 0 t) (iblk2 V c 1 t)
    (outsAt2 V c (t.val - 1) (Nat.lt_of_le_of_lt (Nat.sub_le _ _) t.isLt)).1 (outsAt2 V c (t.val - 1) (Nat.lt_of_le_of_lt (Nat.sub_le _ _) t.isLt)).2

theorem stats2_sqRowAfterLater (c : Dev nD) (t : Fin cfg2.N) (h0 : ¬t.val % 25 = 0) :
    (outsAt2 (F := Ideal) V c t.val t.isLt).2
      = k2_pay5 (iblk2 V c 0 t) (iblk2 V c 1 t) (outsAt2 V c (t.val - 1) (Nat.lt_of_le_of_lt (Nat.sub_le _ _) t.isLt)).2 := by
  rw [outsAt2_B V c t h0]
  exact stats2_later_sumsq (F := Ideal) c (grid2.coords t) (ms2_0 t) (hs2_0 t) (ms2_1 t) (hs2_1 t) (ms2_2 t) (hs2_2 t) (ms2_3 t) (hs2_3 t) (fun h => h0 ((hcond2_0 t).mp h)) (iblk2 V c 0 t) (iblk2 V c 1 t)
    (outsAt2 V c (t.val - 1) (Nat.lt_of_le_of_lt (Nat.sub_le _ _) t.isLt)).1 (outsAt2 V c (t.val - 1) (Nat.lt_of_le_of_lt (Nat.sub_le _ _) t.isLt)).2

/-- THE RUNNING SUM: after point n the first output's row holds, at column q, the sum of the shifted matrix's column
    over its first 2000·(n + 1) rows. -/
theorem stats2_runningSum (c : Dev nD) : ∀ (n : ℕ) (h : n < cfg2.N) (q : Fin 256),
    ((outsAt2 (F := Ideal) V c n h).1 : Vec Ideal S1x256 .f32) (ix2 0 q)
      = ∑ k ∈ Finset.range (2000 * (n + 1)), stats2_colSeq (stats2_shifted V c) q k
  | 0, h, q => by
    rw [stats2_rowAfterFirst V c ⟨0, h⟩ rfl, stats2_sumRow_apply, stats2_zeroRowSum_apply, zero_add,
      ← Cert.Lib.BlockSum.sum_first_block (stats2_colSeq (stats2_shifted V c) q) 2000]
    exact Finset.sum_congr rfl fun k _ => stats2_blockTerm V c ⟨0, h⟩ k q
  | n + 1, h, q => by
    have hN : cfg2.N = 25 := N_2
    have hB : ¬(⟨n + 1, h⟩ : Fin cfg2.N).val % 25 = 0 := by dsimp only; omega
    rw [stats2_rowAfterLater V c ⟨n + 1, h⟩ hB, stats2_sumRow_apply,
      ← Cert.Lib.BlockSum.sum_range_block (stats2_colSeq (stats2_shifted V c) q) 2000 (n + 1)]
    refine congrArg₂ (· + ·) (stats2_runningSum c n (Nat.lt_of_succ_lt h) q) ?_
    exact Finset.sum_congr rfl fun k _ => stats2_blockTerm V c ⟨n + 1, h⟩ k q

/-- THE RUNNING SUM OF SQUARES: the same for the second output's row and the squares of the shifted matrix. -/
theorem stats2_runningSumSq (c : Dev nD) : ∀ (n : ℕ) (h : n < cfg2.N) (q : Fin 256),
    ((outsAt2 (F := Ideal) V c n h).2 : Vec Ideal S1x256 .f32) (ix2 0 q)
      = ∑ k ∈ Finset.range (2000 * (n + 1)), stats2_colSeq (sq (stats2_shifted V c)) q k
  | 0, h, q => by
    rw [stats2_sqRowAfterFirst V c ⟨0, h⟩ rfl, stats2_sqRow_apply, stats2_zeroRowSq_apply, zero_add,
      ← Cert.Lib.BlockSum.sum_first_block (stats2_colSeq (sq (stats2_shifted V c)) q) 2000]
    exact Finset.sum_congr rfl fun k _ => stats2_blockSqTerm V c ⟨0, h⟩ k q
  | n + 1, h, q => by
    have hN : cfg2.N = 25 := N_2
    have hB : ¬(⟨n + 1, h⟩ : Fin cfg2.N).val % 25 = 0 := by dsimp only; omega
    rw [stats2_sqRowAfterLater V c ⟨n + 1, h⟩ hB, stats2_sqRow_apply,
      ← Cert.Lib.BlockSum.sum_range_block (stats2_colSeq (sq (stats2_shifted V c)) q) 2000 (n + 1)]
    refine congrArg₂ (· + ·) (stats2_runningSumSq c n (Nat.lt_of_succ_lt h) q) ?_
    exact Finset.sum_congr rfl fun k _ => stats2_blockSqTerm V c ⟨n + 1, h⟩ k q

/-! ## The write-back and the two output arrays after the region

Each output's one block is its whole [1, 256] array, written back once, after the last point (point 24): by then the
running sums are over all 2000·25 = 50000 rows. -/

/-- After the last point the first output's row is the row of column sums over all 50000 rows. -/
theorem stats2_sumRowAtLast (c : Dev nD) (t : Fin cfg2.N) (h24 : t.val = 24) :
    ((outsAt2 (F := Ideal) V c t.val t.isLt).1 : Vec Ideal S1x256 .f32) = colSum (stats2_shifted V c) := by
  funext i
  obtain ⟨p, q, rfl⟩ : ∃ (p : Fin 1) (q : Fin 256), i = ix2 p q := ⟨i 0, i 1, eq_ix2 i⟩
  obtain rfl : p = 0 := Subsingleton.elim _ _
  rw [stats2_runningSum V c t.val t.isLt q, h24]
  exact stats2_colSeq_total (stats2_shifted V c) q

/-- After the last point the second output's row is the row of column sums of squares. -/
theorem stats2_sqRowAtLast (c : Dev nD) (t : Fin cfg2.N) (h24 : t.val = 24) :
    ((outsAt2 (F := Ideal) V c t.val t.isLt).2 : Vec Ideal S1x256 .f32) = colSum (sq (stats2_shifted V c)) := by
  funext i
  obtain ⟨p, q, rfl⟩ : ∃ (p : Fin 1) (q : Fin 256), i = ix2 p q := ⟨i 0, i 1, eq_ix2 i⟩
  obtain rfl : p = 0 := Subsingleton.elim _ _
  rw [stats2_runningSumSq V c t.val t.isLt q, h24]
  exact stats2_colSeq_total (sq (stats2_shifted V c)) q

/-- An output's one block is its whole array: contents of the first output's array, read through the block at any
    point, are the contents themselves (the block index is (0, 0) and the block is not cut). -/
theorem stats2_sumWholeBlock (c : Dev nD) (t : Fin cfg2.N) (G : Buf (Elt Ideal) ((c : Thread nD τ).loc main_v45_0)) :
    (cfg2.win 2).cut (grid2.coords t) G = ((cfg2.win 2).blk t).view.read (Elt Ideal) G := by
  obtain ⟨-, -, -, -, e0, e1, -⟩ := stats2_blockIndex t
  funext y
  rw [View.read_apply]
  show G _ = G (((cfg2.win 2).blk t).view.emb y)
  refine congrArg G (funext fun a => Fin.ext ?_)
  match a with
  | ⟨0, _⟩ => show (y 0).val = win2_2.index t (0 : Fin 2) * 1 + 1 * (y 0).val; rw [e0]; omega
  | ⟨1, _⟩ => show (y 1).val = win2_2.index t (1 : Fin 2) * 256 + 1 * (y 1).val; rw [e1]; omega

/-- The same for the second output's array. -/
theorem stats2_sqWholeBlock (c : Dev nD) (t : Fin cfg2.N) (G : Buf (Elt Ideal) ((c : Thread nD τ).loc main_v45_1)) :
    (cfg2.win 3).cut (grid2.coords t) G = ((cfg2.win 3).blk t).view.read (Elt Ideal) G := by
  obtain ⟨-, -, -, -, -, -, e0, e1⟩ := stats2_blockIndex t
  funext y
  rw [View.read_apply]
  show G _ = G (((cfg2.win 3).blk t).view.emb y)
  refine congrArg G (funext fun a => Fin.ext ?_)
  match a with
  | ⟨0, _⟩ => show (y 0).val = win2_3.index t (0 : Fin 2) * 1 + 1 * (y 0).val; rw [e0]; omega
  | ⟨1, _⟩ => show (y 1).val = win2_3.index t (1 : Fin 2) * 256 + 1 * (y 1).val; rw [e1]; omega

/-- What the one write-back of the first output writes is the block of the column sums of the shifted matrix. -/
theorem stats2_sum_flushed (c : Dev nD) (t : Fin cfg2.N) (hf : (cfg2.win 2).flush t = true) :
    (dat2 (F := Ideal) V c).flushed 2 t = ((cfg2.win 2).blk t).view.read (Elt Ideal) (colSum (stats2_shifted V c)) := by
  have hN : cfg2.N = 25 := N_2
  have h24 : t.val = 24 := by have := (flush2_2 t).mp hf; have := t.isLt; omega
  show (cfg2.win 2).cut (grid2.coords t) ((dat2 V c).after 2 t) = _
  rw [after2_2]
  rw [stats2_sumRowAtLast V c t h24]
  exact stats2_sumWholeBlock c t (colSum (stats2_shifted V c))

/-- What the one write-back of the second output writes is the block of the column sums of the squares. -/
theorem stats2_sumsq_flushed (c : Dev nD) (t : Fin cfg2.N) (hf : (cfg2.win 3).flush t = true) :
    (dat2 (F := Ideal) V c).flushed 3 t = ((cfg2.win 3).blk t).view.read (Elt Ideal) (colSum (sq (stats2_shifted V c))) := by
  have hN : cfg2.N = 25 := N_2
  have h24 : t.val = 24 := by have := (flush2_3 t).mp hf; have := t.isLt; omega
  show (cfg2.win 3).cut (grid2.coords t) ((dat2 V c).after 3 t) = _
  rw [after2_3]
  rw [stats2_sqRowAtLast V c t h24]
  exact stats2_sqWholeBlock c t (colSum (sq (stats2_shifted V c)))

/-- The last point. -/
abbrev stats2_lastPoint : Fin cfg2.N := ⟨24, by rw [show cfg2.N = 25 from N_2]; decide⟩

/-- Every index of the first output's array is in the block the last point writes back. -/
theorem stats2_sum_cover (i : S1x256.Idx) :
    ∃ t : Fin cfg2.N, (cfg2.win 2).flush t = true ∧ i ∈ ((cfg2.win 2).blk t).view.set := by
  refine ⟨stats2_lastPoint, (flush2_2 stats2_lastPoint).mpr rfl, ?_⟩
  obtain ⟨-, -, -, -, e0, e1, -⟩ := stats2_blockIndex stats2_lastPoint
  show i ∈ ((View.whole main_v45_0).slice (win2_2.rect stats2_lastPoint)).set
  rw [View.set_slice_whole, Rect.mem_set_unit]
  intro a
  have h0 : (i 0 : Nat) < 1 := (i 0).isLt
  have h1 : (i 1 : Nat) < 256 := (i 1).isLt
  match a with
  | ⟨0, _⟩ => show win2_2.index stats2_lastPoint (0 : Fin 2) * 1 ≤ (i 0 : Nat) ∧ (i 0 : Nat) < win2_2.index stats2_lastPoint (0 : Fin 2) * 1 + 1
              rw [e0]; omega
  | ⟨1, _⟩ => show win2_2.index stats2_lastPoint (1 : Fin 2) * 256 ≤ (i 1 : Nat) ∧ (i 1 : Nat) < win2_2.index stats2_lastPoint (1 : Fin 2) * 256 + 256
              rw [e1]; omega

/-- The same for the second output's array. -/
theorem stats2_sumsq_cover (i : S1x256.Idx) :
    ∃ t : Fin cfg2.N, (cfg2.win 3).flush t = true ∧ i ∈ ((cfg2.win 3).blk t).view.set := by
  refine ⟨stats2_lastPoint, (flush2_3 stats2_lastPoint).mpr rfl, ?_⟩
  obtain ⟨-, -, -, -, -, -, e0, e1⟩ := stats2_blockIndex stats2_lastPoint
  show i ∈ ((View.whole main_v45_1).slice (win2_3.rect stats2_lastPoint)).set
  rw [View.set_slice_whole, Rect.mem_set_unit]
  intro a
  have h0 : (i 0 : Nat) < 1 := (i 0).isLt
  have h1 : (i 1 : Nat) < 256 := (i 1).isLt
  match a with
  | ⟨0, _⟩ => show win2_3.index stats2_lastPoint (0 : Fin 2) * 1 ≤ (i 0 : Nat) ∧ (i 0 : Nat) < win2_3.index stats2_lastPoint (0 : Fin 2) * 1 + 1
              rw [e0]; omega
  | ⟨1, _⟩ => show win2_3.index stats2_lastPoint (1 : Fin 2) * 256 ≤ (i 1 : Nat) ∧ (i 1 : Nat) < win2_3.index stats2_lastPoint (1 : Fin 2) * 256 + 256
              rw [e1]; omega

/-- THE FIRST OUTPUT after the region: the column sums, over all 50000 rows, of the first input with the bias row
    added to every row. -/
theorem sum2_final (c : Dev nD) :
    (dat2 (F := Ideal) V c).arrAt 2 cfg2.N = colSum (rowAdd (V c main_v43) (V c main_v44)) :=
  (dat2 (F := Ideal) V c).arrAt_eq_of_cover 2 (colSum (stats2_shifted V c)) (stats2_sum_flushed V c) stats2_sum_cover

/-- THE SECOND OUTPUT after the region: the column sums of the squares of the same matrix. -/
theorem sumsq2_final (c : Dev nD) :
    (dat2 (F := Ideal) V c).arrAt 3 cfg2.N = colSum (sq (rowAdd (V c main_v43) (V c main_v44))) :=
  (dat2 (F := Ideal) V c).arrAt_eq_of_cover 3 (colSum (sq (stats2_shifted V c))) (stats2_sumsq_flushed V c) stats2_sumsq_cover

end Cert.KernelIdeal.KVal

end
-- ==== Proof.KStats5.lean ====
/-
  The two accumulated rows of the second of the program's two column-statistics regions: what its two [1, 256] output
  arrays hold after the region, as functions of the two arrays it reads.

  The region visits 25 points. Point t reads rows 2000·t … 2000·t + 1999 of a [50000, 256] matrix A and, whole, a
  [1, 256] bias row b. Write X for A with b added to every row. Each output is one row that stays in place from point to
  point: the first point stores the zero row into it, and every point, the first included, adds to the row it finds the
  sum down each column of its 2000 rows of X (first output), or of the squares of those entries (second output). The rows
  are written back once, after the last point.

  So after point n the first row holds, at column q, the sum of X over rows 0 … 2000·(n + 1) - 1 of column q, and the
  second the sum of the squares; after point 24 these are the sums over all 50000 rows: the first output is the row of
  column sums of X, the second the row of column sums of the entrywise square of X. Over the extended reals addition is
  commutative and associative at every value, infinite ones included, and the zero word is the number 0, so the
  block-by-block accumulation is the one sum with no condition on the entries.
-/
import proofs.«135957_j57604101374612_1_alg».proof.Proof.Gen.KernelIdeal.Frame
import proofs.«135957_j57604101374612_1_alg».proof.Proof.Spec
import proofs.«135957_j57604101374612_1_alg».proof.Proof.LibAxisSums
import proofs.«135957_j57604101374612_1_alg».proof.Proof.LibRowLayout
import proofs.«135957_j57604101374612_1_alg».proof.Proof.LibBlockSum
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen Cert.Gnn
open Idealize.ShloMosaic.Pipeline (Dat Cfg Window)

/-! ## What each case of the body leaves in the two accumulator rows

The body keeps two rows of 256 entries, one per output. At the first point it stores the zero row into each and reads it
back; at every point it then adds, to the row it reads, the column sums of the point's block of 2000 rows shifted by the
bias row (for the first output) and the column sums of the squares of those shifted entries (for the second). -/

section Pieces
variable {F : FTy → Type} [FloatOps F]

theorem stats5_hz : (![0, 0] : Fin 2 → Nat) = fun _ => 0 := funext fun a => by fin_cases a <;> rfl

/-- A later point leaves, in the first output's row holding `xo2`, that row plus the block's shifted column sums. -/
theorem stats5_later_sum (c : Dev nD) (i : grid5.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : ¬cond5_0 i)
    (x0 : Vec F S2000x256 .f32) (x1 xo2 xo3 : Vec F S1x256 .f32) :
    out5_B_2 c i a1 h1 a2 h2 a3 h3 a4 h4 hc x0 x1 xo2 xo3 = k5_pay4 x0 x1 xo2 := by
  unfold out5_B_2
  rw [View.read_writes_eq_canon _ _ _ (cover5_B_2 c i a1 h1 a2 h2 a3 h3 a4 h4 hc x0 x1 xo2 xo3)]
  unfold kernelRun5_B
  dsimp only
  try sl_unfold_words
  rw [View.canon_unit_zero stats5_hz]
  simp only [View.readAt_eq_ld, h1.read_unread, h2.read_unread, h3.read_unread,
    View.ld_unit_zero (S := S2000x256) stats5_hz, View.ld_unit_zero (S := S1x256) stats5_hz]

/-- A later point leaves, in the second output's row holding `xo3`, that row plus the block's column sums of squares. -/
theorem stats5_later_sumsq (c : Dev nD) (i : grid5.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : ¬cond5_0 i)
    (x0 : Vec F S2000x256 .f32) (x1 xo2 xo3 : Vec F S1x256 .f32) :
    out5_B_3 c i a1 h1 a2 h2 a3 h3 a4 h4 hc x0 x1 xo2 xo3 = k5_pay5 x0 x1 xo3 := by
  unfold out5_B_3
  rw [View.read_writes_eq_canon _ _ _ (cover5_B_3 c i a1 h1 a2 h2 a3 h3 a4 h4 hc x0 x1 xo2 xo3)]
  unfold kernelRun5_B
  dsimp only
  try sl_unfold_words
  rw [View.canon_unit_zero stats5_hz]
  simp only [View.readAt_eq_ld, h1.read_unread, h2.read_unread, h4.read_unread,
    View.ld_unit_zero (S := S2000x256) stats5_hz, View.ld_unit_zero (S := S1x256) stats5_hz]

/-- The first point leaves, in the first output's row, the zero row plus the block's shifted column sums. -/
theorem stats5_first_sum (c : Dev nD) (i : grid5.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : cond5_0 i)
    (x0 : Vec F S2000x256 .f32) (x1 : Vec F S1x256 .f32) :
    out5_A_2 c i a1 h1 a2 h2 a3 h3 a4 h4 hc x0 x1 = k5_pay4 x0 x1 k5_pay1 := by
  unfold out5_A_2
  rw [View.read_writes_eq_canon _ _ _ (cover5_A_2 c i a1 h1 a2 h2 a3 h3 a4 h4 hc x0 x1)]
  unfold kernelRun5_A
  dsimp only
  sl_unfold_words
  rw [View.canon_cons_unit_zero (S := S1x256) stats5_hz, View.readCov_unit_zero (S := S1x256) _ stats5_hz]
  simp only [View.readAt_eq_ld, h1.read_unread, h2.read_unread,
    View.ld_unit_zero (S := S2000x256) stats5_hz, View.ld_unit_zero (S := S1x256) stats5_hz]

/-- The first point leaves, in the second output's row, the zero row plus the block's column sums of squares. -/
theorem stats5_first_sumsq (c : Dev nD) (i : grid5.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : cond5_0 i)
    (x0 : Vec F S2000x256 .f32) (x1 : Vec F S1x256 .f32) :
    out5_A_3 c i a1 h1 a2 h2 a3 h3 a4 h4 hc x0 x1 = k5_pay5 x0 x1 k5_pay2 := by
  unfold out5_A_3
  rw [View.read_writes_eq_canon _ _ _ (cover5_A_3 c i a1 h1 a2 h2 a3 h3 a4 h4 hc x0 x1)]
  unfold kernelRun5_A
  dsimp only
  sl_unfold_words
  rw [View.canon_cons_unit_zero (S := S1x256) stats5_hz, View.readCov_unit_zero (S := S1x256) _ stats5_hz]
  simp only [View.readAt_eq_ld, h1.read_unread, h2.read_unread,
    View.ld_unit_zero (S := S2000x256) stats5_hz, View.ld_unit_zero (S := S1x256) stats5_hz]

end Pieces

/-! ## The body's arithmetic read at a column, over the extended reals -/

section Payloads

/-- The zero row stored into the first output is 0 at every column. -/
theorem stats5_zeroRowSum_apply (q : Fin 256) : k5_pay1 (F := Ideal) (ix2 0 q) = 0 := by
  unfold k5_pay1
  exact Ideal.ofBits_zero_f32

/-- The zero row stored into the second output is 0 at every column. -/
theorem stats5_zeroRowSq_apply (q : Fin 256) : k5_pay2 (F := Ideal) (ix2 0 q) = 0 := by
  unfold k5_pay2
  exact Ideal.ofBits_zero_f32

/-- The shifted block: entry (p, q) of the block plus entry q of the bias row. -/
theorem stats5_shifted_apply (x0 : Vec Ideal S2000x256 .f32) (x1 : Vec Ideal S1x256 .f32) (p : Fin 2000) (q : Fin 256) :
    k5_pay3 (F := Ideal) x0 x1 (ix2 p q) = x0 (ix2 p q) + x1 (ix2 0 q) := by
  unfold k5_pay3
  refine (addf_apply _ _ _).trans ?_
  rw [shapeCast_self, shapeCast_self, Cert.Lib.rowBroadcast_apply]

/-- The new first row at column q: the old entry plus the sum down column q of the shifted block. -/
theorem stats5_sumRow_apply (x0 : Vec Ideal S2000x256 .f32) (x1 xo : Vec Ideal S1x256 .f32) (q : Fin 256) :
    k5_pay4 (F := Ideal) x0 x1 xo (ix2 0 q) = xo (ix2 0 q) + ∑ k : Fin 2000, (x0 (ix2 k q) + x1 (ix2 0 q)) := by
  unfold k5_pay4
  refine (addf_apply _ _ _).trans ?_
  rw [shapeCast_self]
  refine congrArg (xo (ix2 0 q) + ·) ?_
  refine (Cert.Lib.vecToRow_apply _ _ q).trans ?_
  refine (Cert.Lib.colSum_apply (a := 2000) (b := 256) _ _ _ _ _ q).trans ?_
  exact Finset.sum_congr rfl fun k _ => stats5_shifted_apply x0 x1 k q

/-- The new second row at column q: the old entry plus the sum down column q of the squares of the shifted block. -/
theorem stats5_sqRow_apply (x0 : Vec Ideal S2000x256 .f32) (x1 xo : Vec Ideal S1x256 .f32) (q : Fin 256) :
    k5_pay5 (F := Ideal) x0 x1 xo (ix2 0 q)
      = xo (ix2 0 q) + ∑ k : Fin 2000, (x0 (ix2 k q) + x1 (ix2 0 q)) * (x0 (ix2 k q) + x1 (ix2 0 q)) := by
  unfold k5_pay5
  refine (addf_apply _ _ _).trans ?_
  rw [shapeCast_self]
  refine congrArg (xo (ix2 0 q) + ·) ?_
  refine (Cert.Lib.vecToRow_apply _ _ q).trans ?_
  refine (Cert.Lib.colSum_apply (a := 2000) (b := 256) _ _ _ _ _ q).trans ?_
  refine Finset.sum_congr rfl fun k _ => ?_
  refine (mulf_apply _ _ _).trans ?_
  rw [stats5_shifted_apply]

end Payloads

/-! ## The blocks the body reads, as entries of the two input arrays

Point t's block of the first input is rows 2000·t … 2000·t + 1999 of the [50000, 256] array; the second input, the bias
row, is read whole at every point; each output's one block is its whole [1, 256] array. -/

/-- Where each window's block sits at point t, decided over the 25 points: the first input's block index is (t, 0),
    every other window's is (0, 0). -/
theorem stats5_blockIndex : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

variable (V : (c : Dev nD) → (b : Ref sig .tc) → Buf (Elt Ideal) ((c : Thread nD τ).loc b))

/-- Entry (k, q) of point t's block of the first input is entry (2000·t + k, q) of the array. -/
theorem stats5_rowsBlock_apply (c : Dev nD) (t : Fin cfg5.N) (k : Fin 2000) (q : Fin 256) (r : Fin 50000)
    (hr : r.val = 2000 * t.val + k.val) :
    (iblk5 (F := Ideal) V c 0 t : Vec Ideal S2000x256 .f32) (ix2 k q) = (V c main_v98 : Mat 50000 256) (ix2 r q) := by
  obtain ⟨e0, e1, -⟩ := stats5_blockIndex t
  unfold iblk5
  rw [View.read_apply]
  show V c main_v98 (((cfg5.win 0).blk t).view.emb (ix2 k q)) = V c main_v98 (ix2 r q)
  refine congrArg (V c main_v98) (funext fun a => Fin.ext ?_)
  match a with
  | ⟨0, _⟩ => show win5_0.index t (0 : Fin 2) * 2000 + 1 * k.val = r.val; rw [e0, hr]; omega
  | ⟨1, _⟩ => show win5_0.index t (1 : Fin 2) * 256 + 1 * q.val = q.val; rw [e1]; omega

/-- Entry (0, q) of the second input's block, at any point, is entry (0, q) of the bias row. -/
theorem stats5_biasBlock_apply (c : Dev nD) (t : Fin cfg5.N) (q : Fin 256) :
    (iblk5 (F := Ideal) V c 1 t : Vec Ideal S1x256 .f32) (ix2 0 q) = (V c main_v99 : Mat 1 256) (ix2 0 q) := by
  obtain ⟨-, -, e0, e1, -⟩ := stats5_blockIndex t
  unfold iblk5
  rw [View.read_apply]
  show V c main_v99 (((cfg5.win 1).blk t).view.emb (ix2 0 q)) = V c main_v99 (ix2 0 q)
  refine congrArg (V c main_v99) (funext fun a => Fin.ext ?_)
  match a with
  | ⟨0, _⟩ => show win5_1.index t (0 : Fin 2) * 1 + 1 * 0 = 0; rw [e0]
  | ⟨1, _⟩ => show win5_1.index t (1 : Fin 2) * 256 + 1 * q.val = q.val; rw [e1]; omega

/-! ## The running sums

Column q of a matrix with 50000 rows is continued by zeros to a sequence over all natural numbers, so that the rows
before block j + 1 are a range of naturals whatever j is. After point n each output row holds, at column q, the sum of
the first 2000·(n + 1) terms of the column's sequence: the first point starts from the zero row, every later point adds
its block's 2000 terms to what the point before left. Addition of extended reals is commutative and associative, so no
entry needs to be finite. -/

/-- Column q of a 50000-row matrix as a sequence: its entries in row order, then zeros. -/
def stats5_colSeq (Y : Mat 50000 256) (q : Fin 256) : ℕ → EReal :=
  Function.extend (Fin.val : Fin 50000 → ℕ) (fun r => Y (ix2 r q)) 0

/-- The sequence at a row number is the matrix's entry in that row. -/
theorem stats5_colSeq_row (Y : Mat 50000 256) (q : Fin 256) (r : Fin 50000) : stats5_colSeq Y q r.val = Y (ix2 r q) :=
  Fin.val_injective.extend_apply (fun r => Y (ix2 r q)) 0 r

/-- The first 50000 terms add up to the column's sum. -/
theorem stats5_colSeq_total (Y : Mat 50000 256) (q : Fin 256) :
    ∑ k ∈ Finset.range 50000, stats5_colSeq Y q k = colSum Y (ix2 0 q) := by
  rw [Finset.sum_range]
  exact Finset.sum_congr rfl fun r _ => stats5_colSeq_row Y q r

/-- The matrix both sums are taken of: the first input with the bias row added to every row. -/
abbrev stats5_shifted (c : Dev nD) : Mat 50000 256 := rowAdd (V c main_v98 : Mat 50000 256) (V c main_v99 : Mat 1 256)

/-- Point t's block of the first input, and the bias row as point t reads it. -/
abbrev stats5_rowsAt (c : Dev nD) (t : Fin cfg5.N) : Vec Ideal S2000x256 .f32 := iblk5 (F := Ideal) V c 0 t
abbrev stats5_biasAt (c : Dev nD) (t : Fin cfg5.N) : Vec Ideal S1x256 .f32 := iblk5 (F := Ideal) V c 1 t

/-- Term k of point t's block, shifted, is term 2000·t + k of the shifted matrix's column. -/
theorem stats5_blockTerm (c : Dev nD) (t : Fin cfg5.N) (k : Fin 2000) (q : Fin 256) :
    stats5_rowsAt V c t (ix2 k q) + stats5_biasAt V c t (ix2 0 q) = stats5_colSeq (stats5_shifted V c) q (2000 * t.val + k.val) := by
  unfold stats5_rowsAt stats5_biasAt
  have hN : t.val < 25 := lt_of_lt_of_eq t.isLt (show cfg5.N = 25 from N_5)
  have hr : 2000 * t.val + k.val < 50000 := by have := k.isLt; omega
  rw [stats5_rowsBlock_apply V c t k q ⟨2000 * t.val + k.val, hr⟩ rfl, stats5_biasBlock_apply V c t q]
  exact (stats5_colSeq_row (stats5_shifted V c) q ⟨2000 * t.val + k.val, hr⟩).symm

/-- The same for the squares. -/
theorem stats5_blockSqTerm (c : Dev nD) (t : Fin cfg5.N) (k : Fin 2000) (q : Fin 256) :
    (stats5_rowsAt V c t (ix2 k q) + stats5_biasAt V c t (ix2 0 q)) * (stats5_rowsAt V c t (ix2 k q) + stats5_biasAt V c t (ix2 0 q))
      = stats5_colSeq (sq (stats5_shifted V c)) q (2000 * t.val + k.val) := by
  unfold stats5_rowsAt stats5_biasAt
  have hN : t.val < 25 := lt_of_lt_of_eq t.isLt (show cfg5.N = 25 from N_5)
  have hr : 2000 * t.val + k.val < 50000 := by have := k.isLt; omega
  rw [stats5_rowsBlock_apply V c t k q ⟨2000 * t.val + k.val, hr⟩ rfl, stats5_biasBlock_apply V c t q]
  exact (stats5_colSeq_row (sq (stats5_shifted V c)) q ⟨2000 * t.val + k.val, hr⟩).symm

/-- What the first output's row holds after the first point: the zero row and the first block's sums. -/
theorem stats5_rowAfterFirst (c : Dev nD) (t : Fin cfg5.N) (h0 : t.val % 25 = 0) :
    (outsAt5 (F := Ideal) V c t.val t.isLt).1 = k5_pay4 (iblk5 V c 0 t) (iblk5 V c 1 t) (k5_pay1 (F := Ideal)) := by
  rw [outsAt5_A V c t h0]
  exact stats5_first_sum (F := Ideal) c (grid5.coords t) (ms5_0 t) (hs5_0 t) (ms5_1 t) (hs5_1 t) (ms5_2 t) (hs5_2 t) (ms5_3 t) (hs5_3 t) ((hcond5_0 t).mpr h0) (iblk5 V c 0 t) (iblk5 V c 1 t)

theorem stats5_sqRowAfterFirst (c : Dev nD) (t : Fin cfg5.N) (h0 : t.val % 25 = 0) :
    (outsAt5 (F := Ideal) V c t.val t.isLt).2 = k5_pay5 (iblk5 V c 0 t) (iblk5 V c 1 t) (k5_pay2 (F := Ideal)) := by
  rw [outsAt5_A V c t h0]
  exact stats5_first_sumsq (F := Ideal) c (grid5.coords t) (ms5_0 t) (hs5_0 t) (ms5_1 t) (hs5_1 t) (ms5_2 t) (hs5_2 t) (ms5_3 t) (hs5_3 t) ((hcond5_0 t).mpr h0) (iblk5 V c 0 t) (iblk5 V c 1 t)

/-- What the first output's row holds after a later point: what the point before left and this block's sums. -/
theorem stats5_rowAfterLater (c : Dev nD) (t : Fin cfg5.N) (h0 : ¬t.val % 25 = 0) :
    (outsAt5 (F := Ideal) V c t.val t.isLt).1
      = k5_pay4 (iblk5 V c 0 t) (iblk5 V c 1 t) (outsAt5 V c (t.val - 1) (Nat.lt_of_le_of_lt (Nat.sub_le _ _) t.isLt)).1 := by
  rw [outsAt5_B V c t h0]
  exact stats5_later_sum (F := Ideal) c (grid5.coords t) (ms5_0 t) (hs5_0 t) (ms5_1 t) (hs5_1 t) (ms5_2 t) (hs5_2 t) (ms5_3 t) (hs5_3 t) (fun h => h0 ((hcond5_0 t).mp h)) (iblk5 V c 0 t) (iblk5 V c 1 t)
    (outsAt5 V c (t.val - 1) (Nat.lt_of_le_of_lt (Nat.sub_le _ _) t.isLt)).1 (outsAt5 V c (t.val - 1) (Nat.lt_of_le_of_lt (Nat.sub_le _ _) t.isLt)).2

theorem stats5_sqRowAfterLater (c : Dev nD) (t : Fin cfg5.N) (h0 : ¬t.val % 25 = 0) :
    (outsAt5 (F := Ideal) V c t.val t.isLt).2
      = k5_pay5 (iblk5 V c 0 t) (iblk5 V c 1 t) (outsAt5 V c (t.val - 1) (Nat.lt_of_le_of_lt (Nat.sub_le _ _) t.isLt)).2 := by
  rw [outsAt5_B V c t h0]
  exact stats5_later_sumsq (F := Ideal) c (grid5.coords t) (ms5_0 t) (hs5_0 t) (ms5_1 t) (hs5_1 t) (ms5_2 t) (hs5_2 t) (ms5_3 t) (hs5_3 t) (fun h => h0 ((hcond5_0 t).mp h)) (iblk5 V c 0 t) (iblk5 V c 1 t)
    (outsAt5 V c (t.val - 1) (Nat.lt_of_le_of_lt (Nat.sub_le _ _) t.isLt)).1 (outsAt5 V c (t.val - 1) (Nat.lt_of_le_of_lt (Nat.sub_le _ _) t.isLt)).2

/-- THE RUNNING SUM: after point n the first output's row holds, at column q, the sum of the shifted matrix's column
    over its first 2000·(n + 1) rows. -/
theorem stats5_runningSum (c : Dev nD) : ∀ (n : ℕ) (h : n < cfg5.N) (q : Fin 256),
    ((outsAt5 (F := Ideal) V c n h).1 : Vec Ideal S1x256 .f32) (ix2 0 q)
      = ∑ k ∈ Finset.range (2000 * (n + 1)), stats5_colSeq (stats5_shifted V c) q k
  | 0, h, q => by
    rw [stats5_rowAfterFirst V c ⟨0, h⟩ rfl, stats5_sumRow_apply, stats5_zeroRowSum_apply, zero_add,
      ← Cert.Lib.BlockSum.sum_first_block (stats5_colSeq (stats5_shifted V c) q) 2000]
    exact Finset.sum_congr rfl fun k _ => stats5_blockTerm V c ⟨0, h⟩ k q
  | n + 1, h, q => by
    have hN : cfg5.N = 25 := N_5
    have hB : ¬(⟨n + 1, h⟩ : Fin cfg5.N).val % 25 = 0 := by dsimp only; omega
    rw [stats5_rowAfterLater V c ⟨n + 1, h⟩ hB, stats5_sumRow_apply,
      ← Cert.Lib.BlockSum.sum_range_block (stats5_colSeq (stats5_shifted V c) q) 2000 (n + 1)]
    refine congrArg₂ (· + ·) (stats5_runningSum c n (Nat.lt_of_succ_lt h) q) ?_
    exact Finset.sum_congr rfl fun k _ => stats5_blockTerm V c ⟨n + 1, h⟩ k q

/-- THE RUNNING SUM OF SQUARES: the same for the second output's row and the squares of the shifted matrix. -/
theorem stats5_runningSumSq (c : Dev nD) : ∀ (n : ℕ) (h : n < cfg5.N) (q : Fin 256),
    ((outsAt5 (F := Ideal) V c n h).2 : Vec Ideal S1x256 .f32) (ix2 0 q)
      = ∑ k ∈ Finset.range (2000 * (n + 1)), stats5_colSeq (sq (stats5_shifted V c)) q k
  | 0, h, q => by
    rw [stats5_sqRowAfterFirst V c ⟨0, h⟩ rfl, stats5_sqRow_apply, stats5_zeroRowSq_apply, zero_add,
      ← Cert.Lib.BlockSum.sum_first_block (stats5_colSeq (sq (stats5_shifted V c)) q) 2000]
    exact Finset.sum_congr rfl fun k _ => stats5_blockSqTerm V c ⟨0, h⟩ k q
  | n + 1, h, q => by
    have hN : cfg5.N = 25 := N_5
    have hB : ¬(⟨n + 1, h⟩ : Fin cfg5.N).val % 25 = 0 := by dsimp only; omega
    rw [stats5_sqRowAfterLater V c ⟨n + 1, h⟩ hB, stats5_sqRow_apply,
      ← Cert.Lib.BlockSum.sum_range_block (stats5_colSeq (sq (stats5_shifted V c)) q) 2000 (n + 1)]
    refine congrArg₂ (· + ·) (stats5_runningSumSq c n (Nat.lt_of_succ_lt h) q) ?_
    exact Finset.sum_congr rfl fun k _ => stats5_blockSqTerm V c ⟨n + 1, h⟩ k q

/-! ## The write-back and the two output arrays after the region

Each output's one block is its whole [1, 256] array, written back once, after the last point (point 24): by then the
running sums are over all 2000·25 = 50000 rows. -/

/-- After the last point the first output's row is the row of column sums over all 50000 rows. -/
theorem stats5_sumRowAtLast (c : Dev nD) (t : Fin cfg5.N) (h24 : t.val = 24) :
    ((outsAt5 (F := Ideal) V c t.val t.isLt).1 : Vec Ideal S1x256 .f32) = colSum (stats5_shifted V c) := by
  funext i
  obtain ⟨p, q, rfl⟩ : ∃ (p : Fin 1) (q : Fin 256), i = ix2 p q := ⟨i 0, i 1, eq_ix2 i⟩
  obtain rfl : p = 0 := Subsingleton.elim _ _
  rw [stats5_runningSum V c t.val t.isLt q, h24]
  exact stats5_colSeq_total (stats5_shifted V c) q

/-- After the last point the second output's row is the row of column sums of squares. -/
theorem stats5_sqRowAtLast (c : Dev nD) (t : Fin cfg5.N) (h24 : t.val = 24) :
    ((outsAt5 (F := Ideal) V c t.val t.isLt).2 : Vec Ideal S1x256 .f32) = colSum (sq (stats5_shifted V c)) := by
  funext i
  obtain ⟨p, q, rfl⟩ : ∃ (p : Fin 1) (q : Fin 256), i = ix2 p q := ⟨i 0, i 1, eq_ix2 i⟩
  obtain rfl : p = 0 := Subsingleton.elim _ _
  rw [stats5_runningSumSq V c t.val t.isLt q, h24]
  exact stats5_colSeq_total (sq (stats5_shifted V c)) q

/-- An output's one block is its whole array: contents of the first output's array, read through the block at any
    point, are the contents themselves (the block index is (0, 0) and the block is not cut). -/
theorem stats5_sumWholeBlock (c : Dev nD) (t : Fin cfg5.N) (G : Buf (Elt Ideal) ((c : Thread nD τ).loc main_v100_0)) :
    (cfg5.win 2).cut (grid5.coords t) G = ((cfg5.win 2).blk t).view.read (Elt Ideal) G := by
  obtain ⟨-, -, -, -, e0, e1, -⟩ := stats5_blockIndex t
  funext y
  rw [View.read_apply]
  show G _ = G (((cfg5.win 2).blk t).view.emb y)
  refine congrArg G (funext fun a => Fin.ext ?_)
  match a with
  | ⟨0, _⟩ => show (y 0).val = win5_2.index t (0 : Fin 2) * 1 + 1 * (y 0).val; rw [e0]; omega
  | ⟨1, _⟩ => show (y 1).val = win5_2.index t (1 : Fin 2) * 256 + 1 * (y 1).val; rw [e1]; omega

/-- The same for the second output's array. -/
theorem stats5_sqWholeBlock (c : Dev nD) (t : Fin cfg5.N) (G : Buf (Elt Ideal) ((c : Thread nD τ).loc main_v100_1)) :
    (cfg5.win 3).cut (grid5.coords t) G = ((cfg5.win 3).blk t).view.read (Elt Ideal) G := by
  obtain ⟨-, -, -, -, -, -, e0, e1⟩ := stats5_blockIndex t
  funext y
  rw [View.read_apply]
  show G _ = G (((cfg5.win 3).blk t).view.emb y)
  refine congrArg G (funext fun a => Fin.ext ?_)
  match a with
  | ⟨0, _⟩ => show (y 0).val = win5_3.index t (0 : Fin 2) * 1 + 1 * (y 0).val; rw [e0]; omega
  | ⟨1, _⟩ => show (y 1).val = win5_3.index t (1 : Fin 2) * 256 + 1 * (y 1).val; rw [e1]; omega

/-- What the one write-back of the first output writes is the block of the column sums of the shifted matrix. -/
theorem stats5_sum_flushed (c : Dev nD) (t : Fin cfg5.N) (hf : (cfg5.win 2).flush t = true) :
    (dat5 (F := Ideal) V c).flushed 2 t = ((cfg5.win 2).blk t).view.read (Elt Ideal) (colSum (stats5_shifted V c)) := by
  have hN : cfg5.N = 25 := N_5
  have h24 : t.val = 24 := by have := (flush5_2 t).mp hf; have := t.isLt; omega
  show (cfg5.win 2).cut (grid5.coords t) ((dat5 V c).after 2 t) = _
  rw [after5_2]
  rw [stats5_sumRowAtLast V c t h24]
  exact stats5_sumWholeBlock c t (colSum (stats5_shifted V c))

/-- What the one write-back of the second output writes is the block of the column sums of the squares. -/
theorem stats5_sumsq_flushed (c : Dev nD) (t : Fin cfg5.N) (hf : (cfg5.win 3).flush t = true) :
    (dat5 (F := Ideal) V c).flushed 3 t = ((cfg5.win 3).blk t).view.read (Elt Ideal) (colSum (sq (stats5_shifted V c))) := by
  have hN : cfg5.N = 25 := N_5
  have h24 : t.val = 24 := by have := (flush5_3 t).mp hf; have := t.isLt; omega
  show (cfg5.win 3).cut (grid5.coords t) ((dat5 V c).after 3 t) = _
  rw [after5_3]
  rw [stats5_sqRowAtLast V c t h24]
  exact stats5_sqWholeBlock c t (colSum (sq (stats5_shifted V c)))

/-- The last point. -/
abbrev stats5_lastPoint : Fin cfg5.N := ⟨24, by rw [show cfg5.N = 25 from N_5]; decide⟩

/-- Every index of the first output's array is in the block the last point writes back. -/
theorem stats5_sum_cover (i : S1x256.Idx) :
    ∃ t : Fin cfg5.N, (cfg5.win 2).flush t = true ∧ i ∈ ((cfg5.win 2).blk t).view.set := by
  refine ⟨stats5_lastPoint, (flush5_2 stats5_lastPoint).mpr rfl, ?_⟩
  obtain ⟨-, -, -, -, e0, e1, -⟩ := stats5_blockIndex stats5_lastPoint
  show i ∈ ((View.whole main_v100_0).slice (win5_2.rect stats5_lastPoint)).set
  rw [View.set_slice_whole, Rect.mem_set_unit]
  intro a
  have h0 : (i 0 : Nat) < 1 := (i 0).isLt
  have h1 : (i 1 : Nat) < 256 := (i 1).isLt
  match a with
  | ⟨0, _⟩ => show win5_2.index stats5_lastPoint (0 : Fin 2) * 1 ≤ (i 0 : Nat) ∧ (i 0 : Nat) < win5_2.index stats5_lastPoint (0 : Fin 2) * 1 + 1
              rw [e0]; omega
  | ⟨1, _⟩ => show win5_2.index stats5_lastPoint (1 : Fin 2) * 256 ≤ (i 1 : Nat) ∧ (i 1 : Nat) < win5_2.index stats5_lastPoint (1 : Fin 2) * 256 + 256
              rw [e1]; omega

/-- The same for the second output's array. -/
theorem stats5_sumsq_cover (i : S1x256.Idx) :
    ∃ t : Fin cfg5.N, (cfg5.win 3).flush t = true ∧ i ∈ ((cfg5.win 3).blk t).view.set := by
  refine ⟨stats5_lastPoint, (flush5_3 stats5_lastPoint).mpr rfl, ?_⟩
  obtain ⟨-, -, -, -, -, -, e0, e1⟩ := stats5_blockIndex stats5_lastPoint
  show i ∈ ((View.whole main_v100_1).slice (win5_3.rect stats5_lastPoint)).set
  rw [View.set_slice_whole, Rect.mem_set_unit]
  intro a
  have h0 : (i 0 : Nat) < 1 := (i 0).isLt
  have h1 : (i 1 : Nat) < 256 := (i 1).isLt
  match a with
  | ⟨0, _⟩ => show win5_3.index stats5_lastPoint (0 : Fin 2) * 1 ≤ (i 0 : Nat) ∧ (i 0 : Nat) < win5_3.index stats5_lastPoint (0 : Fin 2) * 1 + 1
              rw [e0]; omega
  | ⟨1, _⟩ => show win5_3.index stats5_lastPoint (1 : Fin 2) * 256 ≤ (i 1 : Nat) ∧ (i 1 : Nat) < win5_3.index stats5_lastPoint (1 : Fin 2) * 256 + 256
              rw [e1]; omega

/-- THE FIRST OUTPUT after the region: the column sums, over all 50000 rows, of the first input with the bias row
    added to every row. -/
theorem sum5_final (c : Dev nD) :
    (dat5 (F := Ideal) V c).arrAt 2 cfg5.N = colSum (rowAdd (V c main_v98) (V c main_v99)) :=
  (dat5 (F := Ideal) V c).arrAt_eq_of_cover 2 (colSum (stats5_shifted V c)) (stats5_sum_flushed V c) stats5_sum_cover

/-- THE SECOND OUTPUT after the region: the column sums of the squares of the same matrix. -/
theorem sumsq5_final (c : Dev nD) :
    (dat5 (F := Ideal) V c).arrAt 3 cfg5.N = colSum (sq (rowAdd (V c main_v98) (V c main_v99))) :=
  (dat5 (F := Ideal) V c).arrAt_eq_of_cover 3 (colSum (sq (stats5_shifted V c))) (stats5_sumsq_flushed V c) stats5_sumsq_cover

end Cert.KernelIdeal.KVal

end
-- ==== Proof.KBn3.lean ====
import proofs.«135957_j57604101374612_1_alg».proof.Proof.Gen.KernelIdeal.Frame
import proofs.«135957_j57604101374612_1_alg».proof.Proof.Spec
import proofs.«135957_j57604101374612_1_alg».proof.Proof.LibRowLayout
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen Cert.Gnn
open Idealize.ShloMosaic.Pipeline (Dat Cfg Window)

variable (V : (c : Dev nD) → (b : Ref sig .tc) → Buf (Elt Ideal) ((c : Thread nD τ).loc b))

/-- The zero offsets of a whole-block access, as the constant function. -/
theorem bn3_offsets_zero : (![0, 0] : Fin 2 → Nat) = fun _ => 0 := funext fun a => by fin_cases a <;> rfl

/-- The stored block at row p, column q: the block entry plus the bias row, scaled and shifted by the two rows, cut
    below at zero, plus the residual block's entry. -/
theorem bn3_pay_apply (x0 : Vec Ideal S2000x256 .f32) (x1 x2 x3 : Vec Ideal S1x256 .f32) (x4 : Vec Ideal S2000x256 .f32)
    (p : Fin 2000) (q : Fin 256) :
    k3_pay1 x0 x1 x2 x3 x4 (ix2 p q)
      = max (x2 (ix2 0 q) * (x0 (ix2 p q) + x1 (ix2 0 q)) + x3 (ix2 0 q)) zeroW + x4 (ix2 p q) := by
  unfold k3_pay1
  simp only [shapeCast_self]
  show max (broadcastTo S2000x256 x2 broadcasts_S1x256_S2000x256 (ix2 p q)
        * (x0 (ix2 p q) + broadcastTo S2000x256 x1 broadcasts_S1x256_S2000x256 (ix2 p q))
        + broadcastTo S2000x256 x3 broadcasts_S1x256_S2000x256 (ix2 p q)) zeroW + x4 (ix2 p q) = _
  rw [Cert.Lib.rowBroadcast_apply x1, Cert.Lib.rowBroadcast_apply x2, Cert.Lib.rowBroadcast_apply x3]

/-- The block indices over the grid: the three row-block windows sit at block (t, 0), the three single rows at (0, 0). -/
theorem bn3_idx : ∀ t : Fin cfg3.N,
    win3_0.index t (0 : Fin 2) = t.val ∧ win3_0.index t (1 : Fin 2) = 0
  ∧ win3_1.index t (0 : Fin 2) = 0 ∧ win3_1.index t (1 : Fin 2) = 0
  ∧ win3_2.index t (0 : Fin 2) = 0 ∧ win3_2.index t (1 : Fin 2) = 0
  ∧ win3_3.index t (0 : Fin 2) = 0 ∧ win3_3.index t (1 : Fin 2) = 0
  ∧ win3_4.index t (0 : Fin 2) = t.val ∧ win3_4.index t (1 : Fin 2) = 0
  ∧ win3_5.index t (0 : Fin 2) = t.val ∧ win3_5.index t (1 : Fin 2) = 0 :=
  (by decide +kernel : ∀ t : Fin grid3.N, _)

/-- Row p of the block of window 0 at point t is row 2000 t + p of its array. -/
theorem bn3_read0 (c : Dev nD) (t : Fin cfg3.N) (p : Fin 2000) (q : Fin 256) (r : Fin 50000) (hr : r.val = t.val * 2000 + p.val) :
    iblk3 V c 0 t (ix2 p q) = V c main_v43 (ix2 r q) := by
  obtain ⟨e0, e1, -⟩ := bn3_idx t
  show V c main_v43 (((cfg3.win 0).blk t).view.emb (ix2 p q)) = V c main_v43 (ix2 r q)
  refine congrArg (V c main_v43) (funext fun a => Fin.ext ?_)
  match a with
  | ⟨0, _⟩ => show win3_0.index t (0 : Fin 2) * 2000 + 1 * p.val = r.val; omega
  | ⟨1, _⟩ => show win3_0.index t (1 : Fin 2) * 256 + 1 * q.val = q.val; omega

/-- Row p of the block of window 4 at point t is row 2000 t + p of its array. -/
theorem bn3_read4 (c : Dev nD) (t : Fin cfg3.N) (p : Fin 2000) (q : Fin 256) (r : Fin 50000) (hr : r.val = t.val * 2000 + p.val) :
    iblk3 V c 4 t (ix2 p q) = V c main_v6 (ix2 r q) := by
  obtain ⟨-, -, -, -, -, -, -, -, e0, e1, -⟩ := bn3_idx t
  show V c main_v6 (((cfg3.win 4).blk t).view.emb (ix2 p q)) = V c main_v6 (ix2 r q)
  refine congrArg (V c main_v6) (funext fun a => Fin.ext ?_)
  match a with
  | ⟨0, _⟩ => show win3_4.index t (0 : Fin 2) * 2000 + 1 * p.val = r.val; omega
  | ⟨1, _⟩ => show win3_4.index t (1 : Fin 2) * 256 + 1 * q.val = q.val; omega

/-- The single-row windows hold their whole row at every point. -/
theorem bn3_read1 (c : Dev nD) (t : Fin cfg3.N) (q : Fin 256) : iblk3 V c 1 t (ix2 0 q) = V c main_v60 (ix2 0 q) := by
  obtain ⟨-, -, e0, e1, -⟩ := bn3_idx t
  show V c main_v60 (((cfg3.win 1).blk t).view.emb (ix2 0 q)) = V c main_v60 (ix2 0 q)
  refine congrArg (V c main_v60) (funext fun a => Fin.ext ?_)
  match a with
  | ⟨0, _⟩ => show win3_1.index t (0 : Fin 2) * 1 + 1 * 0 = 0; omega
  | ⟨1, _⟩ => show win3_1.index t (1 : Fin 2) * 256 + 1 * q.val = q.val; omega

theorem bn3_read2 (c : Dev nD) (t : Fin cfg3.N) (q : Fin 256) : iblk3 V c 2 t (ix2 0 q) = V c main_v56 (ix2 0 q) := by
  obtain ⟨-, -, -, -, e0, e1, -⟩ := bn3_idx t
  show V c main_v56 (((cfg3.win 2).blk t).view.emb (ix2 0 q)) = V c main_v56 (ix2 0 q)
  refine congrArg (V c main_v56) (funext fun a => Fin.ext ?_)
  match a with
  | ⟨0, _⟩ => show win3_2.index t (0 : Fin 2) * 1 + 1 * 0 = 0; omega
  | ⟨1, _⟩ => show win3_2.index t (1 : Fin 2) * 256 + 1 * q.val = q.val; omega

theorem bn3_read3 (c : Dev nD) (t : Fin cfg3.N) (q : Fin 256) : iblk3 V c 3 t (ix2 0 q) = V c main_v59 (ix2 0 q) := by
  obtain ⟨-, -, -, -, -, -, e0, e1, -⟩ := bn3_idx t
  show V c main_v59 (((cfg3.win 3).blk t).view.emb (ix2 0 q)) = V c main_v59 (ix2 0 q)
  refine congrArg (V c main_v59) (funext fun a => Fin.ext ?_)
  match a with
  | ⟨0, _⟩ => show win3_3.index t (0 : Fin 2) * 1 + 1 * 0 = 0; omega
  | ⟨1, _⟩ => show win3_3.index t (1 : Fin 2) * 256 + 1 * q.val = q.val; omega

/-- Row p of the output block at point t sits at row 2000 t + p of the output array. -/
theorem bn3_emb5 (t : Fin cfg3.N) (p : Fin 2000) (q : Fin 256) (r : Fin 50000) (hr : r.val = t.val * 2000 + p.val) :
    ((cfg3.win 5).blk t).view.emb (ix2 p q) = (ix2 r q : S50000x256.Idx) := by
  obtain ⟨-, -, -, -, -, -, -, -, -, -, e0, e1⟩ := bn3_idx t
  refine funext fun a => Fin.ext ?_
  match a with
  | ⟨0, _⟩ => show win3_5.index t (0 : Fin 2) * 2000 + 1 * p.val = r.val; omega
  | ⟨1, _⟩ => show win3_5.index t (1 : Fin 2) * 256 + 1 * q.val = q.val; omega

/-- The whole-array result: every row of the first array plus the bias row, scaled and shifted, cut below at zero,
    plus the residual array. -/
abbrev bn3Out (c : Dev nD) : Mat 50000 256 :=
  addA (relu (affine (V c main_v56) (V c main_v59) (rowAdd (V c main_v43) (V c main_v60)))) (V c main_v6)

/-- What point t writes back is block t of the whole-array result. -/
theorem bn3_flushed (c : Dev nD) (t : Fin cfg3.N) :
    (dat3 (F := Ideal) V c).flushed 5 t = ((cfg3.win 5).blk t).view.read (Elt Ideal) (bn3Out V c) := by
  show (cfg3.win 5).cut (grid3.coords t) ((dat3 (F := Ideal) V c).after 5 t) = _
  rw [after3_5]
  unfold out3_5
  rw [View.canon_unit_zero bn3_offsets_zero]
  simp only [View.ld_unit_zero (S := S2000x256) bn3_offsets_zero, View.ld_unit_zero (S := S1x256) bn3_offsets_zero]
  have ht : t.val < 25 := lt_of_lt_of_eq t.isLt N_3
  funext j
  obtain ⟨p, q, rfl⟩ : ∃ (p : Fin 2000) (q : Fin 256), j = ix2 p q := ⟨j 0, j 1, eq_ix2 j⟩
  have hp : p.val < 2000 := p.isLt
  show k3_pay1 (iblk3 V c 0 t) (iblk3 V c 1 t) (iblk3 V c 2 t) (iblk3 V c 3 t) (iblk3 V c 4 t) (ix2 p q)
      = bn3Out V c (((cfg3.win 5).blk t).view.emb (ix2 p q))
  rw [bn3_emb5 t p q ⟨t.val * 2000 + p.val, by omega⟩ rfl]
  refine (bn3_pay_apply (iblk3 V c 0 t) (iblk3 V c 1 t) (iblk3 V c 2 t) (iblk3 V c 3 t) (iblk3 V c 4 t) p q).trans ?_
  rw [bn3_read0 V c t p q ⟨t.val * 2000 + p.val, by omega⟩ rfl, bn3_read4 V c t p q ⟨t.val * 2000 + p.val, by omega⟩ rfl,
    bn3_read1 V c t q, bn3_read2 V c t q, bn3_read3 V c t q]
  rfl

/-- An index of the output array is in point t's block iff each coordinate is in the block's range on its axis. -/
theorem bn3_mem_blk (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v61).slice (win3_5.rect t)).set ↔ _
  rw [View.set_slice_whole, Rect.mem_set_unit]
  exact Iff.rfl

/-- Every index of the output array is in some point's block: row r is in block r / 2000. -/
theorem bn3_cover (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  have hN : cfg3.N = 25 := N_3
  let t : Fin cfg3.N := ⟨(i 0).val / 2000, by rw [hN]; omega⟩
  have htv : t.val = (i 0).val / 2000 := rfl
  obtain ⟨-, -, -, -, -, -, -, -, -, -, e0, e1⟩ := bn3_idx t
  refine ⟨t, flush3_5 t, ?_⟩
  rw [bn3_mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 256 ≤ (i 1).val ∧ (i 1).val < win3_5.index t (1 : Fin 2) * 256 + 256; omega

/-- The output array after the region's run. -/
theorem bn3_final (c : Dev nD) :
    (dat3 (F := Ideal) V c).arrAt 5 cfg3.N
      = addA (relu (affine (V c main_v56) (V c main_v59) (rowAdd (V c main_v43) (V c main_v60)))) (V c main_v6) :=
  (dat3 (F := Ideal) V c).arrAt_eq_of_cover 5 (bn3Out V c) (fun t _ => bn3_flushed V c t) bn3_cover

end Cert.KernelIdeal.KVal

end
-- ==== Proof.KProj6.lean ====
import proofs.«135957_j57604101374612_1_alg».proof.Proof.Gen.KernelIdeal.Frame
import proofs.«135957_j57604101374612_1_alg».proof.Proof.Spec
import proofs.«135957_j57604101374612_1_alg».proof.Proof.LibPlainDot
import proofs.«135957_j57604101374612_1_alg».proof.Proof.LibRowLayout
import Idealize.ShloMosaic.Lib.Pipeline.Value
import Idealize.ShloMosaic.Lib.ValueIdx
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen Cert.Gnn
open Idealize.ShloMosaic.Pipeline (Dat Cfg Window)

variable (V : (c : Dev nD) → (b : Ref sig .tc) → Buf (Elt Ideal) ((c : Thread nD τ).loc b))

/-- The zero offsets of a whole-block access, as the constant function. -/
theorem proj6_offsets_zero : (![0, 0] : Fin 2 → Nat) = fun _ => 0 := funext fun a => by fin_cases a <;> rfl

/-- The stored block at row p: the sum over the 256 columns k of the block entry (p, k) plus the bias row at k, scaled
    and shifted by the two rows at k, times the weight column at k; plus the single bias entry. Rounding an operand of
    the product to the narrower format changes nothing at the ideal values. -/
theorem proj6_pay_apply (x0 : Vec Ideal S2000x256 .f32) (x1 x2 x3 : Vec Ideal S1x256 .f32) (x4 : Vec Ideal S256x1 .f32)
    (x5 : Vec Ideal S1x1 .f32) (p : Fin 2000) (q : Fin 1) :
    k6_pay1 x0 x1 x2 x3 x4 x5 (ix2 p q)
      = (∑ k : Fin 256, (x2 (ix2 0 k) * (x0 (ix2 p k) + x1 (ix2 0 k)) + x3 (ix2 0 k)) * x4 (ix2 k q)) + x5 (ix2 0 q) := by
  unfold k6_pay1
  simp only [shapeCast_self]
  show FloatOps.matmul (Cert.Lib.plainDot 2000 256 1 dot_S2000x256_S256x1_S2000x1_1_0_0_1_n_n_wf) none
        (truncf .bf16 (addf (mulf (broadcastTo S2000x256 x2 broadcasts_S1x256_S2000x256)
            (addf x0 (broadcastTo S2000x256 x1 broadcasts_S1x256_S2000x256)))
          (broadcastTo S2000x256 x3 broadcasts_S1x256_S2000x256)) bitsLt_bf16_f32 : FVec Ideal S2000x256 .bf16)
        (truncf .bf16 x4 bitsLt_bf16_f32 : FVec Ideal S256x1 .bf16)
        (constant (F := Ideal) ⟨2, ![2000, 1]⟩ .f32 0x00000000#32) (ix2 p q)
      + broadcastTo S2000x1 x5 broadcasts_S1x1_S2000x1 (ix2 p q) = _
  rw [Cert.Lib.matmul_zero_apply, Cert.Lib.rowBroadcast_apply x5]
  refine congrArg (· + x5 (ix2 0 q)) (Finset.sum_congr rfl fun k _ => ?_)
  show (broadcastTo S2000x256 x2 broadcasts_S1x256_S2000x256 (ix2 p k)
        * (x0 (ix2 p k) + broadcastTo S2000x256 x1 broadcasts_S1x256_S2000x256 (ix2 p k))
        + broadcastTo S2000x256 x3 broadcasts_S1x256_S2000x256 (ix2 p k)) * x4 (ix2 k q) = _
  rw [Cert.Lib.rowBroadcast_apply x1, Cert.Lib.rowBroadcast_apply x2, Cert.Lib.rowBroadcast_apply x3]

/-- The block indices over the grid: the input and output row-block windows sit at block (t, 0), every other window at
    (0, 0). -/
theorem proj6_idx : ∀ t : Fin cfg6.N,
    win6_0.index t (0 : Fin 2) = t.val ∧ win6_0.index t (1 : Fin 2) = 0
  ∧ win6_1.index t (0 : Fin 2) = 0 ∧ win6_1.index t (1 : Fin 2) = 0
  ∧ win6_2.index t (0 : Fin 2) = 0 ∧ win6_2.index t (1 : Fin 2) = 0
  ∧ win6_3.index t (0 : Fin 2) = 0 ∧ win6_3.index t (1 : Fin 2) = 0
  ∧ win6_4.index t (0 : Fin 2) = 0 ∧ win6_4.index t (1 : Fin 2) = 0
  ∧ win6_5.index t (0 : Fin 2) = 0 ∧ win6_5.index t (1 : Fin 2) = 0
  ∧ win6_6.index t (0 : Fin 2) = t.val ∧ win6_6.index t (1 : Fin 2) = 0 :=
  (by decide +kernel : ∀ t : Fin grid6.N, _)

/-- Row p of the block of window 0 at point t is row 2000 t + p of its array. -/
theorem proj6_read0 (c : Dev nD) (t : Fin cfg6.N) (p : Fin 2000) (k : Fin 256) (r : Fin 50000) (hr : r.val = t.val * 2000 + p.val) :
    iblk6 V c 0 t (ix2 p k) = V c main_v98 (ix2 r k) := by
  have e := proj6_idx t
  show V c main_v98 (((cfg6.win 0).blk t).view.emb (ix2 p k)) = V c main_v98 (ix2 r k)
  refine congrArg (V c main_v98) (funext fun a => Fin.ext ?_)
  match a with
  | ⟨0, _⟩ => show win6_0.index t (0 : Fin 2) * 2000 + 1 * p.val = r.val; omega
  | ⟨1, _⟩ => show win6_0.index t (1 : Fin 2) * 256 + 1 * k.val = k.val; omega

/-- The single-row windows hold their whole row at every point. -/
theorem proj6_read1 (c : Dev nD) (t : Fin cfg6.N) (k : Fin 256) : iblk6 V c 1 t (ix2 0 k) = V c main_v115 (ix2 0 k) := by
  have e := proj6_idx t
  show V c main_v115 (((cfg6.win 1).blk t).view.emb (ix2 0 k)) = V c main_v115 (ix2 0 k)
  refine congrArg (V c main_v115) (funext fun a => Fin.ext ?_)
  match a with
  | ⟨0, _⟩ => show win6_1.index t (0 : Fin 2) * 1 + 1 * 0 = 0; omega
  | ⟨1, _⟩ => show win6_1.index t (1 : Fin 2) * 256 + 1 * k.val = k.val; omega

theorem proj6_read2 (c : Dev nD) (t : Fin cfg6.N) (k : Fin 256) : iblk6 V c 2 t (ix2 0 k) = V c main_v111 (ix2 0 k) := by
  have e := proj6_idx t
  show V c main_v111 (((cfg6.win 2).blk t).view.emb (ix2 0 k)) = V c main_v111 (ix2 0 k)
  refine congrArg (V c main_v111) (funext fun a => Fin.ext ?_)
  match a with
  | ⟨0, _⟩ => show win6_2.index t (0 : Fin 2) * 1 + 1 * 0 = 0; omega
  | ⟨1, _⟩ => show win6_2.index t (1 : Fin 2) * 256 + 1 * k.val = k.val; omega

theorem proj6_read3 (c : Dev nD) (t : Fin cfg6.N) (k : Fin 256) : iblk6 V c 3 t (ix2 0 k) = V c main_v114 (ix2 0 k) := by
  have e := proj6_idx t
  show V c main_v114 (((cfg6.win 3).blk t).view.emb (ix2 0 k)) = V c main_v114 (ix2 0 k)
  refine congrArg (V c main_v114) (funext fun a => Fin.ext ?_)
  match a with
  | ⟨0, _⟩ => show win6_3.index t (0 : Fin 2) * 1 + 1 * 0 = 0; omega
  | ⟨1, _⟩ => show win6_3.index t (1 : Fin 2) * 256 + 1 * k.val = k.val; omega

/-- The weight column's window holds the whole column at every point. -/
theorem proj6_read4 (c : Dev nD) (t : Fin cfg6.N) (k : Fin 256) (q : Fin 1) : iblk6 V c 4 t (ix2 k q) = V c main_arg15 (ix2 k q) := by
  have e := proj6_idx t
  show V c main_arg15 (((cfg6.win 4).blk t).view.emb (ix2 k q)) = V c main_arg15 (ix2 k q)
  refine congrArg (V c main_arg15) (funext fun a => Fin.ext ?_)
  match a with
  | ⟨0, _⟩ => show win6_4.index t (0 : Fin 2) * 256 + 1 * k.val = k.val; omega
  | ⟨1, _⟩ => show win6_4.index t (1 : Fin 2) * 1 + 1 * q.val = q.val; omega

/-- The single bias entry's window holds it at every point. -/
theorem proj6_read5 (c : Dev nD) (t : Fin cfg6.N) (q : Fin 1) : iblk6 V c 5 t (ix2 0 q) = V c main_v116 (ix2 0 q) := by
  have e := proj6_idx t
  show V c main_v116 (((cfg6.win 5).blk t).view.emb (ix2 0 q)) = V c main_v116 (ix2 0 q)
  refine congrArg (V c main_v116) (funext fun a => Fin.ext ?_)
  match a with
  | ⟨0, _⟩ => show win6_5.index t (0 : Fin 2) * 1 + 1 * 0 = 0; omega
  | ⟨1, _⟩ => show win6_5.index t (1 : Fin 2) * 1 + 1 * q.val = q.val; omega

/-- Row p of the output block at point t sits at row 2000 t + p of the output array. -/
theorem proj6_emb6 (t : Fin cfg6.N) (p : Fin 2000) (q : Fin 1) (r : Fin 50000) (hr : r.val = t.val * 2000 + p.val) :
    ((cfg6.win 6).blk t).view.emb (ix2 p q) = (ix2 r q : S50000x1.Idx) := by
  have e := proj6_idx t
  refine funext fun a => Fin.ext ?_
  match a with
  | ⟨0, _⟩ => show win6_6.index t (0 : Fin 2) * 2000 + 1 * p.val = r.val; omega
  | ⟨1, _⟩ => show win6_6.index t (1 : Fin 2) * 1 + 1 * q.val = q.val; omega

/-- The whole-array result: every row of the first array plus the bias row, scaled and shifted, times the weight
    column, plus the single bias entry. -/
abbrev proj6Out (c : Dev nD) : Mat 50000 1 :=
  rowAdd (lin (affine (V c main_v111) (V c main_v114) (rowAdd (V c main_v98) (V c main_v115))) (V c main_arg15)) (V c main_v116)

/-- What point t writes back is block t of the whole-array result. -/
theorem proj6_flushed (c : Dev nD) (t : Fin cfg6.N) :
    (dat6 (F := Ideal) V c).flushed 6 t = ((cfg6.win 6).blk t).view.read (Elt Ideal) (proj6Out V c) := by
  show (cfg6.win 6).cut (grid6.coords t) ((dat6 (F := Ideal) V c).after 6 t) = _
  rw [after6_6]
  unfold out6_6
  rw [View.canon_unit_zero proj6_offsets_zero]
  simp only [View.ld_unit_zero (S := S2000x256) proj6_offsets_zero, View.ld_unit_zero (S := S1x256) proj6_offsets_zero,
    View.ld_unit_zero (S := S256x1) proj6_offsets_zero, View.ld_unit_zero (S := S1x1) proj6_offsets_zero]
  have ht : t.val < 25 := lt_of_lt_of_eq t.isLt N_6
  funext j
  obtain ⟨p, q, rfl⟩ : ∃ (p : Fin 2000) (q : Fin 1), j = ix2 p q := ⟨j 0, j 1, eq_ix2 j⟩
  have hp : p.val < 2000 := p.isLt
  show k6_pay1 (iblk6 V c 0 t) (iblk6 V c 1 t) (iblk6 V c 2 t) (iblk6 V c 3 t) (iblk6 V c 4 t) (iblk6 V c 5 t) (ix2 p q)
      = proj6Out V c (((cfg6.win 6).blk t).view.emb (ix2 p q))
  rw [proj6_emb6 t p q ⟨t.val * 2000 + p.val, by omega⟩ rfl]
  refine (proj6_pay_apply (iblk6 V c 0 t) (iblk6 V c 1 t) (iblk6 V c 2 t) (iblk6 V c 3 t) (iblk6 V c 4 t) (iblk6 V c 5 t) p q).trans ?_
  rw [proj6_read5 V c t q]
  refine congrArg (· + V c main_v116 (ix2 0 q)) (Finset.sum_congr rfl fun k _ => ?_)
  rw [proj6_read0 V c t p k ⟨t.val * 2000 + p.val, by omega⟩ rfl, proj6_read1 V c t k, proj6_read2 V c t k,
    proj6_read3 V c t k, proj6_read4 V c t k q]
  rfl

/-- An index of the output array is in point t's block iff each coordinate is in the block's range on its axis. -/
theorem proj6_mem_blk (t : Fin cfg6.N) (i : S50000x1.Idx) :
    i ∈ ((cfg6.win 6).blk t).view.set ↔ ∀ a : Fin 2, win6_6.index t a * S2000x1.size a ≤ (i a).val ∧ (i a).val < win6_6.index t a * S2000x1.size a + S2000x1.size a := by
  show i ∈ ((View.whole main_v117).slice (win6_6.rect t)).set ↔ _
  rw [View.set_slice_whole, Rect.mem_set_unit]
  exact Iff.rfl

/-- Every index of the output array is in some point's block: row r is in block r / 2000. -/
theorem proj6_cover (i : S50000x1.Idx) :
    ∃ t : Fin cfg6.N, (cfg6.win 6).flush t = true ∧ i ∈ ((cfg6.win 6).blk t).view.set := by
  have hi0 : (i 0).val < 50000 := (i 0).isLt
  have hi1 : (i 1).val < 1 := (i 1).isLt
  have hN : cfg6.N = 25 := N_6
  let t : Fin cfg6.N := ⟨(i 0).val / 2000, by rw [hN]; omega⟩
  have htv : t.val = (i 0).val / 2000 := rfl
  have e := proj6_idx t
  refine ⟨t, flush6_6 t, ?_⟩
  rw [proj6_mem_blk]
  intro a
  match a with
  | ⟨0, _⟩ => show win6_6.index t (0 : Fin 2) * 2000 ≤ (i 0).val ∧ (i 0).val < win6_6.index t (0 : Fin 2) * 2000 + 2000; omega
  | ⟨1, _⟩ => show win6_6.index t (1 : Fin 2) * 1 ≤ (i 1).val ∧ (i 1).val < win6_6.index t (1 : Fin 2) * 1 + 1; omega

/-- The output array after the region's run. -/
theorem proj6_final (c : Dev nD) :
    (dat6 (F := Ideal) V c).arrAt 6 cfg6.N
      = rowAdd (lin (affine (V c main_v111) (V c main_v114) (rowAdd (V c main_v98) (V c main_v115))) (V c main_arg15)) (V c main_v116) :=
  (dat6 (F := Ideal) V c).arrAt_eq_of_cover 6 (proj6Out V c) (fun t _ => proj6_flushed V c t) proj6_cover

end Cert.KernelIdeal.KVal

end
-- ==== Proof.LibHostSSA.lean ====
/-
  Reading a straight line of host operations one operation at a time.

  In a line where every array is written by at most one operation, and an operation reads only arrays written before it
  (or never written by the line), what an array holds AFTER THE WHOLE LINE obeys the operation that writes it: the
  result array holds the operation's function of its operand arrays, all read after the whole line. The reason: cut the
  line at the operation; the part after it writes neither the result nor the operands, so reading them after the whole
  line is reading them right after (for the result) or right before (for the operands) the operation. The lemmas take
  the line, the list of arrays it writes in order, the position of the operation, and three list non-memberships that a
  literal line decides. Independent of any program.
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- Running one stretch after another: the line `l₁ ++ l₂` from `V` is `l₂` from what `l₁` leaves. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op ops ih => exact ih (op.result V)

/-- The line `L` writes exactly the arrays `W`, in order: each operation its one result array. -/
def WritesAre : List (HloOp τ sig Val) → List (Ref sig .tc) → Prop
  | [], [] => True
  | op :: L, r :: W => op.writes = {Proc.devRef .tc r} ∧ WritesAre L W
  | [], _ :: _ => False
  | _ :: _, [] => False

/-- A line leaves alone every array it does not write. -/
theorem WritesAre.keeps : ∀ {L : List (HloOp τ sig Val)} {W : List (Ref sig .tc)}, WritesAre L W →
    ∀ (V : Valuation τ sig Val) (r : Ref sig .tc), r ∉ W → StableHlo.after L V (Proc.devRef .tc r) = V (Proc.devRef .tc r)
  | [], [], _, _, _, _ => rfl
  | op :: L, w :: W, h, V, r, hr => by
      rw [StableHlo.after_cons, WritesAre.keeps h.2 _ r (fun hm => hr (List.mem_cons_of_mem _ hm)),
        op.result_of_not_mem V (by
          rw [h.1, Finset.mem_singleton]
          exact StableHlo.devRef_ne_of_ne (fun e => hr (e ▸ List.mem_cons_self)))]
  | [], _ :: _, h, _, _, _ => h.elim
  | _ :: _, [], h, _, _, _ => h.elim

/-- The tail of a line writes the tail of the list. -/
theorem WritesAre.drop : ∀ (k : ℕ) {L : List (HloOp τ sig Val)} {W : List (Ref sig .tc)}, WritesAre L W →
    WritesAre (L.drop k) (W.drop k)
  | 0, _, _, h => h
  | _ + 1, [], [], _ => trivial
  | k + 1, _ :: _, _ :: _, h => WritesAre.drop k h.2
  | _ + 1, [], _ :: _, h => h.elim
  | _ + 1, _ :: _, [], h => h.elim

variable {L : List (HloOp τ sig Val)} {W : List (Ref sig .tc)}

/-- An array no operation from position `k` on writes holds after the line what it held before position `k`. -/
theorem after_eq_take (h : WritesAre L W) (k : ℕ) (V : Valuation τ sig Val) (r : Ref sig .tc) (hr : r ∉ W.drop k) :
    StableHlo.after L V (Proc.devRef .tc r) = StableHlo.after (L.take k) V (Proc.devRef .tc r) := by
  conv_lhs => rw [← List.take_append_drop k L]
  rw [after_append]
  exact (h.drop k).keeps _ r hr

/-- An array no operation after position `k` writes holds after the line what operation `k` leaves in it. -/
theorem after_at (h : WritesAre L W) (k : ℕ) (V : Valuation τ sig Val) (op : HloOp τ sig Val)
    (hk : L.drop k = op :: L.drop (k + 1)) (r : Ref sig .tc) (hr : r ∉ W.drop (k + 1)) :
    StableHlo.after L V (Proc.devRef .tc r) = op.result (StableHlo.after (L.take k) V) (Proc.devRef .tc r) := by
  conv_lhs => rw [← List.take_append_drop k L, hk]
  rw [after_append, StableHlo.after_cons]
  exact (h.drop (k + 1)).keeps _ r hr

variable {x a b c y : Ref sig .tc}

theorem ssa_nullary (h : WritesAre L W) (k : ℕ) (V : Valuation τ sig Val) (v : y.ty.Contents Val) (hy)
    (hk : L.drop k = nullary (τ := τ) y v hy :: L.drop (k + 1)) (hy' : y ∉ W.drop (k + 1)) :
    StableHlo.after L V (Proc.devRef .tc y) = v := by
  rw [after_at h k V _ hk y hy', nullary_result]

theorem ssa_unary (h : WritesAre L W) (k : ℕ) (V : Valuation τ sig Val) (f : x.ty.Contents Val → y.ty.Contents Val) (hx hy)
    (hk : L.drop k = unary (τ := τ) x y f hx hy :: L.drop (k + 1)) (hy' : y ∉ W.drop (k + 1)) (hx' : x ∉ W.drop k) :
    StableHlo.after L V (Proc.devRef .tc y) = f (StableHlo.after L V (Proc.devRef .tc x)) := by
  rw [after_at h k V _ hk y hy', unary_result, after_eq_take h k V x hx']

theorem ssa_binary (h : WritesAre L W) (k : ℕ) (V : Valuation τ sig Val)
    (f : a.ty.Contents Val → b.ty.Contents Val → y.ty.Contents Val) (ha hb hy)
    (hk : L.drop k = binary (τ := τ) a b y f ha hb hy :: L.drop (k + 1)) (hy' : y ∉ W.drop (k + 1))
    (ha' : a ∉ W.drop k) (hb' : b ∉ W.drop k) :
    StableHlo.after L V (Proc.devRef .tc y) = f (StableHlo.after L V (Proc.devRef .tc a)) (StableHlo.after L V (Proc.devRef .tc b)) := by
  rw [after_at h k V _ hk y hy', binary_result, after_eq_take h k V a ha', after_eq_take h k V b hb']

theorem ssa_ternary (h : WritesAre L W) (k : ℕ) (V : Valuation τ sig Val)
    (f : c.ty.Contents Val → a.ty.Contents Val → b.ty.Contents Val → y.ty.Contents Val) (hc ha hb hy)
    (hk : L.drop k = ternary (τ := τ) c a b y f hc ha hb hy :: L.drop (k + 1)) (hy' : y ∉ W.drop (k + 1))
    (hc' : c ∉ W.drop k) (ha' : a ∉ W.drop k) (hb' : b ∉ W.drop k) :
    StableHlo.after L V (Proc.devRef .tc y)
      = f (StableHlo.after L V (Proc.devRef .tc c)) (StableHlo.after L V (Proc.devRef .tc a)) (StableHlo.after L V (Proc.devRef .tc b)) := by
  rw [after_at h k V _ hk y hy', ternary_result, after_eq_take h k V c hc', after_eq_take h k V a ha', after_eq_take h k V b hb']

theorem ssa_reshape (h : WritesAre L W) (k : ℕ) (V : Valuation τ sig Val) (he hn hx hy)
    (hk : L.drop k = reshape (τ := τ) (Val := Val) x y he hn hx hy :: L.drop (k + 1)) (hy' : y ∉ W.drop (k + 1)) (hx' : x ∉ W.drop k) :
    StableHlo.after L V (Proc.devRef .tc y)
      = fun i => he ▸ shapeCast y.ty.shape (StableHlo.after L V (Proc.devRef .tc x)) hn i := by
  rw [after_at h k V _ hk y hy', reshape_result, after_eq_take h k V x hx']

/-- A join of three operands, written as one operation over a literal family of three arrays. -/
theorem ssa_nary3 (h : WritesAre L W) (k : ℕ) (V : Valuation τ sig Val)
    (f : ((i : Fin 3) → ((![a, b, c] : Fin 3 → Ref sig .tc) i).ty.Contents Val) → y.ty.Contents Val) (hxs hy)
    (hk : L.drop k = nary (τ := τ) ![a, b, c] y f hxs hy :: L.drop (k + 1)) (hy' : y ∉ W.drop (k + 1))
    (ha' : a ∉ W.drop k) (hb' : b ∉ W.drop k) (hc' : c ∉ W.drop k) :
    StableHlo.after L V (Proc.devRef .tc y)
      = f (Fin.cons (StableHlo.after L V (Proc.devRef .tc a)) (Fin.cons (StableHlo.after L V (Proc.devRef .tc b))
          (Fin.cons (StableHlo.after L V (Proc.devRef .tc c)) (fun i => i.elim0)))) := by
  rw [after_at h k V _ hk y hy', nary_result, after_eq_take h k V a ha', after_eq_take h k V b hb', after_eq_take h k V c hc']
  congr 1; funext i; fin_cases i <;> rfl

end Cert.Lib

end
-- ==== Proof.KHost0.lean ====
/-
  The host operations before the first region, read at any buffer contents: the two rows of the edge-index array,
  each re-laid as a vector of 800000 end points, and the encoder's two bias vectors, each re-laid as a one-row matrix
  (the row at (0, q) is the vector at q). Every other buffer is left as it was.
-/
import proofs.«135957_j57604101374612_1_alg».proof.Proof.Gen.KernelIdeal.Launch
import proofs.«135957_j57604101374612_1_alg».proof.Proof.Spec
import proofs.«135957_j57604101374612_1_alg».proof.Proof.LibRowLayout
import proofs.«135957_j57604101374612_1_alg».proof.Proof.LibHostSSA
import proofs.«135957_j57604101374612_1_alg».proof.Proof.Gen.ReferenceIdeal.Read
import Idealize.ShloMosaic.Lib.StableHlo.Run

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen Cert.Gnn

variable (ν : Valuation τ sig (Elt Ideal))

/-- The first host stretch writes these six arrays, in order. -/
theorem host0_writes : Cert.Lib.WritesAre (hostOps0 : List (HloOp τ sig (Elt Ideal))) [main_v0, main_v1, main_v2, main_v3, main_v4, main_v5] :=
  And.intro rfl <| And.intro rfl <| And.intro rfl <| And.intro rfl <| And.intro rfl <| And.intro rfl <| trivial

/-- It leaves every other array as it was. -/
theorem host0_keeps (b : Ref sig .tc) (hb : b ∉ [main_v0, main_v1, main_v2, main_v3, main_v4, main_v5]) :
    StableHlo.after hostOps0 ν (Proc.devRef .tc b) = ν (Proc.devRef .tc b) :=
  host0_writes.keeps ν b hb

/-- The first row of the two-row edge list, as a vector: the reference's own term for it. -/
theorem host0_v1 : StableHlo.after hostOps0 ν (Proc.devRef .tc main_v1)
    = Cert.ReferenceIdeal.Read.val_main_v1 (F := Ideal) (ν (Proc.devRef .tc main_arg1)) := by
  after_results
  rfl

/-- The second row of the edge list, as a vector: the reference's own term for it. -/
theorem host0_v3 : StableHlo.after hostOps0 ν (Proc.devRef .tc main_v3)
    = Cert.ReferenceIdeal.Read.val_main_v3 (F := Ideal) (ν (Proc.devRef .tc main_arg1)) := by
  after_results
  rfl

/-- A 256-vector laid out as a row: entry (0, q) is entry q. -/
theorem host0_v4 : StableHlo.after hostOps0 ν (Proc.devRef .tc main_v4) = row (ν (Proc.devRef .tc main_arg4)) := by
  after_results
  funext i
  obtain ⟨p, q, rfl⟩ : ∃ (p : Fin 1) (q : Fin 256), i = ix2 p q := ⟨i 0, i 1, eq_ix2 i⟩
  obtain rfl : p = 0 := Subsingleton.elim _ _
  exact Cert.Lib.vecToRow_apply (ν (Proc.devRef .tc main_arg4)) shapeCasts_S256_S1x256 q

/-- The same for the second 256-vector. -/
theorem host0_v5 : StableHlo.after hostOps0 ν (Proc.devRef .tc main_v5) = row (ν (Proc.devRef .tc main_arg6)) := by
  after_results
  funext i
  obtain ⟨p, q, rfl⟩ : ∃ (p : Fin 1) (q : Fin 256), i = ix2 p q := ⟨i 0, i 1, eq_ix2 i⟩
  obtain rfl : p = 0 := Subsingleton.elim _ _
  exact Cert.Lib.vecToRow_apply (ν (Proc.devRef .tc main_arg6)) shapeCasts_S256_S1x256 q

end Cert.KernelIdeal.KVal

end
-- ==== Proof.Agg.lean ====
/-
  One graph-convolution aggregation as a function of a feature matrix and the two edge-index vectors.

  The edge list is extended by one self loop per node (the node numbers 0 … 49999 appended to both index vectors).
  The degree of a node is the number of extended edges that end in it, counted as a sum of ones; every node's weight
  is the reciprocal square root of its degree; an extended edge's coefficient is the product of the weights of its two
  end nodes (each looked up after a negative index has been shifted by the node count); and the aggregate at a node is
  the sum, over the extended edges ending in it, of the source node's feature row times the edge's coefficient.
-/
import proofs.«135957_j57604101374612_1_alg».proof.Proof.Gen.ReferenceIdeal
import Idealize.ShloMosaic.PureOps.Ideal

noncomputable section

namespace Cert.GnnHost

open Idealize.ShloMosaic Cert.ReferenceIdeal Cert.ReferenceIdeal.Gen

/-- A vector of 800000 edge end points, as 32-bit words. -/
abbrev EdgeVec : Type := IVec S800000 32
/-- A vector of 850000 end points: the edges, then the self loops. -/
abbrev LoopVec : Type := IVec S850000 32
/-- A feature matrix, one row of 256 per node. -/
abbrev Feat : Type := FVec Ideal S50000x256 .f32

/-- The end points followed by the node numbers 0 … 49999. -/
def withLoops (v : EdgeVec) : LoopVec :=
  concatenate S850000 0 [⟨S800000, v⟩, ⟨S50000, (iotaInDim S50000 32 0)⟩] concatenates_S800000_S50000_S850000_d0

/-- A negative end point shifted up by the node count. -/
def wrapNeg (v : LoopVec) : LoopVec :=
  select (cmpi .slt v (broadcastInDim S850000 ![] bcast_S_S850000 (constantI S_ 32 0#32)))
    (addi v (broadcastInDim S850000 ![] bcast_S_S850000 (constantI S_ 32 50000#32))) v

/-- A vector of end points as a one-column matrix of scatter or gather indices. -/
def asColumn (v : LoopVec) : IVec S850000x1 32 :=
  broadcastInDim S850000x1 ![0] bcast_S850000_S850000x1_0 v

/-- The degrees: ones summed at the target end point of every extended edge, from zero. -/
def deg (col : EdgeVec) : FVec Ideal S50000 .f32 :=
  Host.scatterAdd scatter_S50000_S850000x1_S850000_n_0_0_1
    (broadcastInDim S50000 ![] bcast_S_S50000 (constant (F := Ideal) S_ .f32 0x00000000#32))
    (asColumn (withLoops col))
    (broadcastInDim S850000 ![] bcast_S_S850000 (constant (F := Ideal) S_ .f32 0x3F800000#32))

/-- The node weights: the reciprocal square roots of the degrees. -/
def dinv (col : EdgeVec) : FVec Ideal S50000 .f32 := Host.rsqrt (deg col)

/-- The extended edges' coefficients: the product of the weights of the two end nodes. -/
def coef (row col : EdgeVec) : FVec Ideal S850000 .f32 :=
  mulf (Host.gather gather_S50000_S850000x1_S850000_n_0_n_n_0_1_1 (dinv col) (asColumn (wrapNeg (withLoops row))))
    (Host.gather gather_S50000_S850000x1_S850000_n_0_n_n_0_1_1 (dinv col) (asColumn (wrapNeg (withLoops col))))

/-- The messages: the source node's feature row times the edge's coefficient. -/
def msgs (h : Feat) (row col : EdgeVec) : FVec Ideal S850000x256 .f32 :=
  mulf (Host.gather gather_S50000x256_S850000x1_S850000x256_1_0_n_n_0_1_1256 h (asColumn (wrapNeg (withLoops row))))
    (broadcastInDim S850000x256 ![0, 1] bcast_S850000x1_S850000x256_0_1
      (broadcastInDim S850000x1 ![0] bcast_S850000_S850000x1_0 (coef row col)))

/-- The aggregate: the messages summed at the target end point of every extended edge, from zero. -/
def agg (h : Feat) (row col : EdgeVec) : Feat :=
  Host.scatterAdd scatter_S50000x256_S850000x1_S850000x256_1_0_0_1
    (broadcastInDim S50000x256 ![] bcast_S_S50000x256 (constant (F := Ideal) S_ .f32 0x00000000#32))
    (asColumn (withLoops col))
    (msgs h row col)

end Cert.GnnHost

end
-- ==== Proof.KHost2.lean ====
/-
  The host operations between the first dense region and the first statistics region, read at any buffer contents:
  the graph aggregation of the dense region's output over the extended edge list (the same operations, in the same
  order, as the function agg), and the first layer's bias vector re-laid as a one-row matrix. Every other buffer is
  left as it was.
-/
import proofs.«135957_j57604101374612_1_alg».proof.Proof.Gen.KernelIdeal.Launch
import proofs.«135957_j57604101374612_1_alg».proof.Proof.Spec
import proofs.«135957_j57604101374612_1_alg».proof.Proof.Agg
import proofs.«135957_j57604101374612_1_alg».proof.Proof.LibRowLayout
import proofs.«135957_j57604101374612_1_alg».proof.Proof.LibHostSSA
import Idealize.ShloMosaic.Lib.StableHlo.Run

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen Cert.Gnn

variable (ν : Valuation τ sig (Elt Ideal))

/-- This host stretch writes these arrays, in order. -/
theorem host2_writes : Cert.Lib.WritesAre (hostOps2 : List (HloOp τ sig (Elt Ideal))) [main_v8, main_v9, main_v10, main_cst, main_v11, main_cst_0, main_v12, main_v13, main_v14, main_v15, main_c, main_v16, main_v17, main_c_1, main_v18, main_v19, main_v20, main_v21, main_v22, main_c_2, main_v23, main_v24, main_c_3, main_v25, main_v26, main_v27, main_v28, main_v29, main_v30, main_c_4, main_v31, main_v32, main_c_5, main_v33, main_v34, main_v35, main_v36, main_v37, main_v38, main_v39, main_v40, main_cst_6, main_v41, main_v42, main_v43, main_v44] :=
  And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| trivial

/-- It leaves every other array as it was. -/
theorem host2_keeps (b : Ref sig .tc) (hb : b ∉ [main_v8, main_v9, main_v10, main_cst, main_v11, main_cst_0, main_v12, main_v13, main_v14, main_v15, main_c, main_v16, main_v17, main_c_1, main_v18, main_v19, main_v20, main_v21, main_v22, main_c_2, main_v23, main_v24, main_c_3, main_v25, main_v26, main_v27, main_v28, main_v29, main_v30, main_c_4, main_v31, main_v32, main_c_5, main_v33, main_v34, main_v35, main_v36, main_v37, main_v38, main_v39, main_v40, main_cst_6, main_v41, main_v42, main_v43, main_v44]) :
    StableHlo.after hostOps2 ν (Proc.devRef .tc b) = ν (Proc.devRef .tc b) :=
  host2_writes.keeps ν b hb

/-- A 256-vector laid out as a row: entry (0, q) is entry q. -/
theorem host2_v44 : StableHlo.after hostOps2 ν (Proc.devRef .tc main_v44) = row (ν (Proc.devRef .tc main_arg8)) := by
  after_results
  funext i
  obtain ⟨p, q, rfl⟩ : ∃ (p : Fin 1) (q : Fin 256), i = ix2 p q := ⟨i 0, i 1, eq_ix2 i⟩
  obtain rfl : p = 0 := Subsingleton.elim _ _
  exact Cert.Lib.vecToRow_apply (ν (Proc.devRef .tc main_arg8)) shapeCasts_S256_S1x256 q

set_option maxHeartbeats 400000 in
/-- The aggregate: the stretch's operations, read in order, are the graph aggregation of the feature matrix along the
    two edge-index vectors — self loops appended, degrees as a sum of ones, the reciprocal square roots as node weights,
    each edge's coefficient the product of its end nodes' weights, the messages summed at the target nodes. The two
    programs' dimension records carry the same data, so the two terms agree by unfolding. -/
theorem host2_v43 : StableHlo.after hostOps2 ν (Proc.devRef .tc main_v43)
    = Cert.GnnHost.agg (ν (Proc.devRef .tc main_v7)) (ν (Proc.devRef .tc main_v1)) (ν (Proc.devRef .tc main_v3)) := by
  after_results_simp
  rfl

end Cert.KernelIdeal.KVal

end
-- ==== Proof.LibRealCollapse.lean ====
/-
  The algebra of a two-layer graph convolution on the extended reals. Independent of any program.

  A layer aggregates, at node n, the rows of a feature matrix at the sources of the edges that end in n, each
  row scaled by a per-source weight; the aggregate is scaled by a per-node weight and multiplied by a dense weight
  matrix. Multiplying by the weight matrix BEFORE aggregating gives the same result, because the product is linear in
  the rows: for real entries
      ((Σ_e (Σ_k h e k · W k) · a e) · c = Σ_k ((Σ_e h e k · a e) · c) · W k.
  On the extended reals distributivity fails at the infinities, so the law is stated for entries that are real
  numbers; the predicate `IsReal` and its closure under the operations a layer uses say which entries are.
-/
import Mathlib.Data.EReal.Basic
import Mathlib.Data.EReal.Operations
import Mathlib.Algebra.BigOperators.Ring.Finset
import Mathlib.Algebra.BigOperators.Group.Finset.Sigma
import Mathlib.Tactic.Ring

noncomputable section

namespace Cert.Gcn

open Finset

/-- An extended real that is a real number. -/
def IsReal (v : EReal) : Prop := ∃ r : ℝ, v = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {u v : EReal} (hu : IsReal u) (hv : IsReal v) : IsReal (u + v) := by
  obtain ⟨a, rfl⟩ := hu; obtain ⟨b, rfl⟩ := hv
  exact ⟨a + b, (EReal.coe_add a b).symm⟩

theorem IsReal.mul {u v : EReal} (hu : IsReal u) (hv : IsReal v) : IsReal (u * v) := by
  obtain ⟨a, rfl⟩ := hu; obtain ⟨b, rfl⟩ := hv
  exact ⟨a * b, (EReal.coe_mul a b).symm⟩

theorem IsReal.max {u v : EReal} (hu : IsReal u) (hv : IsReal v) : IsReal (max u v) := by
  rcases max_choice u v with h | h <;> rw [h] <;> assumption

theorem IsReal.sum {ι : Type} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The dense weight commutes with the weighted aggregation, over the reals. -/
theorem collapse_real {ι κ : Type} [Fintype κ] (S : Finset ι) (h : ι → κ → ℝ) (a : ι → ℝ) (W : κ → ℝ) (c : ℝ) :
    (∑ e ∈ S, (∑ k, h e k * W k) * a e) * c = ∑ k, ((∑ e ∈ S, h e k * a e) * c) * W k := by
  simp only [Finset.sum_mul]
  rw [Finset.sum_comm]
  exact Finset.sum_congr rfl fun k _ => Finset.sum_congr rfl fun e _ => by ring

/-- The same on the extended reals, for entries that are real numbers: the node's result with the weight applied
    before the aggregation equals the result with the weight applied after it; the bias `b` is any extended real. -/
theorem collapse {ι κ : Type} [Fintype κ] (S : Finset ι) (h : ι → κ → EReal) (a : ι → EReal) (W : κ → EReal) (c b : EReal)
    (hh : ∀ e k, IsReal (h e k)) (ha : ∀ e, IsReal (a e)) (hW : ∀ k, IsReal (W k)) (hc : IsReal c) :
    (∑ e ∈ S, (∑ k, h e k * W k) * a e) * c + b = (∑ k, ((∑ e ∈ S, h e k * a e) * c) * W k) + b := by
  choose h' hh' using hh
  choose a' ha' using ha
  choose W' hW' using hW
  obtain ⟨c', rfl⟩ := hc
  refine congrArg (· + b) ?_
  simp only [hh', ha', hW', ← EReal.coe_mul, ← coe_sum]
  exact congrArg _ (collapse_real S h' a' W' c')

end Cert.Gcn

end
-- ==== Proof.LibBatchNormMoments.lean ====
/-
  Batch-normalisation moments on the extended reals. Independent of any program.

  A column `h` of `n` entries has the mean `μ = (Σ h) / n`. Its variance is written in two ways:
      the mean of the squared deviations,          (Σ_i (h i − μ)²) / n,
      the second moment minus the squared mean,    (Σ_i (h i)²) / n − μ².
  Over the real numbers the two agree: expand the square, use `Σ_i μ = n · μ`, and cancel. On the extended reals the
  expansion needs distributivity, which fails at the infinities, so the identity is stated for columns whose
  entries are real numbers (`IsReal`). For such a column the variance is a non-negative real number (a sum of
  squares over a positive count), hence `variance + ε` is a positive real for every real `ε > 0` and its reciprocal
  square root is again a real number.

  Also here: `IsReal` is closed under subtraction, under division by a nonzero real and under the reciprocal
  square root of a positive real; and three single-precision words as the real numbers they denote
  (`100000`, `1`, and the word nearest `1e-5`, of which only the sign is used).
-/
import proofs.«135957_j57604101374612_1_alg».proof.Proof.LibRealCollapse
import Idealize.ShloMosaic.PureOps.Ideal

noncomputable section

namespace Cert.BatchNorm

open Finset Idealize.ShloMosaic Cert.Gcn

/-! ### Closure of the real entries -/

/-- The difference of two real numbers is a real number. -/
theorem _root_.Cert.Gcn.IsReal.sub {u v : EReal} (hu : IsReal u) (hv : IsReal v) : IsReal (u - v) := by
  obtain ⟨a, rfl⟩ := hu; obtain ⟨b, rfl⟩ := hv
  exact ⟨a - b, (EReal.coe_sub a b).symm⟩

/-- A real number divided by a nonzero real number is a real number. -/
theorem isReal_div {u : EReal} (hu : IsReal u) {N : ℝ} (hN : N ≠ 0) : IsReal (Ideal.div u (N : EReal)) := by
  obtain ⟨a, rfl⟩ := hu
  rw [Ideal.div_coe hN]
  exact ⟨a * (1 / N), (EReal.coe_mul a (1 / N)).symm⟩

/-- The reciprocal square root of a positive real number is a real number. -/
theorem isReal_rsqrt {r : ℝ} (hr : 0 < r) : IsReal (Ideal.rsqrt (r : EReal)) := by
  rw [Ideal.rsqrt_coe, if_neg (not_lt.mpr hr.le), if_neg hr.ne']
  exact ⟨(Real.sqrt r)⁻¹, rfl⟩

/-- The reciprocal square root of a non-negative real plus a positive real is a real number: the shape
    `rsqrt (variance + ε)`. -/
theorem isReal_rsqrt_var_eps {v e : ℝ} (hv : 0 ≤ v) (he : 0 < e) :
    IsReal (Ideal.rsqrt ((v : EReal) + (e : EReal))) := by
  rw [← EReal.coe_add]
  exact isReal_rsqrt (add_pos_of_nonneg_of_pos hv he)

/-! ### The two forms of the variance -/

/-- Over the reals, with `n` the number of entries and division written as the product with `1 / n`: the mean of
    the squared deviations from the mean equals the second moment minus the squared mean. -/
theorem variance_moments_real {ι : Type} [Fintype ι] (x : ι → ℝ) (N : ℝ) (hN : N = (Fintype.card ι : ℝ))
    (hN0 : N ≠ 0) :
    (∑ i, (x i - (∑ i, x i) * (1 / N)) * (x i - (∑ i, x i) * (1 / N))) * (1 / N)
      = (∑ i, x i * x i) * (1 / N) - (∑ i, x i) * (1 / N) * ((∑ i, x i) * (1 / N)) := by
  generalize hS : ∑ i, x i = S
  generalize hμ : S * (1 / N) = μ
  have hexp : ∀ i, (x i - μ) * (x i - μ) = x i * x i - 2 * μ * x i + μ * μ := fun i => by ring
  have hsum : ∑ i, (x i - μ) * (x i - μ) = ∑ i, x i * x i - 2 * μ * S + N * (μ * μ) := by
    simp only [hexp, Finset.sum_add_distrib, Finset.sum_sub_distrib, ← Finset.mul_sum, hS, Finset.sum_const,
      Finset.card_univ, nsmul_eq_mul, ← hN]
    ring
  rw [hsum, ← hμ]
  field_simp
  ring

/-- For a column of real entries, the mean of the squared deviations from the mean (the sums starting from the
    initial value `0`) equals the second moment minus the squared mean. -/
theorem variance_moments {ι : Type} [Fintype ι] (h : ι → EReal) (hh : ∀ i, IsReal (h i)) (N : ℝ)
    (hN : N = (Fintype.card ι : ℝ)) (hpos : 0 < Fintype.card ι) :
    Ideal.div (0 + ∑ i, (h i - Ideal.div (0 + ∑ i, h i) (N : EReal)) * (h i - Ideal.div (0 + ∑ i, h i) (N : EReal))) (N : EReal)
      = Ideal.div (∑ i, h i * h i) (N : EReal) - Ideal.div (∑ i, h i) (N : EReal) * Ideal.div (∑ i, h i) (N : EReal) := by
  choose h' hh' using hh
  have hN0 : N ≠ 0 := by rw [hN]; exact_mod_cast hpos.ne'
  simp only [zero_add, hh', Ideal.div_coe hN0, ← coe_sum, ← EReal.coe_mul, ← EReal.coe_sub]
  exact congrArg _ (variance_moments_real h' N hN hN0)

/-- For a column of real entries the variance, in the form second moment minus squared mean, is a non-negative
    real number: it is the mean of the squared deviations, a sum of squares over a positive count. -/
theorem variance_nonneg {ι : Type} [Fintype ι] (h : ι → EReal) (hh : ∀ i, IsReal (h i)) (N : ℝ)
    (hN : N = (Fintype.card ι : ℝ)) (hpos : 0 < Fintype.card ι) :
    ∃ v : ℝ, 0 ≤ v ∧ Ideal.div (∑ i, h i * h i) (N : EReal) - Ideal.div (∑ i, h i) (N : EReal) * Ideal.div (∑ i, h i) (N : EReal) = (v : EReal) := by
  rw [← variance_moments h hh N hN hpos]
  choose h' hh' using hh
  have hNpos : 0 < N := by rw [hN]; exact_mod_cast hpos
  refine ⟨(∑ i, (h' i - (∑ i, h' i) * (1 / N)) * (h' i - (∑ i, h' i) * (1 / N))) * (1 / N), ?_, ?_⟩
  · exact mul_nonneg (Finset.sum_nonneg fun i _ => mul_self_nonneg _) (one_div_pos.mpr hNpos).le
  · simp only [zero_add, hh', Ideal.div_coe hNpos.ne', ← coe_sum, ← EReal.coe_mul, ← EReal.coe_sub]

/-! ### Three single-precision words -/

/-- The word `0x47C35000` (exponent field `143`, fraction field `0x435000`) denotes
    `(2^23 + 4411392) · 2^(143 − 127 − 23) = 100000`. -/
theorem ofBits_hundred_thousand : Ideal.ofBits .f32 0x47C35000#32 = ((100000 : ℝ) : EReal) := by
  simp [Ideal.ofBits, Ideal.ieee, -EReal.coe_mul]; norm_num

/-- The word `0x3F800000` (exponent field `127`, fraction field `0`) denotes `2^23 · 2^(−23) = 1`. -/
theorem ofBits_one : Ideal.ofBits .f32 0x3F800000#32 = ((1 : ℝ) : EReal) := by
  simp [Ideal.ofBits, Ideal.ieee, -EReal.coe_mul]; norm_num

/-- The word `0x3727C5AC`, the single-precision number nearest `1e-5` (exponent field `110`, fraction field
    `0x27C5AC`), denotes the positive real `(2^23 + 2606508) · 2^(110 − 127 − 23)`. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.BatchNorm

end
-- ==== Proof.BnForms.lean ====
/-
  Batch normalisation of the columns of a matrix, in two arrangements, on the extended reals.

  For a column h of n real entries with mean μ = (Σ h) / n, the normalised entry is written either
      γ · (h i − μ) · rsqrt (mean of (h − μ)² + ε) + β          (deviations first),
  or, with the variance taken as the second moment minus the squared mean,
      s · h i + (β − μ · s),   s = γ · rsqrt ((Σ h²) / n − μ² + ε)   (one scale and one shift per column).
  Over the reals the two agree: the two variances are equal, and the rest is the distributive law. On the extended reals
  both steps need the entries to be real numbers, so the law is stated for real entries, real γ and β, and a positive
  real ε; then the variance plus ε is a positive real and its reciprocal square root is a real number.
-/
import proofs.«135957_j57604101374612_1_alg».proof.Proof.LibBatchNormMoments
import proofs.«135957_j57604101374612_1_alg».proof.Proof.Spec
import Idealize.ShloMosaic.PureOps.Ideal
import Idealize.ShloMosaic.PureOps.Ideal.Laws

noncomputable section

namespace Cert.Gnn

open Finset Idealize.ShloMosaic Idealize.ShloMosaic.ValueIdx Cert.BatchNorm Cert.Gcn

/-- One entry of a column of real numbers, normalised: the arrangement by deviations equals the arrangement by one
    scale and one shift. `N` is the number of entries as a real, `g`, `b` the column's weight and offset, `e` a
    positive real. The sums of the first arrangement start from `0`. -/
theorem bn_entry {ι : Type} [Fintype ι] (h : ι → EReal) (hh : ∀ i, IsReal (h i)) (N : ℝ)
    (hN : N = (Fintype.card ι : ℝ)) (hpos : 0 < Fintype.card ι) (g b e : EReal) (hg : IsReal g) (hb : IsReal b)
    (he : ∃ e' : ℝ, 0 < e' ∧ e = (e' : EReal)) (n : ι) :
    g * (h n - Ideal.div (0 + ∑ i, h i) (N : EReal))
        * Ideal.rsqrt (Ideal.div (0 + ∑ i, (h i - Ideal.div (0 + ∑ i, h i) (N : EReal)) * (h i - Ideal.div (0 + ∑ i, h i) (N : EReal))) (N : EReal) + e)
        + b
      = g * Ideal.rsqrt (Ideal.div (∑ i, h i * h i) (N : EReal) - Ideal.div (∑ i, h i) (N : EReal) * Ideal.div (∑ i, h i) (N : EReal) + e) * h n
        + (b - Ideal.div (∑ i, h i) (N : EReal)
            * (g * Ideal.rsqrt (Ideal.div (∑ i, h i * h i) (N : EReal) - Ideal.div (∑ i, h i) (N : EReal) * Ideal.div (∑ i, h i) (N : EReal) + e))) := by
  have hN0 : N ≠ 0 := by rw [hN]; exact_mod_cast hpos.ne'
  rw [variance_moments h hh N hN hpos]
  obtain ⟨v, hv0, hv⟩ := variance_nonneg h hh N hN hpos
  obtain ⟨e', he0, rfl⟩ := he
  rw [hv]
  obtain ⟨r, hr⟩ := isReal_rsqrt_var_eps hv0 he0
  rw [hr, zero_add]
  obtain ⟨μ, hμ⟩ := isReal_div (IsReal.sum Finset.univ h fun i _ => hh i) hN0
  rw [hμ]
  obtain ⟨x, hx⟩ := hh n
  obtain ⟨g', rfl⟩ := hg
  obtain ⟨b', rfl⟩ := hb
  rw [hx]
  simp only [← EReal.coe_mul, ← EReal.coe_sub, ← EReal.coe_add]
  exact congrArg _ (by ring)

/-- The single-precision word of 50000.0 (exponent field 142, fraction field 0x435000) denotes
    (2^23 + 4411392) · 2^(142 − 127 − 23) = 50000. -/
theorem ofBits_fifty_thousand : Ideal.ofBits .f32 0x47435000#32 = ((50000 : ℝ) : EReal) := by
  simp [Ideal.ofBits, Ideal.ieee, -EReal.coe_mul]; norm_num

/-- The word of the row count, 50000.0. -/
abbrev countW : EReal := Ideal.ofBits .f32 0x47435000#32
/-- The word of the normalisation's ε, the single-precision number nearest 1e-5. -/
abbrev epsW : EReal := Ideal.ofBits .f32 0x3727C5AC#32

variable {H : Nat}

/-- Batch normalisation of the columns of a 50000-row matrix, by deviations: the mean and the mean squared
    deviation are sums from the zero word divided by the count word. -/
def bnDev (hb : Mat 50000 H) (γ β : Vc H) : Mat 50000 H := fun i =>
  γ (ix1 (i 1 : Fin H))
      * (hb i - Ideal.div (zeroW + ∑ n : Fin 50000, hb (ix2 n (i 1 : Fin H))) countW)
      * Ideal.rsqrt (Ideal.div (zeroW + ∑ n : Fin 50000,
            (hb (ix2 n (i 1 : Fin H)) - Ideal.div (zeroW + ∑ n : Fin 50000, hb (ix2 n (i 1 : Fin H))) countW)
              * (hb (ix2 n (i 1 : Fin H)) - Ideal.div (zeroW + ∑ n : Fin 50000, hb (ix2 n (i 1 : Fin H))) countW)) countW + epsW)
    + β (ix1 (i 1 : Fin H))

/-- The row of column scales γ · rsqrt (second moment − mean² + ε) from the rows of column sums `s` and of column sums
    of squares `q`. -/
def scaleRow (s q : Mat 1 H) (γ : Vc H) : Mat 1 H := fun i =>
  γ (ix1 (i 1 : Fin H)) * Ideal.rsqrt (Ideal.div (q i) countW - Ideal.div (s i) countW * Ideal.div (s i) countW + epsW)

/-- The row of column shifts β − mean · scale. -/
def shiftRow (s q : Mat 1 H) (γ β : Vc H) : Mat 1 H := fun i =>
  β (ix1 (i 1 : Fin H)) - Ideal.div (s i) countW * scaleRow s q γ i

/-- For a matrix of real entries, real weights and offsets: normalising by deviations is the affine map by the
    scale row and the shift row computed from the column sums and the column sums of squares. -/
theorem bnDev_eq_affine (hb : Mat 50000 H) (γ β : Vc H) (hh : ∀ i, IsReal (hb i)) (hγ : ∀ j, IsReal (γ j))
    (hβ : ∀ j, IsReal (β j)) :
    bnDev hb γ β = affine (scaleRow (colSum hb) (colSum (sq hb)) γ) (shiftRow (colSum hb) (colSum (sq hb)) γ β) hb := by
  funext i
  obtain ⟨p, q, rfl⟩ : ∃ (p : Fin 50000) (q : Fin H), i = ix2 p q := ⟨i 0, i 1, eq_ix2 i⟩
  have key := bn_entry (fun n : Fin 50000 => hb (ix2 n q)) (fun n => hh _) (50000 : ℝ) (by simp) (by simp)
    (γ (ix1 q)) (β (ix1 q)) epsW (hγ _) (hβ _) ofBits_eps_pos p
  show γ (ix1 q) * (hb (ix2 p q) - Ideal.div (zeroW + ∑ n : Fin 50000, hb (ix2 n q)) countW)
        * Ideal.rsqrt (Ideal.div (zeroW + ∑ n : Fin 50000,
            (hb (ix2 n q) - Ideal.div (zeroW + ∑ n : Fin 50000, hb (ix2 n q)) countW)
              * (hb (ix2 n q) - Ideal.div (zeroW + ∑ n : Fin 50000, hb (ix2 n q)) countW)) countW + epsW)
        + β (ix1 q)
      = γ (ix1 q) * Ideal.rsqrt (Ideal.div (∑ n : Fin 50000, hb (ix2 n q) * hb (ix2 n q)) countW
            - Ideal.div (∑ n : Fin 50000, hb (ix2 n q)) countW * Ideal.div (∑ n : Fin 50000, hb (ix2 n q)) countW + epsW) * hb (ix2 p q)
        + (β (ix1 q) - Ideal.div (∑ n : Fin 50000, hb (ix2 n q)) countW
            * (γ (ix1 q) * Ideal.rsqrt (Ideal.div (∑ n : Fin 50000, hb (ix2 n q) * hb (ix2 n q)) countW
              - Ideal.div (∑ n : Fin 50000, hb (ix2 n q)) countW * Ideal.div (∑ n : Fin 50000, hb (ix2 n q)) countW + epsW)))
  have hz : zeroW = 0 := Ideal.ofBits_zero_f32
  rw [hz]
  unfold countW
  rw [ofBits_fifty_thousand]
  exact key

end Cert.Gnn

end
-- ==== Proof.KHost3.lean ====
/-
  The host operations between the first statistics region and the first normalisation region, read at any buffer
  contents. From the row s of column sums and the row q of column sums of squares: the mean s / n and the second
  moment q / n (n the row count's word), the variance as their difference with the squared mean, the scale row
  γ · rsqrt (variance + ε) and the shift row β − mean · scale, entry by entry; and the bias vector re-laid as a
  one-row matrix. Every other buffer is left as it was.
-/
import proofs.«135957_j57604101374612_1_alg».proof.Proof.Gen.KernelIdeal.Launch
import proofs.«135957_j57604101374612_1_alg».proof.Proof.Spec
import proofs.«135957_j57604101374612_1_alg».proof.Proof.BnForms
import proofs.«135957_j57604101374612_1_alg».proof.Proof.LibRowLayout
import proofs.«135957_j57604101374612_1_alg».proof.Proof.LibHostSSA
import Idealize.ShloMosaic.Lib.StableHlo.Run
import Idealize.ShloMosaic.Lib.IdealHost

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen Cert.Gnn

variable (ν : Valuation τ sig (Elt Ideal))

/-- This host stretch writes these arrays, in order. -/
theorem host3_writes : Cert.Lib.WritesAre (hostOps3 : List (HloOp τ sig (Elt Ideal))) [main_cst_7, main_v46, main_v47, main_cst_8, main_v48, main_v49, main_v50, main_v51, main_v52, main_cst_9, main_v53, main_v54, main_v55, main_v56, main_v57, main_v58, main_v59, main_v60] :=
  And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| trivial

/-- It leaves every other array as it was. -/
theorem host3_keeps (b : Ref sig .tc) (hb : b ∉ [main_cst_7, main_v46, main_v47, main_cst_8, main_v48, main_v49, main_v50, main_v51, main_v52, main_cst_9, main_v53, main_v54, main_v55, main_v56, main_v57, main_v58, main_v59, main_v60]) :
    StableHlo.after hostOps3 ν (Proc.devRef .tc b) = ν (Proc.devRef .tc b) :=
  host3_writes.keeps ν b hb

/-- The host's reciprocal square root of an array, at an index. -/
theorem host3_rsqrt_apply {s : Shape} {φ : FTy} (a : FVec Ideal s φ) (i : s.Idx) : Host.rsqrt a i = Ideal.rsqrt (a i) := rfl

/-- A constant word broadcast to a row reads the word's value at every entry. -/
theorem host3_const_row (w : BitVec 32) (q : Fin 256) :
    broadcastInDim S1x256 ![] bcast_S_S1x256 (constant (F := Ideal) S_ .f32 w) (ix2 0 q) = Ideal.ofBits .f32 w :=
  broadcastInDim_scalar_apply bcast_S_S1x256 _ _

/-- A 256-vector laid out as a row: entry (0, q) is entry q. -/
theorem host3_v60 : StableHlo.after hostOps3 ν (Proc.devRef .tc main_v60) = row (ν (Proc.devRef .tc main_arg8)) := by
  after_results
  funext i
  obtain ⟨p, q, rfl⟩ : ∃ (p : Fin 1) (q : Fin 256), i = ix2 p q := ⟨i 0, i 1, eq_ix2 i⟩
  obtain rfl : p = 0 := Subsingleton.elim _ _
  exact Cert.Lib.vecToRow_apply (ν (Proc.devRef .tc main_arg8)) shapeCasts_S256_S1x256 q

/-- The scale row: the weight times the reciprocal square root of the second moment minus the squared mean plus ε, the
    two moments being the column sums divided by the row count. -/
theorem host3_v56 : StableHlo.after hostOps3 ν (Proc.devRef .tc main_v56)
    = scaleRow (ν (Proc.devRef .tc main_v45_0)) (ν (Proc.devRef .tc main_v45_1)) (ν (Proc.devRef .tc main_arg11)) := by
  after_results_simp
  funext i
  obtain ⟨p, q, rfl⟩ : ∃ (p : Fin 1) (q : Fin 256), i = ix2 p q := ⟨i 0, i 1, eq_ix2 i⟩
  obtain rfl : p = 0 := Subsingleton.elim _ _
  simp only [mulf_apply, addf_apply, subf_apply, hostDivf_apply, host3_rsqrt_apply]
  have hg : shapeCast main_v52.ty.shape (ν (Proc.devRef .tc main_arg11)) shapeCasts_S256_S1x256 (ix2 0 q)
      = ν (Proc.devRef .tc main_arg11) (ix1 q) := Cert.Lib.vecToRow_apply _ _ q
  rw [hg, host3_const_row, host3_const_row]
  rfl

/-- The shift row: the offset minus the mean times the scale. -/
theorem host3_v59 : StableHlo.after hostOps3 ν (Proc.devRef .tc main_v59)
    = shiftRow (ν (Proc.devRef .tc main_v45_0)) (ν (Proc.devRef .tc main_v45_1)) (ν (Proc.devRef .tc main_arg11)) (ν (Proc.devRef .tc main_arg12)) := by
  after_results_simp
  funext i
  obtain ⟨p, q, rfl⟩ : ∃ (p : Fin 1) (q : Fin 256), i = ix2 p q := ⟨i 0, i 1, eq_ix2 i⟩
  obtain rfl : p = 0 := Subsingleton.elim _ _
  simp only [mulf_apply, addf_apply, subf_apply, hostDivf_apply, host3_rsqrt_apply]
  have hg : shapeCast main_v52.ty.shape (ν (Proc.devRef .tc main_arg11)) shapeCasts_S256_S1x256 (ix2 0 q)
      = ν (Proc.devRef .tc main_arg11) (ix1 q) := Cert.Lib.vecToRow_apply _ _ q
  have hb : shapeCast main_v57.ty.shape (ν (Proc.devRef .tc main_arg12)) shapeCasts_S256_S1x256 (ix2 0 q)
      = ν (Proc.devRef .tc main_arg12) (ix1 q) := Cert.Lib.vecToRow_apply _ _ q
  rw [hg, hb, host3_const_row, host3_const_row]
  rfl

end Cert.KernelIdeal.KVal

end
-- ==== Proof.KHost5.lean ====
/-
  The host operations between the second dense region and the second statistics region, read at any buffer contents:
  the graph aggregation of the dense region's output over the extended edge list (the same operations, in the same
  order, as the function agg), and the second layer's bias vector re-laid as a one-row matrix. Every other buffer is
  left as it was.
-/
import proofs.«135957_j57604101374612_1_alg».proof.Proof.Gen.KernelIdeal.Launch
import proofs.«135957_j57604101374612_1_alg».proof.Proof.Spec
import proofs.«135957_j57604101374612_1_alg».proof.Proof.Agg
import proofs.«135957_j57604101374612_1_alg».proof.Proof.LibRowLayout
import proofs.«135957_j57604101374612_1_alg».proof.Proof.LibHostSSA
import Idealize.ShloMosaic.Lib.StableHlo.Run

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen Cert.Gnn

variable (ν : Valuation τ sig (Elt Ideal))

/-- This host stretch writes these arrays, in order. -/
theorem host5_writes : Cert.Lib.WritesAre (hostOps5 : List (HloOp τ sig (Elt Ideal))) [main_v63, main_v64, main_v65, main_cst_10, main_v66, main_cst_11, main_v67, main_v68, main_v69, main_v70, main_c_12, main_v71, main_v72, main_c_13, main_v73, main_v74, main_v75, main_v76, main_v77, main_c_14, main_v78, main_v79, main_c_15, main_v80, main_v81, main_v82, main_v83, main_v84, main_v85, main_c_16, main_v86, main_v87, main_c_17, main_v88, main_v89, main_v90, main_v91, main_v92, main_v93, main_v94, main_v95, main_cst_18, main_v96, main_v97, main_v98, main_v99] :=
  And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| trivial

/-- It leaves every other array as it was. -/
theorem host5_keeps (b : Ref sig .tc) (hb : b ∉ [main_v63, main_v64, main_v65, main_cst_10, main_v66, main_cst_11, main_v67, main_v68, main_v69, main_v70, main_c_12, main_v71, main_v72, main_c_13, main_v73, main_v74, main_v75, main_v76, main_v77, main_c_14, main_v78, main_v79, main_c_15, main_v80, main_v81, main_v82, main_v83, main_v84, main_v85, main_c_16, main_v86, main_v87, main_c_17, main_v88, main_v89, main_v90, main_v91, main_v92, main_v93, main_v94, main_v95, main_cst_18, main_v96, main_v97, main_v98, main_v99]) :
    StableHlo.after hostOps5 ν (Proc.devRef .tc b) = ν (Proc.devRef .tc b) :=
  host5_writes.keeps ν b hb

/-- A 256-vector laid out as a row: entry (0, q) is entry q. -/
theorem host5_v99 : StableHlo.after hostOps5 ν (Proc.devRef .tc main_v99) = row (ν (Proc.devRef .tc main_arg10)) := by
  after_results
  funext i
  obtain ⟨p, q, rfl⟩ : ∃ (p : Fin 1) (q : Fin 256), i = ix2 p q := ⟨i 0, i 1, eq_ix2 i⟩
  obtain rfl : p = 0 := Subsingleton.elim _ _
  exact Cert.Lib.vecToRow_apply (ν (Proc.devRef .tc main_arg10)) shapeCasts_S256_S1x256 q

set_option maxHeartbeats 400000 in
/-- The aggregate: the stretch's operations, read in order, are the graph aggregation of the feature matrix along the
    two edge-index vectors — self loops appended, degrees as a sum of ones, the reciprocal square roots as node weights,
    each edge's coefficient the product of its end nodes' weights, the messages summed at the target nodes. The two
    programs' dimension records carry the same data, so the two terms agree by unfolding. -/
theorem host5_v98 : StableHlo.after hostOps5 ν (Proc.devRef .tc main_v98)
    = Cert.GnnHost.agg (ν (Proc.devRef .tc main_v62)) (ν (Proc.devRef .tc main_v1)) (ν (Proc.devRef .tc main_v3)) := by
  after_results_simp
  rfl

end Cert.KernelIdeal.KVal

end
-- ==== Proof.KHost6.lean ====
/-
  The host operations between the second statistics region and the output region, read at any buffer contents. From
  the row of column sums and the row of column sums of squares: the scale row γ · rsqrt (variance + ε) and the shift
  row β − mean · scale of the second normalisation, entry by entry; the second layer's bias vector re-laid as a
  one-row matrix; and the output bias, a one-entry vector, re-laid as a one-by-one matrix. Every other buffer is left
  as it was.
-/
import proofs.«135957_j57604101374612_1_alg».proof.Proof.Gen.KernelIdeal.Launch
import proofs.«135957_j57604101374612_1_alg».proof.Proof.Spec
import proofs.«135957_j57604101374612_1_alg».proof.Proof.BnForms
import proofs.«135957_j57604101374612_1_alg».proof.Proof.LibRowLayout
import proofs.«135957_j57604101374612_1_alg».proof.Proof.LibHostSSA
import Idealize.ShloMosaic.Lib.StableHlo.Run
import Idealize.ShloMosaic.Lib.IdealHost

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen Cert.Gnn

variable (ν : Valuation τ sig (Elt Ideal))

/-- This host stretch writes these arrays, in order. -/
theorem host6_writes : Cert.Lib.WritesAre (hostOps6 : List (HloOp τ sig (Elt Ideal))) [main_cst_19, main_v101, main_v102, main_cst_20, main_v103, main_v104, main_v105, main_v106, main_v107, main_cst_21, main_v108, main_v109, main_v110, main_v111, main_v112, main_v113, main_v114, main_v115, main_v116] :=
  And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| And.intro rfl <| trivial

/-- It leaves every other array as it was. -/
theorem host6_keeps (b : Ref sig .tc) (hb : b ∉ [main_cst_19, main_v101, main_v102, main_cst_20, main_v103, main_v104, main_v105, main_v106, main_v107, main_cst_21, main_v108, main_v109, main_v110, main_v111, main_v112, main_v113, main_v114, main_v115, main_v116]) :
    StableHlo.after hostOps6 ν (Proc.devRef .tc b) = ν (Proc.devRef .tc b) :=
  host6_writes.keeps ν b hb

/-- The host's reciprocal square root of an array, at an index. -/
theorem host6_rsqrt_apply {s : Shape} {φ : FTy} (a : FVec Ideal s φ) (i : s.Idx) : Host.rsqrt a i = Ideal.rsqrt (a i) := rfl

/-- A constant word broadcast to a row reads the word's value at every entry. -/
theorem host6_const_row (w : BitVec 32) (q : Fin 256) :
    broadcastInDim S1x256 ![] bcast_S_S1x256 (constant (F := Ideal) S_ .f32 w) (ix2 0 q) = Ideal.ofBits .f32 w :=
  broadcastInDim_scalar_apply bcast_S_S1x256 _ _

/-- A 256-vector laid out as a row: entry (0, q) is entry q. -/
theorem host6_v115 : StableHlo.after hostOps6 ν (Proc.devRef .tc main_v115) = row (ν (Proc.devRef .tc main_arg10)) := by
  after_results
  funext i
  obtain ⟨p, q, rfl⟩ : ∃ (p : Fin 1) (q : Fin 256), i = ix2 p q := ⟨i 0, i 1, eq_ix2 i⟩
  obtain rfl : p = 0 := Subsingleton.elim _ _
  exact Cert.Lib.vecToRow_apply (ν (Proc.devRef .tc main_arg10)) shapeCasts_S256_S1x256 q

/-- A one-entry vector laid out as a one-entry row. -/
theorem host6_v116 : StableHlo.after hostOps6 ν (Proc.devRef .tc main_v116) = row (ν (Proc.devRef .tc main_arg16)) := by
  after_results
  funext i
  obtain ⟨p, q, rfl⟩ : ∃ (p : Fin 1) (q : Fin 1), i = ix2 p q := ⟨i 0, i 1, eq_ix2 i⟩
  obtain rfl : p = 0 := Subsingleton.elim _ _
  exact Cert.Lib.vecToRow_apply (ν (Proc.devRef .tc main_arg16)) shapeCasts_S1_S1x1 q

/-- The scale row: the weight times the reciprocal square root of the second moment minus the squared mean plus ε, the
    two moments being the column sums divided by the row count. -/
theorem host6_v111 : StableHlo.after hostOps6 ν (Proc.devRef .tc main_v111)
    = scaleRow (ν (Proc.devRef .tc main_v100_0)) (ν (Proc.devRef .tc main_v100_1)) (ν (Proc.devRef .tc main_arg13)) := by
  after_results_simp
  funext i
  obtain ⟨p, q, rfl⟩ : ∃ (p : Fin 1) (q : Fin 256), i = ix2 p q := ⟨i 0, i 1, eq_ix2 i⟩
  obtain rfl : p = 0 := Subsingleton.elim _ _
  simp only [mulf_apply, addf_apply, subf_apply, hostDivf_apply, host6_rsqrt_apply]
  have hg : shapeCast main_v107.ty.shape (ν (Proc.devRef .tc main_arg13)) shapeCasts_S256_S1x256 (ix2 0 q)
      = ν (Proc.devRef .tc main_arg13) (ix1 q) := Cert.Lib.vecToRow_apply _ _ q
  rw [hg, host6_const_row, host6_const_row]
  rfl

/-- The shift row: the offset minus the mean times the scale. -/
theorem host6_v114 : StableHlo.after hostOps6 ν (Proc.devRef .tc main_v114)
    = shiftRow (ν (Proc.devRef .tc main_v100_0)) (ν (Proc.devRef .tc main_v100_1)) (ν (Proc.devRef .tc main_arg13)) (ν (Proc.devRef .tc main_arg14)) := by
  after_results_simp
  funext i
  obtain ⟨p, q, rfl⟩ : ∃ (p : Fin 1) (q : Fin 256), i = ix2 p q := ⟨i 0, i 1, eq_ix2 i⟩
  obtain rfl : p = 0 := Subsingleton.elim _ _
  simp only [mulf_apply, addf_apply, subf_apply, hostDivf_apply, host6_rsqrt_apply]
  have hg : shapeCast main_v107.ty.shape (ν (Proc.devRef .tc main_arg13)) shapeCasts_S256_S1x256 (ix2 0 q)
      = ν (Proc.devRef .tc main_arg13) (ix1 q) := Cert.Lib.vecToRow_apply _ _ q
  have hb : shapeCast main_v112.ty.shape (ν (Proc.devRef .tc main_arg14)) shapeCasts_S256_S1x256 (ix2 0 q)
      = ν (Proc.devRef .tc main_arg14) (ix1 q) := Cert.Lib.vecToRow_apply _ _ q
  rw [hg, hb, host6_const_row, host6_const_row]
  rfl

end Cert.KernelIdeal.KVal

end
-- ==== Proof.LibRealArrays.lean ====
/-
  Arrays of real numbers under the operations of a host program. Independent of any program.

  The ideal values of a float array are extended reals. Most algebraic laws (distributivity above all) hold on the
  extended reals only away from the infinities, so a proof that uses them first needs to know that the entries it
  meets are real numbers. This file gives that knowledge operation by operation: an entrywise product, sum,
  difference or maximum of real arrays is real; a constant, a broadcast and a gather only repeat entries of their
  operand; an accumulating scatter, a contraction and a sum over axes are finite sums of entries or of products of
  entries; a quotient by a nonzero real constant is real. Two refinements carry a sign: a finite sum of non-negative
  reals is a non-negative real (a count of edges, a sum of squares), and a non-negative real plus a positive real is
  positive, so that its reciprocal square root is a real number again.
-/
import proofs.«135957_j57604101374612_1_alg».proof.Proof.LibBatchNormMoments
import Idealize.ShloMosaic.PureOps.Ideal.Laws
import Idealize.ShloMosaic.Lib.ValueIdx

noncomputable section

namespace Cert.Lib.RealArrays

open Finset Idealize.ShloMosaic Cert.Gcn Cert.BatchNorm

/-! ### Non-negative and positive real numbers among the extended reals -/

/-- An extended real that is a non-negative real number. -/
def IsNonnegReal (v : EReal) : Prop := ∃ r : ℝ, 0 ≤ r ∧ v = (r : EReal)

/-- An extended real that is a positive real number. -/
def IsPosReal (v : EReal) : Prop := ∃ r : ℝ, 0 < r ∧ v = (r : EReal)

/-- A non-negative real number is a real number. -/
theorem IsNonnegReal.isReal {v : EReal} (h : IsNonnegReal v) : IsReal v := by
  obtain ⟨r, _, rfl⟩ := h; exact ⟨r, rfl⟩

/-- A positive real number is a real number. -/
theorem IsPosReal.isReal {v : EReal} (h : IsPosReal v) : IsReal v := by
  obtain ⟨r, _, rfl⟩ := h; exact ⟨r, rfl⟩

/-- A positive real number is a non-negative one. -/
theorem IsPosReal.isNonnegReal {v : EReal} (h : IsPosReal v) : IsNonnegReal v := by
  obtain ⟨r, hr, rfl⟩ := h; exact ⟨r, hr.le, rfl⟩

/-- Zero is a non-negative real. -/
theorem isNonnegReal_zero : IsNonnegReal (0 : EReal) := ⟨0, le_rfl, rfl⟩
/-- One is a positive real. -/
theorem isPosReal_one : IsPosReal (1 : EReal) := ⟨1, one_pos, rfl⟩

/-- The sum of two non-negative reals is a non-negative real. -/
theorem IsNonnegReal.add {u v : EReal} (hu : IsNonnegReal u) (hv : IsNonnegReal v) : IsNonnegReal (u + v) := by
  obtain ⟨a, ha, rfl⟩ := hu; obtain ⟨b, hb, rfl⟩ := hv
  exact ⟨a + b, add_nonneg ha hb, (EReal.coe_add a b).symm⟩

/-- A non-negative real plus a positive real is a positive real. -/
theorem IsNonnegReal.add_pos {u v : EReal} (hu : IsNonnegReal u) (hv : IsPosReal v) : IsPosReal (u + v) := by
  obtain ⟨a, ha, rfl⟩ := hu; obtain ⟨b, hb, rfl⟩ := hv
  exact ⟨a + b, add_pos_of_nonneg_of_pos ha hb, (EReal.coe_add a b).symm⟩

/-- The square of a real number is a non-negative real. -/
theorem _root_.Cert.Gcn.IsReal.mul_self_nonneg {v : EReal} (h : IsReal v) : IsNonnegReal (v * v) := by
  obtain ⟨a, rfl⟩ := h
  exact ⟨a * a, _root_.mul_self_nonneg a, (EReal.coe_mul a a).symm⟩

/-- A finite sum of non-negative reals is a non-negative real. -/
theorem IsNonnegReal.sum {ι : Type} (S : Finset ι) (f : ι → EReal) (hf : ∀ i ∈ S, IsNonnegReal (f i)) :
    IsNonnegReal (∑ i ∈ S, f i) := by
  classical
  induction S using Finset.induction_on with
  | empty => simpa using isNonnegReal_zero
  | insert a S ha ih =>
    rw [Finset.sum_insert ha]
    exact (hf a (Finset.mem_insert_self a S)).add (ih fun i hi => hf i (Finset.mem_insert_of_mem hi))

/-- A non-negative real divided by a positive real is a non-negative real. -/
theorem IsNonnegReal.div {u : EReal} (hu : IsNonnegReal u) {N : ℝ} (hN : 0 < N) :
    IsNonnegReal (Ideal.div u (N : EReal)) := by
  obtain ⟨a, ha, rfl⟩ := hu
  rw [Ideal.div_coe hN.ne']
  exact ⟨a * (1 / N), mul_nonneg ha (one_div_pos.mpr hN).le, (EReal.coe_mul a (1 / N)).symm⟩

/-- The reciprocal square root of a positive real is a real number. -/
theorem IsPosReal.rsqrt {v : EReal} (h : IsPosReal v) : IsReal (Ideal.rsqrt v) := by
  obtain ⟨r, hr, rfl⟩ := h; exact isReal_rsqrt hr

/-! ### Arrays of real numbers under the operations of a host program, at the ideal values

Each lemma says: if every entry of the operands is a real number, so is every entry of the result. The arrays,
index arrays and dimension numbers are arbitrary. -/

variable {s t : Shape} {φ : FTy}

/-- Entrywise product. -/
theorem real_mulf (x y : FVec Ideal s φ) (hx : ∀ i, IsReal (x i)) (hy : ∀ i, IsReal (y i)) :
    ∀ i, IsReal (mulf x y i) := fun i => (hx i).mul (hy i)

/-- Entrywise sum. -/
theorem real_addf (x y : FVec Ideal s φ) (hx : ∀ i, IsReal (x i)) (hy : ∀ i, IsReal (y i)) :
    ∀ i, IsReal (addf x y i) := fun i => (hx i).add (hy i)

/-- Entrywise difference. -/
theorem real_subf (x y : FVec Ideal s φ) (hx : ∀ i, IsReal (x i)) (hy : ∀ i, IsReal (y i)) :
    ∀ i, IsReal (subf x y i) := fun i => (hx i).sub (hy i)

/-- Entrywise maximum. -/
theorem real_maximumf (x y : FVec Ideal s φ) (hx : ∀ i, IsReal (x i)) (hy : ∀ i, IsReal (y i)) :
    ∀ i, IsReal (maximumf x y i) := fun i => (hx i).max (hy i)

/-- The entrywise square of an array of reals has non-negative real entries. -/
theorem nonneg_mulf_self (x : FVec Ideal s φ) (hx : ∀ i, IsReal (x i)) :
    ∀ i, IsNonnegReal (mulf x x i) := fun i => (hx i).mul_self_nonneg

/-- Entrywise sum of a non-negative and a positive array. -/
theorem pos_addf (x y : FVec Ideal s φ) (hx : ∀ i, IsNonnegReal (x i)) (hy : ∀ i, IsPosReal (y i)) :
    ∀ i, IsPosReal (addf x y i) := fun i => (hx i).add_pos (hy i)

/-- A splat constant: every entry is the value of the one word. -/
theorem prop_constant (P : EReal → Prop) (b : BitVec φ.bits) (hb : P (Ideal.ofBits φ b)) :
    ∀ i, P (constant (F := Ideal) s φ b i) := fun _ => hb

/-- A broadcast: every entry of the result is an entry of the operand, so a property of all entries carries over. -/
theorem prop_broadcastInDim (P : EReal → Prop) (dims : Fin s.rank → Fin t.rank) (h : s.BroadcastsInDim t dims)
    (x : s.Idx → EReal) (hx : ∀ i, P (x i)) : ∀ j, P (broadcastInDim t dims h x j) := fun _ => hx _

/-- A gather: every entry of the result is the operand's entry at some index, whatever the index array. -/
theorem prop_gather (P : EReal → Prop) {si : Shape} {w : Nat} (d : GatherDims s si t) (x : s.Idx → EReal)
    (idx : IVec si w) (hx : ∀ i, P (x i)) : ∀ j, P (Host.gather d x idx j) := fun _ => hx _

/-- An accumulating scatter: each entry is the operand's entry plus a finite sum of update entries. -/
theorem real_scatterAdd {si u : Shape} {w : Nat} (d : ScatterDims s si u) (x : FVec Ideal s φ) (idx : IVec si w)
    (upd : FVec Ideal u φ) (hx : ∀ i, IsReal (x i)) (hu : ∀ j, IsReal (upd j)) :
    ∀ i, IsReal (Host.scatterAdd d x idx upd i) := fun i =>
  (hx i).add (IsReal.sum _ _ fun j _ => hu j)

/-- An accumulating scatter of non-negative reals into non-negative reals. -/
theorem nonneg_scatterAdd {si u : Shape} {w : Nat} (d : ScatterDims s si u) (x : FVec Ideal s φ) (idx : IVec si w)
    (upd : FVec Ideal u φ) (hx : ∀ i, IsNonnegReal (x i)) (hu : ∀ j, IsNonnegReal (upd j)) :
    ∀ i, IsNonnegReal (Host.scatterAdd d x idx upd i) := fun i =>
  (hx i).add (IsNonnegReal.sum _ _ fun j _ => hu j)

/-- A contraction: each entry is a finite sum of products. -/
theorem real_dotGeneral {sl sr so : Shape} {φ₁ φ₂ : FTy} (d : DotDims sl sr so) (prec : Option ContractPrecision)
    (x : FVec Ideal sl φ₁) (y : FVec Ideal sr φ₂) (hx : ∀ i, IsReal (x i)) (hy : ∀ i, IsReal (y i)) :
    ∀ j, IsReal (Host.dotGeneral d prec x y j) := fun j => by
  simp only [Host.dotGeneral]
  rw [Ideal.dotGeneral_apply]
  exact IsReal.sum _ _ fun k _ => (hx _).mul (hy _)

/-- A sum over axes: each entry is the initial value plus a finite sum of operand entries. -/
theorem real_reduceAdd {axes : List (Fin s.rank)} {u : Shape} (x : FVec Ideal s φ) (init : u.Idx → Ideal φ)
    (h : s.ReducesTo axes t) (hu : 0 < u.numel) (hx : ∀ i, IsReal (x i)) (hinit : ∀ i, IsReal (init i)) :
    ∀ j, IsReal (Host.reduceAdd x init h hu j) := fun j =>
  (hinit _).add (IsReal.sum _ _ fun i _ => hx i)

/-- A sum over axes of non-negative reals from a non-negative initial value. -/
theorem nonneg_reduceAdd {axes : List (Fin s.rank)} {u : Shape} (x : FVec Ideal s φ) (init : u.Idx → Ideal φ)
    (h : s.ReducesTo axes t) (hu : 0 < u.numel) (hx : ∀ i, IsNonnegReal (x i)) (hinit : ∀ i, IsNonnegReal (init i)) :
    ∀ j, IsNonnegReal (Host.reduceAdd x init h hu j) := fun j =>
  (hinit _).add (IsNonnegReal.sum _ _ fun i _ => hx i)

/-- An entrywise quotient by an array whose entries are all one nonzero real. -/
theorem real_hostDivf (x y : FVec Ideal s φ) {N : ℝ} (hN : N ≠ 0) (hx : ∀ i, IsReal (x i))
    (hy : ∀ i, y i = (N : EReal)) : ∀ i, IsReal (Host.divf x y i) := fun i => by
  show IsReal (Ideal.div (x i) (y i))
  rw [hy i]; exact isReal_div (hx i) hN

/-- An entrywise quotient of non-negative reals by an array whose entries are all one positive real. -/
theorem nonneg_hostDivf (x y : FVec Ideal s φ) {N : ℝ} (hN : 0 < N) (hx : ∀ i, IsNonnegReal (x i))
    (hy : ∀ i, y i = (N : EReal)) : ∀ i, IsNonnegReal (Host.divf x y i) := fun i => by
  show IsNonnegReal (Ideal.div (x i) (y i))
  rw [hy i]; exact (hx i).div hN

/-- The entrywise reciprocal square root of positive reals. -/
theorem real_hostRsqrt (x : FVec Ideal s φ) (hx : ∀ i, IsPosReal (x i)) : ∀ i, IsReal (Host.rsqrt x i) :=
  fun i => (hx i).rsqrt

end Cert.Lib.RealArrays

end
-- ==== Proof.AggReal.lean ====
/-
  The aggregation of real feature rows is real.

  Every node has its own self loop among the extended edges, so every degree is a sum of ones with at least one
  term: a positive real number. Its reciprocal square root is then a real number, so are the edge coefficients
  (products of two of them), the messages (a feature entry times a coefficient) and the aggregate (a finite sum of
  messages from zero). Nothing is assumed of the edge end points: an end point outside the node range only drops or
  redirects an edge, and the self loops' end points are the node numbers themselves.
-/
import proofs.«135957_j57604101374612_1_alg».proof.Proof.Agg
import proofs.«135957_j57604101374612_1_alg».proof.Proof.LibRealArrays
import Idealize.ShloMosaic.Lib.Pipeline.Value
import Idealize.ShloMosaic.Lib.ValueIdx
import Idealize.ShloMosaic.PureOps.Ideal.Laws

noncomputable section

namespace Cert.GnnHost

open Idealize.ShloMosaic Idealize.ShloMosaic.ValueIdx Cert.ReferenceIdeal Cert.ReferenceIdeal.Gen
open Cert.Gcn Cert.BatchNorm Cert.Lib.RealArrays

/-- The self loop of node n is the extended edge number 800000 + n, and its end point is n. -/
theorem withLoops_loop (v : EdgeVec) (n : Fin 50000) :
    withLoops v (ix1 (⟨800000 + n.val, by have := n.isLt; omega⟩ : Fin 850000)) = BitVec.ofNat 32 n.val := by
  unfold withLoops
  refine (concatenate_pair_apply_right (0 : Fin S850000.rank) v (iotaInDim S50000 32 0)
    concatenates_S800000_S50000_S850000_d0 _ rfl rfl (ix1 n) ?_ ?_).trans rfl
  · intro b hb
    refine absurd (Fin.ext ?_) hb
    have h1 : b.val < 1 := b.isLt
    show b.val = 0
    omega
  · show n.val + 800000 = 800000 + n.val
    omega

/-- The one-column index matrix at (e, 0) is the vector at e. -/
theorem asColumn_apply (v : LoopVec) (e : Fin 850000) : asColumn v (ix2 e (0 : Fin 1)) = v (ix1 e) := by
  unfold asColumn
  refine broadcastInDim_apply _ _ v (ix2 e (0 : Fin 1)) (ix1 e) (fun a => ?_)
  match a with
  | ⟨0, _⟩ =>
    show e.val = if (850000 : Nat) = 1 then 0 else e.val
    rw [if_neg (by decide)]

/-- The word of a node number read signed is the node number. -/
theorem toInt_node (n : Fin 50000) : (BitVec.ofNat 32 n.val).toInt = (n.val : Int) := by
  have hn := n.isLt
  rw [BitVec.toInt_eq_toNat_cond, BitVec.toNat_ofNat]
  split <;> omega

/-- For the degree count, extended edge j lands at the node its end point word names, read signed, when that is a
    node number: here, the self loop of node n lands at n. -/
theorem loop_lands (col : EdgeVec) (n : Fin 50000) :
    scatter_S50000_S850000x1_S850000_n_0_0_1.resultIdx?
        (ix1 (⟨800000 + n.val, by have := n.isLt; omega⟩ : Fin 850000)) (asColumn (withLoops col)) = some (ix1 n) := by
  have hsum : ∀ a : Fin S50000.rank,
      scatter_S50000_S850000x1_S850000_n_0_0_1.start (ix1 (⟨800000 + n.val, by have := n.isLt; omega⟩ : Fin 850000)) (asColumn (withLoops col)) a
        + (scatter_S50000_S850000x1_S850000_n_0_0_1.window (ix1 (⟨800000 + n.val, by have := n.isLt; omega⟩ : Fin 850000)) a : Int)
        = (n.val : Int) := fun a => by
    match a with
    | ⟨0, _⟩ =>
      have hw : scatter_S50000_S850000x1_S850000_n_0_0_1.window (ix1 (⟨800000 + n.val, by have := n.isLt; omega⟩ : Fin 850000)) (0 : Fin 1) = 0 := rfl
      have hst : scatter_S50000_S850000x1_S850000_n_0_0_1.start (ix1 (⟨800000 + n.val, by have := n.isLt; omega⟩ : Fin 850000)) (asColumn (withLoops col)) (0 : Fin 1)
          = (asColumn (withLoops col) (ix2 (⟨800000 + n.val, by have := n.isLt; omega⟩ : Fin 850000) (0 : Fin 1))).toInt := by
        unfold ScatterDims.start
        rw [dif_pos (show (0 : Fin 1) ∈ scatter_S50000_S850000x1_S850000_n_0_0_1.scatterDimsToOperandDims from List.mem_singleton.mpr rfl)]
        refine congrArg (fun k => (asColumn (withLoops col) k).toInt) (funext fun b => Fin.ext ?_)
        match b with
        | ⟨0, _⟩ => rfl
        | ⟨1, _⟩ => rfl
      show scatter_S50000_S850000x1_S850000_n_0_0_1.start _ _ (0 : Fin 1) + (scatter_S50000_S850000x1_S850000_n_0_0_1.window _ (0 : Fin 1) : Int) = _
      rw [hw, hst, asColumn_apply, withLoops_loop, toInt_node]
      simp
  unfold ScatterDims.resultIdx?
  rw [dif_pos (fun a => by
    rw [hsum a]
    match a with
    | ⟨0, _⟩ =>
      have hn := n.isLt
      refine ⟨by omega, ?_⟩
      show (n.val : Int) < ((50000 : Nat) : Int)
      omega)]
  refine congrArg some (funext fun a => Fin.ext ?_)
  show (scatter_S50000_S850000x1_S850000_n_0_0_1.start _ _ a + (scatter_S50000_S850000x1_S850000_n_0_0_1.window _ a : Int)).toNat = (ix1 n a).val
  rw [hsum a, Int.toNat_natCast]
  match a with
  | ⟨0, _⟩ => rfl

/-- A non-negative real plus a finite sum of non-negative reals, one of whose terms is positive, is a positive real. -/
theorem pos_sum_of_mem {ι : Type} (S : Finset ι) (f : ι → EReal) (z : EReal) (hz : IsNonnegReal z)
    (hf : ∀ j ∈ S, IsNonnegReal (f j)) (j0 : ι) (h0 : j0 ∈ S) (hp : IsPosReal (f j0)) :
    IsPosReal (z + ∑ j ∈ S, f j) := by
  classical
  rw [← Finset.sum_erase_add S f h0, ← add_assoc]
  exact (hz.add (IsNonnegReal.sum _ _ fun j hj => hf j (Finset.mem_of_mem_erase hj))).add_pos hp

/-- An accumulating scatter of non-negative reals into non-negative reals is positive at an index on which a
    positive update lands (any shapes, any dimension numbers). -/
theorem pos_scatterAdd {s si u : Shape} {φ : FTy} {w : Nat} (d : ScatterDims s si u) (x : FVec Ideal s φ)
    (idx : IVec si w) (upd : FVec Ideal u φ) (hx : ∀ i, IsNonnegReal (x i)) (hu : ∀ j, IsNonnegReal (upd j))
    (i : s.Idx) (j0 : u.Idx) (hl : d.resultIdx? j0 idx = some i) (hp : IsPosReal (upd j0)) :
    IsPosReal (Host.scatterAdd d x idx upd i) :=
  pos_sum_of_mem _ _ _ (hx i) (fun j _ => hu j) j0 (Finset.mem_filter.mpr ⟨Finset.mem_univ _, hl⟩) hp

/-- Every degree is a positive real number: the node's own self loop is counted. -/
theorem deg_pos (col : EdgeVec) (i : S50000.Idx) : IsPosReal (deg col i) := by
  obtain ⟨n, rfl⟩ : ∃ n : Fin 50000, i = ix1 n := ⟨i 0, eq_ix1 i⟩
  have hone : IsPosReal (Ideal.ofBits .f32 0x3F800000#32) := ⟨1, one_pos, ofBits_one⟩
  have hzero : IsNonnegReal (Ideal.ofBits .f32 0x00000000#32) := by
    rw [Ideal.ofBits_zero_f32]; exact isNonnegReal_zero
  unfold deg
  exact pos_scatterAdd _ _ _ _
    (prop_broadcastInDim IsNonnegReal _ _ _ (prop_constant IsNonnegReal _ hzero))
    (prop_broadcastInDim IsNonnegReal _ _ _ (prop_constant IsNonnegReal _ hone.isNonnegReal))
    (ix1 n) (ix1 (⟨800000 + n.val, by have := n.isLt; omega⟩ : Fin 850000)) (loop_lands col n)
    (prop_broadcastInDim IsPosReal _ _ _ (prop_constant IsPosReal _ hone) _)

/-- Every node weight is a real number. -/
theorem dinv_real (col : EdgeVec) : ∀ i, IsReal (dinv col i) := real_hostRsqrt (deg col) (deg_pos col)

/-- Every edge coefficient is a real number. -/
theorem coef_real (row col : EdgeVec) : ∀ e, IsReal (coef row col e) :=
  real_mulf _ _ (prop_gather IsReal _ _ _ (dinv_real col)) (prop_gather IsReal _ _ _ (dinv_real col))

/-- The messages of real feature rows are real numbers. -/
theorem msgs_real (h : Feat) (row col : EdgeVec) (hh : ∀ i, IsReal (h i)) : ∀ j, IsReal (msgs h row col j) :=
  real_mulf _ _ (prop_gather IsReal _ _ _ hh)
    (prop_broadcastInDim IsReal _ _ _ (prop_broadcastInDim IsReal _ _ _ (coef_real row col)))

/-- The aggregate of real feature rows has real entries. -/
theorem agg_real (h : Feat) (row col : EdgeVec) (hh : ∀ i, IsReal (h i)) : ∀ i, IsReal (agg h row col i) :=
  real_scatterAdd _ _ _ _
    (prop_broadcastInDim IsReal _ _ _ (prop_constant IsReal _ (by rw [Ideal.ofBits_zero_f32]; exact isReal_zero)))
    (msgs_real h row col hh)

end Cert.GnnHost

end
-- ==== Proof.Model.lean ====
/-
  The two-layer graph network in two arrangements, and their agreement on real inputs.

  Both arrangements encode the node features, then twice: multiply by a dense weight, aggregate over the graph, add a
  bias row, and batch-normalise every column. They differ only in how the normalisation is written — by deviations from
  the mean, or as one scale and one shift per column computed from the column sums and the column sums of squares — and
  the first layer's result passes through a maximum with zero and is added to the encoder's output. The two
  normalisations agree on matrices of real numbers; so the proof carries "every entry is a real number" through the
  encoder, the dense products, the aggregation (every degree is positive, so every edge coefficient is real), the
  bias rows, and the normalisation itself (a variance is a non-negative real, so the reciprocal square root of the
  variance plus ε is real).
-/
import proofs.«135957_j57604101374612_1_alg».proof.Proof.AggReal
import proofs.«135957_j57604101374612_1_alg».proof.Proof.BnForms
import proofs.«135957_j57604101374612_1_alg».proof.Proof.Spec

noncomputable section

namespace Cert.Gnn

open Finset Idealize.ShloMosaic Idealize.ShloMosaic.ValueIdx Cert.BatchNorm Cert.Gcn Cert.GnnHost

/-! ### Real entries through the pieces -/

variable {M K N : Nat}

theorem zeroW_real : IsReal zeroW := by
  show IsReal (Ideal.ofBits .f32 0x00000000#32)
  rw [Ideal.ofBits_zero_f32]; exact isReal_zero

theorem lin_real (h : Mat M K) (w : Mat K N) (hh : ∀ i, IsReal (h i)) (hw : ∀ i, IsReal (w i)) :
    ∀ i, IsReal (lin h w i) := fun _ => IsReal.sum _ _ fun _ _ => (hh _).mul (hw _)

theorem rowAdd_real (a : Mat M N) (r : Mat 1 N) (ha : ∀ i, IsReal (a i)) (hr : ∀ i, IsReal (r i)) :
    ∀ i, IsReal (rowAdd a r i) := fun _ => (ha _).add (hr _)

theorem relu_real (a : Mat M N) (ha : ∀ i, IsReal (a i)) : ∀ i, IsReal (relu a i) := fun _ => (ha _).max zeroW_real

theorem affine_real (sc sh : Mat 1 N) (a : Mat M N) (hsc : ∀ i, IsReal (sc i)) (hsh : ∀ i, IsReal (sh i))
    (ha : ∀ i, IsReal (a i)) : ∀ i, IsReal (affine sc sh a i) := fun _ => ((hsc _).mul (ha _)).add (hsh _)

theorem addA_real (a b : Mat M N) (ha : ∀ i, IsReal (a i)) (hb : ∀ i, IsReal (b i)) :
    ∀ i, IsReal (addA a b i) := fun _ => (ha _).add (hb _)

theorem row_real (b : Vc N) (hb : ∀ j, IsReal (b j)) : ∀ i, IsReal (row b i) := fun _ => hb _

theorem enc_real {D H : Nat} (x : Mat M D) (w1 : Mat D H) (b1 : Mat 1 H) (w2 : Mat H N) (b2 : Mat 1 N)
    (hx : ∀ i, IsReal (x i)) (hw1 : ∀ i, IsReal (w1 i)) (hb1 : ∀ i, IsReal (b1 i)) (hw2 : ∀ i, IsReal (w2 i))
    (hb2 : ∀ i, IsReal (b2 i)) : ∀ i, IsReal (enc x w1 b1 w2 b2 i) :=
  rowAdd_real _ _ (lin_real _ _ (relu_real _ (rowAdd_real _ _ (lin_real _ _ hx hw1) hb1)) hw2) hb2

/-- One column's scale γ · rsqrt (second moment − mean² + ε) is a real number when the column's entries are. -/
theorem scale_entry_real {ι : Type} [Fintype ι] (h : ι → EReal) (hh : ∀ i, IsReal (h i)) (Nr : ℝ)
    (hN : Nr = (Fintype.card ι : ℝ)) (hpos : 0 < Fintype.card ι) (g e : EReal) (hg : IsReal g)
    (he : ∃ e' : ℝ, 0 < e' ∧ e = (e' : EReal)) :
    IsReal (g * Ideal.rsqrt (Ideal.div (∑ i, h i * h i) (Nr : EReal)
      - Ideal.div (∑ i, h i) (Nr : EReal) * Ideal.div (∑ i, h i) (Nr : EReal) + e)) := by
  obtain ⟨v, hv0, hv⟩ := variance_nonneg h hh Nr hN hpos
  obtain ⟨e', he0, rfl⟩ := he
  rw [hv]
  exact hg.mul (isReal_rsqrt_var_eps hv0 he0)

variable {H : Nat}

theorem scaleRow_real (hb : Mat 50000 H) (γ : Vc H) (hh : ∀ i, IsReal (hb i)) (hγ : ∀ j, IsReal (γ j)) :
    ∀ i, IsReal (scaleRow (colSum hb) (colSum (sq hb)) γ i) := fun i => by
  obtain ⟨p, q, rfl⟩ : ∃ (p : Fin 1) (q : Fin H), i = ix2 p q := ⟨i 0, i 1, eq_ix2 i⟩
  have key := scale_entry_real (fun n : Fin 50000 => hb (ix2 n q)) (fun n => hh _) (50000 : ℝ) (by simp) (by simp)
    (γ (ix1 q)) epsW (hγ _) ofBits_eps_pos
  rw [← ofBits_fifty_thousand] at key
  exact key

theorem shiftRow_real (hb : Mat 50000 H) (γ β : Vc H) (hh : ∀ i, IsReal (hb i)) (hγ : ∀ j, IsReal (γ j))
    (hβ : ∀ j, IsReal (β j)) : ∀ i, IsReal (shiftRow (colSum hb) (colSum (sq hb)) γ β i) := fun i => by
  obtain ⟨p, q, rfl⟩ : ∃ (p : Fin 1) (q : Fin H), i = ix2 p q := ⟨i 0, i 1, eq_ix2 i⟩
  have hmean : IsReal (Ideal.div (∑ n : Fin 50000, hb (ix2 n q)) countW) := by
    unfold countW; rw [ofBits_fifty_thousand]
    exact isReal_div (IsReal.sum _ _ fun n _ => hh _) (by norm_num)
  exact (hβ _).sub (hmean.mul (scaleRow_real hb γ hh hγ (ix2 p q)))

/-! ### The network -/

/-- Normalisation as one scale and one shift per column. -/
def normK (hb : Mat 50000 H) (γ β : Vc H) : Mat 50000 H :=
  affine (scaleRow (colSum hb) (colSum (sq hb)) γ) (shiftRow (colSum hb) (colSum (sq hb)) γ β) hb

theorem normK_real (hb : Mat 50000 H) (γ β : Vc H) (hh : ∀ i, IsReal (hb i)) (hγ : ∀ j, IsReal (γ j))
    (hβ : ∀ j, IsReal (β j)) : ∀ i, IsReal (normK hb γ β i) :=
  affine_real _ _ _ (scaleRow_real hb γ hh hγ) (shiftRow_real hb γ β hh hγ hβ) hh

/-- On real entries the two normalisations agree. -/
theorem normK_eq_bnDev (hb : Mat 50000 H) (γ β : Vc H) (hh : ∀ i, IsReal (hb i)) (hγ : ∀ j, IsReal (γ j))
    (hβ : ∀ j, IsReal (β j)) : normK hb γ β = bnDev hb γ β := (bnDev_eq_affine hb γ β hh hγ hβ).symm

/-- One layer before its normalisation: dense weight, aggregation over the graph, bias row. -/
def hidden (rowv colv : EdgeVec) (g : Mat 50000 256) (wc : Mat 256 256) (bc : Vc 256) : Mat 50000 256 :=
  rowAdd (agg (lin g wc) rowv colv) (row bc)

theorem hidden_real (rowv colv : EdgeVec) (g : Mat 50000 256) (wc : Mat 256 256) (bc : Vc 256)
    (hg : ∀ i, IsReal (g i)) (hwc : ∀ i, IsReal (wc i)) (hbc : ∀ j, IsReal (bc j)) :
    ∀ i, IsReal (hidden rowv colv g wc bc i) :=
  rowAdd_real _ _ (agg_real _ rowv colv (lin_real _ _ hg hwc)) (row_real _ hbc)

variable (x : Mat 50000 26) (rowv colv : EdgeVec) (w1 : Mat 26 256) (b1 : Vc 256) (w2 : Mat 256 256) (b2 : Vc 256)
  (wc1 : Mat 256 256) (bc1 : Vc 256) (wc2 : Mat 256 256) (bc2 : Vc 256) (γ1 β1 γ2 β2 : Vc 256) (wo : Mat 256 1) (bo : Vc 1)

/-- The encoder's output. -/
def encoded : Mat 50000 256 := enc x w1 (row b1) w2 (row b2)

/-- The network with both normalisations as scale and shift. -/
def outK : Mat 50000 1 :=
  rowAdd (lin (normK (hidden rowv colv
    (addA (relu (normK (hidden rowv colv (encoded x w1 b1 w2 b2) wc1 bc1) γ1 β1)) (encoded x w1 b1 w2 b2))
    wc2 bc2) γ2 β2) wo) (row bo)

/-- The network with both normalisations by deviations. -/
def outR : Mat 50000 1 :=
  rowAdd (lin (bnDev (hidden rowv colv
    (addA (relu (bnDev (hidden rowv colv (encoded x w1 b1 w2 b2) wc1 bc1) γ1 β1)) (encoded x w1 b1 w2 b2))
    wc2 bc2) γ2 β2) wo) (row bo)

/-- On real features, weights, biases, scales and offsets the two arrangements compute the same matrix. The edge end
    points are arbitrary. -/
theorem outK_eq_outR (hx : ∀ i, IsReal (x i)) (hw1 : ∀ i, IsReal (w1 i)) (hb1 : ∀ j, IsReal (b1 j))
    (hw2 : ∀ i, IsReal (w2 i)) (hb2 : ∀ j, IsReal (b2 j)) (hwc1 : ∀ i, IsReal (wc1 i)) (hbc1 : ∀ j, IsReal (bc1 j))
    (hwc2 : ∀ i, IsReal (wc2 i)) (hbc2 : ∀ j, IsReal (bc2 j)) (hγ1 : ∀ j, IsReal (γ1 j)) (hβ1 : ∀ j, IsReal (β1 j))
    (hγ2 : ∀ j, IsReal (γ2 j)) (hβ2 : ∀ j, IsReal (β2 j)) :
    outK x rowv colv w1 b1 w2 b2 wc1 bc1 wc2 bc2 γ1 β1 γ2 β2 wo bo
      = outR x rowv colv w1 b1 w2 b2 wc1 bc1 wc2 bc2 γ1 β1 γ2 β2 wo bo := by
  have hg : ∀ i, IsReal (encoded x w1 b1 w2 b2 i) :=
    enc_real _ _ _ _ _ hx hw1 (row_real _ hb1) hw2 (row_real _ hb2)
  have hh1 : ∀ i, IsReal (hidden rowv colv (encoded x w1 b1 w2 b2) wc1 bc1 i) := hidden_real _ _ _ _ _ hg hwc1 hbc1
  have e1 := normK_eq_bnDev _ γ1 β1 hh1 hγ1 hβ1
  have hg2 : ∀ i, IsReal (addA (relu (normK (hidden rowv colv (encoded x w1 b1 w2 b2) wc1 bc1) γ1 β1)) (encoded x w1 b1 w2 b2) i) :=
    addA_real _ _ (relu_real _ (normK_real _ γ1 β1 hh1 hγ1 hβ1)) hg
  have hh2 := hidden_real rowv colv _ wc2 bc2 hg2 hwc2 hbc2
  have e2 := normK_eq_bnDev _ γ2 β2 hh2 hγ2 hβ2
  unfold outK outR
  rw [e2, e1]

end Cert.Gnn

end
-- ==== Proof.KThread.lean ====
/-
  The idealized kernel program's result array as the network (in the scale-and-shift arrangement) of its arguments.

  The program is seven kernel regions among five stretches of host operations. The buffer contents at each boundary
  are followed from the launch to the return: a region leaves in its output array the closed form of its body over its
  input arrays and leaves every other buffer as it found it; a host stretch leaves in each array it writes the
  operation's function of its operands and leaves every other buffer alone. Read in order: the edge end points and
  the bias rows; the encoder; the first dense product; the first aggregation; its column sums and column sums of
  squares; the first scale and shift rows; the rectified normalisation plus the encoder's output; the second dense
  product, aggregation, sums, scale and shift; the output projection.
-/
import proofs.«135957_j57604101374612_1_alg».proof.Proof.Gen.KernelIdeal.Frame
import proofs.«135957_j57604101374612_1_alg».proof.Proof.KEnc
import proofs.«135957_j57604101374612_1_alg».proof.Proof.KLin1
import proofs.«135957_j57604101374612_1_alg».proof.Proof.KLin4
import proofs.«135957_j57604101374612_1_alg».proof.Proof.KStats2
import proofs.«135957_j57604101374612_1_alg».proof.Proof.KStats5
import proofs.«135957_j57604101374612_1_alg».proof.Proof.KBn3
import proofs.«135957_j57604101374612_1_alg».proof.Proof.KProj6
import proofs.«135957_j57604101374612_1_alg».proof.Proof.KHost0
import proofs.«135957_j57604101374612_1_alg».proof.Proof.KHost2
import proofs.«135957_j57604101374612_1_alg».proof.Proof.KHost3
import proofs.«135957_j57604101374612_1_alg».proof.Proof.KHost5
import proofs.«135957_j57604101374612_1_alg».proof.Proof.KHost6
import proofs.«135957_j57604101374612_1_alg».proof.Proof.Model

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen Cert.Gnn Cert.GnnHost
open Idealize.ShloMosaic.Pipeline (Dat Cfg Window)

variable (m : (ℓ : Loc nD τ sig) → Buf (Elt Ideal) ℓ) (ρ : Dev nD → PrngReg) (c : Dev nD)

/-- An argument array as launched on device c. -/
abbrev arg (b : Ref sig .tc) : Buf (Elt Ideal) ((c : Thread nD τ).loc b) := m ((c : Thread nD τ).loc b)

/-- The source and target end points of the edges: the two rows of the edge-index argument. -/
abbrev rowV : EdgeVec := Cert.ReferenceIdeal.Read.val_main_v1 (F := Ideal) (arg m c main_arg1)
abbrev colV : EdgeVec := Cert.ReferenceIdeal.Read.val_main_v3 (F := Ideal) (arg m c main_arg1)
/-- The encoder's output. -/
abbrev gI : Mat 50000 256 :=
  encoded (arg m c main_arg0) (arg m c main_arg3) (arg m c main_arg4) (arg m c main_arg5) (arg m c main_arg6)
/-- The first layer before its normalisation. -/
abbrev hB1 : Mat 50000 256 := hidden (rowV m c) (colV m c) (gI m c) (arg m c main_arg7) (arg m c main_arg8)
/-- The second layer's input: the rectified normalisation of the first, plus the encoder's output. -/
abbrev gII : Mat 50000 256 := addA (relu (normK (hB1 m c) (arg m c main_arg11) (arg m c main_arg12))) (gI m c)
/-- The second layer before its normalisation. -/
abbrev hB2 : Mat 50000 256 := hidden (rowV m c) (colV m c) (gII m c) (arg m c main_arg9) (arg m c main_arg10)

/-! ### The arguments at the boundaries where they are read: nothing writes an argument -/

theorem W1_arg0 : W1 m ρ c (Proc.devRef .tc main_arg0) = arg m c main_arg0 :=
  (host0_keeps (W0 m ρ c) main_arg0 (by decide)).trans (rfl)
theorem W1_arg3 : W1 m ρ c (Proc.devRef .tc main_arg3) = arg m c main_arg3 :=
  (host0_keeps (W0 m ρ c) main_arg3 (by decide)).trans (rfl)
theorem W1_arg5 : W1 m ρ c (Proc.devRef .tc main_arg5) = arg m c main_arg5 :=
  (host0_keeps (W0 m ρ c) main_arg5 (by decide)).trans (rfl)
theorem W2_arg7 : W2 m ρ c (Proc.devRef .tc main_arg7) = arg m c main_arg7 :=
  (W2_of_ne m ρ c main_arg7 (by decide)).trans ((host0_keeps (W0 m ρ c) main_arg7 (by decide)).trans (rfl))
theorem W3_arg8 : W3 m ρ c (Proc.devRef .tc main_arg8) = arg m c main_arg8 :=
  (W3_of_ne m ρ c main_arg8 (by decide)).trans ((W2_of_ne m ρ c main_arg8 (by decide)).trans ((host0_keeps (W0 m ρ c) main_arg8 (by decide)).trans (rfl)))
theorem W5_arg11 : W5 m ρ c (Proc.devRef .tc main_arg11) = arg m c main_arg11 :=
  (W5_of_ne m ρ c main_arg11 (by decide)).trans ((host2_keeps (W3 m ρ c) main_arg11 (by decide)).trans ((W3_of_ne m ρ c main_arg11 (by decide)).trans ((W2_of_ne m ρ c main_arg11 (by decide)).trans ((host0_keeps (W0 m ρ c) main_arg11 (by decide)).trans (rfl)))))
theorem W5_arg12 : W5 m ρ c (Proc.devRef .tc main_arg12) = arg m c main_arg12 :=
  (W5_of_ne m ρ c main_arg12 (by decide)).trans ((host2_keeps (W3 m ρ c) main_arg12 (by decide)).trans ((W3_of_ne m ρ c main_arg12 (by decide)).trans ((W2_of_ne m ρ c main_arg12 (by decide)).trans ((host0_keeps (W0 m ρ c) main_arg12 (by decide)).trans (rfl)))))
theorem W5_arg8 : W5 m ρ c (Proc.devRef .tc main_arg8) = arg m c main_arg8 :=
  (W5_of_ne m ρ c main_arg8 (by decide)).trans ((host2_keeps (W3 m ρ c) main_arg8 (by decide)).trans ((W3_of_ne m ρ c main_arg8 (by decide)).trans ((W2_of_ne m ρ c main_arg8 (by decide)).trans ((host0_keeps (W0 m ρ c) main_arg8 (by decide)).trans (rfl)))))
theorem W7_arg9 : W7 m ρ c (Proc.devRef .tc main_arg9) = arg m c main_arg9 :=
  (W7_of_ne m ρ c main_arg9 (by decide)).trans ((host3_keeps (W5 m ρ c) main_arg9 (by decide)).trans ((W5_of_ne m ρ c main_arg9 (by decide)).trans ((host2_keeps (W3 m ρ c) main_arg9 (by decide)).trans ((W3_of_ne m ρ c main_arg9 (by decide)).trans ((W2_of_ne m ρ c main_arg9 (by decide)).trans ((host0_keeps (W0 m ρ c) main_arg9 (by decide)).trans (rfl)))))))
theorem W8_arg10 : W8 m ρ c (Proc.devRef .tc main_arg10) = arg m c main_arg10 :=
  (W8_of_ne m ρ c main_arg10 (by decide)).trans ((W7_of_ne m ρ c main_arg10 (by decide)).trans ((host3_keeps (W5 m ρ c) main_arg10 (by decide)).trans ((W5_of_ne m ρ c main_arg10 (by decide)).trans ((host2_keeps (W3 m ρ c) main_arg10 (by decide)).trans ((W3_of_ne m ρ c main_arg10 (by decide)).trans ((W2_of_ne m ρ c main_arg10 (by decide)).trans ((host0_keeps (W0 m ρ c) main_arg10 (by decide)).trans (rfl))))))))
theorem W10_arg13 : W10 m ρ c (Proc.devRef .tc main_arg13) = arg m c main_arg13 :=
  (W10_of_ne m ρ c main_arg13 (by decide)).trans ((host5_keeps (W8 m ρ c) main_arg13 (by decide)).trans ((W8_of_ne m ρ c main_arg13 (by decide)).trans ((W7_of_ne m ρ c main_arg13 (by decide)).trans ((host3_keeps (W5 m ρ c) main_arg13 (by decide)).trans ((W5_of_ne m ρ c main_arg13 (by decide)).trans ((host2_keeps (W3 m ρ c) main_arg13 (by decide)).trans ((W3_of_ne m ρ c main_arg13 (by decide)).trans ((W2_of_ne m ρ c main_arg13 (by decide)).trans ((host0_keeps (W0 m ρ c) main_arg13 (by decide)).trans (rfl))))))))))
theorem W10_arg14 : W10 m ρ c (Proc.devRef .tc main_arg14) = arg m c main_arg14 :=
  (W10_of_ne m ρ c main_arg14 (by decide)).trans ((host5_keeps (W8 m ρ c) main_arg14 (by decide)).trans ((W8_of_ne m ρ c main_arg14 (by decide)).trans ((W7_of_ne m ρ c main_arg14 (by decide)).trans ((host3_keeps (W5 m ρ c) main_arg14 (by decide)).trans ((W5_of_ne m ρ c main_arg14 (by decide)).trans ((host2_keeps (W3 m ρ c) main_arg14 (by decide)).trans ((W3_of_ne m ρ c main_arg14 (by decide)).trans ((W2_of_ne m ρ c main_arg14 (by decide)).trans ((host0_keeps (W0 m ρ c) main_arg14 (by decide)).trans (rfl))))))))))
theorem W10_arg10 : W10 m ρ c (Proc.devRef .tc main_arg10) = arg m c main_arg10 :=
  (W10_of_ne m ρ c main_arg10 (by decide)).trans ((host5_keeps (W8 m ρ c) main_arg10 (by decide)).trans ((W8_of_ne m ρ c main_arg10 (by decide)).trans ((W7_of_ne m ρ c main_arg10 (by decide)).trans ((host3_keeps (W5 m ρ c) main_arg10 (by decide)).trans ((W5_of_ne m ρ c main_arg10 (by decide)).trans ((host2_keeps (W3 m ρ c) main_arg10 (by decide)).trans ((W3_of_ne m ρ c main_arg10 (by decide)).trans ((W2_of_ne m ρ c main_arg10 (by decide)).trans ((host0_keeps (W0 m ρ c) main_arg10 (by decide)).trans (rfl))))))))))
theorem W10_arg16 : W10 m ρ c (Proc.devRef .tc main_arg16) = arg m c main_arg16 :=
  (W10_of_ne m ρ c main_arg16 (by decide)).trans ((host5_keeps (W8 m ρ c) main_arg16 (by decide)).trans ((W8_of_ne m ρ c main_arg16 (by decide)).trans ((W7_of_ne m ρ c main_arg16 (by decide)).trans ((host3_keeps (W5 m ρ c) main_arg16 (by decide)).trans ((W5_of_ne m ρ c main_arg16 (by decide)).trans ((host2_keeps (W3 m ρ c) main_arg16 (by decide)).trans ((W3_of_ne m ρ c main_arg16 (by decide)).trans ((W2_of_ne m ρ c main_arg16 (by decide)).trans ((host0_keeps (W0 m ρ c) main_arg16 (by decide)).trans (rfl))))))))))
theorem W11_arg15 : W11 m ρ c (Proc.devRef .tc main_arg15) = arg m c main_arg15 :=
  (host6_keeps (W10 m ρ c) main_arg15 (by decide)).trans ((W10_of_ne m ρ c main_arg15 (by decide)).trans ((host5_keeps (W8 m ρ c) main_arg15 (by decide)).trans ((W8_of_ne m ρ c main_arg15 (by decide)).trans ((W7_of_ne m ρ c main_arg15 (by decide)).trans ((host3_keeps (W5 m ρ c) main_arg15 (by decide)).trans ((W5_of_ne m ρ c main_arg15 (by decide)).trans ((host2_keeps (W3 m ρ c) main_arg15 (by decide)).trans ((W3_of_ne m ρ c main_arg15 (by decide)).trans ((W2_of_ne m ρ c main_arg15 (by decide)).trans ((host0_keeps (W0 m ρ c) main_arg15 (by decide)).trans (rfl)))))))))))

/-! ### The edge end points, written before the first region and read by both aggregations -/

theorem W1_v1 : W1 m ρ c (Proc.devRef .tc main_v1) = rowV m c := host0_v1 (W0 m ρ c)
theorem W1_v3 : W1 m ρ c (Proc.devRef .tc main_v3) = colV m c := host0_v3 (W0 m ρ c)
theorem W3_v1 : W3 m ρ c (Proc.devRef .tc main_v1) = rowV m c :=
  (W3_of_ne m ρ c main_v1 (by decide)).trans ((W2_of_ne m ρ c main_v1 (by decide)).trans (W1_v1 m ρ c))
theorem W3_v3 : W3 m ρ c (Proc.devRef .tc main_v3) = colV m c :=
  (W3_of_ne m ρ c main_v3 (by decide)).trans ((W2_of_ne m ρ c main_v3 (by decide)).trans (W1_v3 m ρ c))
theorem W8_v1 : W8 m ρ c (Proc.devRef .tc main_v1) = rowV m c :=
  (W8_of_ne m ρ c main_v1 (by decide)).trans ((W7_of_ne m ρ c main_v1 (by decide)).trans ((host3_keeps (W5 m ρ c) main_v1 (by decide)).trans ((W5_of_ne m ρ c main_v1 (by decide)).trans ((host2_keeps (W3 m ρ c) main_v1 (by decide)).trans (W3_v1 m ρ c)))))
theorem W8_v3 : W8 m ρ c (Proc.devRef .tc main_v3) = colV m c :=
  (W8_of_ne m ρ c main_v3 (by decide)).trans ((W7_of_ne m ρ c main_v3 (by decide)).trans ((host3_keeps (W5 m ρ c) main_v3 (by decide)).trans ((W5_of_ne m ρ c main_v3 (by decide)).trans ((host2_keeps (W3 m ρ c) main_v3 (by decide)).trans (W3_v3 m ρ c)))))

/-! ### The encoder and the first layer -/

theorem W1_v4 : W1 m ρ c (Proc.devRef .tc main_v4) = row (arg m c main_arg4) := host0_v4 (W0 m ρ c)
theorem W1_v5 : W1 m ρ c (Proc.devRef .tc main_v5) = row (arg m c main_arg6) := host0_v5 (W0 m ρ c)

theorem W2_v6 : W2 m ρ c (Proc.devRef .tc main_v6) = gI m c := by
  refine (W2_arr m ρ c 5).trans ((enc_final (V1 m ρ) c).trans ?_)
  show enc (W1 m ρ c (Proc.devRef .tc main_arg0)) (W1 m ρ c (Proc.devRef .tc main_arg3)) (W1 m ρ c (Proc.devRef .tc main_v4))
      (W1 m ρ c (Proc.devRef .tc main_arg5)) (W1 m ρ c (Proc.devRef .tc main_v5)) = _
  rw [W1_arg0, W1_arg3, W1_arg5, W1_v4, W1_v5]
  rfl

theorem W3_v7 : W3 m ρ c (Proc.devRef .tc main_v7) = lin (gI m c) (arg m c main_arg7) := by
  refine (W3_arr m ρ c 2).trans ((lin1_final (V2 m ρ) c).trans ?_)
  show lin (W2 m ρ c (Proc.devRef .tc main_v6)) (W2 m ρ c (Proc.devRef .tc main_arg7)) = _
  rw [W2_v6, W2_arg7]

/-- The first dense region reads the encoder's output through an input window and leaves it in place. -/
theorem W3_v6 : W3 m ρ c (Proc.devRef .tc main_v6) = gI m c :=
  ((W3_arr m ρ c 0).trans (((dat1 (V2 m ρ) c).arrAt_in 0 rfl _).trans (A_eq1 (V2 m ρ) c 0))).trans (W2_v6 m ρ c)

theorem W4_v43 : W4 m ρ c (Proc.devRef .tc main_v43) = agg (lin (gI m c) (arg m c main_arg7)) (rowV m c) (colV m c) := by
  refine (host2_v43 (W3 m ρ c)).trans ?_
  rw [W3_v7, W3_v1, W3_v3]

theorem W4_v44 : W4 m ρ c (Proc.devRef .tc main_v44) = row (arg m c main_arg8) := by
  refine (host2_v44 (W3 m ρ c)).trans ?_
  rw [W3_arg8]

theorem W4_v6 : W4 m ρ c (Proc.devRef .tc main_v6) = gI m c :=
  (host2_keeps (W3 m ρ c) main_v6 (by decide)).trans (W3_v6 m ρ c)

theorem W5_v45_0 : W5 m ρ c (Proc.devRef .tc main_v45_0) = colSum (hB1 m c) := by
  refine (W5_arr m ρ c 2).trans ((sum2_final (V4 m ρ) c).trans ?_)
  show colSum (rowAdd (W4 m ρ c (Proc.devRef .tc main_v43)) (W4 m ρ c (Proc.devRef .tc main_v44))) = _
  rw [W4_v43, W4_v44]
  rfl

theorem W5_v45_1 : W5 m ρ c (Proc.devRef .tc main_v45_1) = colSum (sq (hB1 m c)) := by
  refine (W5_arr m ρ c 3).trans ((sumsq2_final (V4 m ρ) c).trans ?_)
  show colSum (sq (rowAdd (W4 m ρ c (Proc.devRef .tc main_v43)) (W4 m ρ c (Proc.devRef .tc main_v44)))) = _
  rw [W4_v43, W4_v44]
  rfl

/-- The statistics region reads the aggregate through an input window and leaves it in place. -/
theorem W5_v43 : W5 m ρ c (Proc.devRef .tc main_v43) = agg (lin (gI m c) (arg m c main_arg7)) (rowV m c) (colV m c) :=
  ((W5_arr m ρ c 0).trans (((dat2 (V4 m ρ) c).arrAt_in 0 rfl _).trans (A_eq2 (V4 m ρ) c 0))).trans (W4_v43 m ρ c)

theorem W5_v6 : W5 m ρ c (Proc.devRef .tc main_v6) = gI m c :=
  (W5_of_ne m ρ c main_v6 (by decide)).trans (W4_v6 m ρ c)

theorem W6_v56 : W6 m ρ c (Proc.devRef .tc main_v56) = scaleRow (colSum (hB1 m c)) (colSum (sq (hB1 m c))) (arg m c main_arg11) := by
  refine (host3_v56 (W5 m ρ c)).trans ?_
  rw [W5_v45_0, W5_v45_1, W5_arg11]

theorem W6_v59 : W6 m ρ c (Proc.devRef .tc main_v59)
    = shiftRow (colSum (hB1 m c)) (colSum (sq (hB1 m c))) (arg m c main_arg11) (arg m c main_arg12) := by
  refine (host3_v59 (W5 m ρ c)).trans ?_
  rw [W5_v45_0, W5_v45_1, W5_arg11, W5_arg12]

theorem W6_v60 : W6 m ρ c (Proc.devRef .tc main_v60) = row (arg m c main_arg8) := by
  refine (host3_v60 (W5 m ρ c)).trans ?_
  rw [W5_arg8]

theorem W6_v43 : W6 m ρ c (Proc.devRef .tc main_v43) = agg (lin (gI m c) (arg m c main_arg7)) (rowV m c) (colV m c) :=
  (host3_keeps (W5 m ρ c) main_v43 (by decide)).trans (W5_v43 m ρ c)

theorem W6_v6 : W6 m ρ c (Proc.devRef .tc main_v6) = gI m c :=
  (host3_keeps (W5 m ρ c) main_v6 (by decide)).trans (W5_v6 m ρ c)

theorem W7_v61 : W7 m ρ c (Proc.devRef .tc main_v61) = gII m c := by
  refine (W7_arr m ρ c 5).trans ((bn3_final (V6 m ρ) c).trans ?_)
  show addA (relu (affine (W6 m ρ c (Proc.devRef .tc main_v56)) (W6 m ρ c (Proc.devRef .tc main_v59))
      (rowAdd (W6 m ρ c (Proc.devRef .tc main_v43)) (W6 m ρ c (Proc.devRef .tc main_v60))))) (W6 m ρ c (Proc.devRef .tc main_v6)) = _
  rw [W6_v56, W6_v59, W6_v43, W6_v60, W6_v6]
  rfl

/-! ### The second layer and the output projection -/

theorem W8_v62 : W8 m ρ c (Proc.devRef .tc main_v62) = lin (gII m c) (arg m c main_arg9) := by
  refine (W8_arr m ρ c 2).trans ((lin4_final (V7 m ρ) c).trans ?_)
  show lin (W7 m ρ c (Proc.devRef .tc main_v61)) (W7 m ρ c (Proc.devRef .tc main_arg9)) = _
  rw [W7_v61, W7_arg9]

theorem W9_v98 : W9 m ρ c (Proc.devRef .tc main_v98) = agg (lin (gII m c) (arg m c main_arg9)) (rowV m c) (colV m c) := by
  refine (host5_v98 (W8 m ρ c)).trans ?_
  rw [W8_v62, W8_v1, W8_v3]

theorem W9_v99 : W9 m ρ c (Proc.devRef .tc main_v99) = row (arg m c main_arg10) := by
  refine (host5_v99 (W8 m ρ c)).trans ?_
  rw [W8_arg10]

theorem W10_v100_0 : W10 m ρ c (Proc.devRef .tc main_v100_0) = colSum (hB2 m c) := by
  refine (W10_arr m ρ c 2).trans ((sum5_final (V9 m ρ) c).trans ?_)
  show colSum (rowAdd (W9 m ρ c (Proc.devRef .tc main_v98)) (W9 m ρ c (Proc.devRef .tc main_v99))) = _
  rw [W9_v98, W9_v99]
  rfl

theorem W10_v100_1 : W10 m ρ c (Proc.devRef .tc main_v100_1) = colSum (sq (hB2 m c)) := by
  refine (W10_arr m ρ c 3).trans ((sumsq5_final (V9 m ρ) c).trans ?_)
  show colSum (sq (rowAdd (W9 m ρ c (Proc.devRef .tc main_v98)) (W9 m ρ c (Proc.devRef .tc main_v99)))) = _
  rw [W9_v98, W9_v99]
  rfl

/-- The second statistics region reads the aggregate through an input window and leaves it in place. -/
theorem W10_v98 : W10 m ρ c (Proc.devRef .tc main_v98) = agg (lin (gII m c) (arg m c main_arg9)) (rowV m c) (colV m c) :=
  ((W10_arr m ρ c 0).trans (((dat5 (V9 m ρ) c).arrAt_in 0 rfl _).trans (A_eq5 (V9 m ρ) c 0))).trans (W9_v98 m ρ c)

theorem W11_v111 : W11 m ρ c (Proc.devRef .tc main_v111) = scaleRow (colSum (hB2 m c)) (colSum (sq (hB2 m c))) (arg m c main_arg13) := by
  refine (host6_v111 (W10 m ρ c)).trans ?_
  rw [W10_v100_0, W10_v100_1, W10_arg13]

theorem W11_v114 : W11 m ρ c (Proc.devRef .tc main_v114)
    = shiftRow (colSum (hB2 m c)) (colSum (sq (hB2 m c))) (arg m c main_arg13) (arg m c main_arg14) := by
  refine (host6_v114 (W10 m ρ c)).trans ?_
  rw [W10_v100_0, W10_v100_1, W10_arg13, W10_arg14]

theorem W11_v115 : W11 m ρ c (Proc.devRef .tc main_v115) = row (arg m c main_arg10) := by
  refine (host6_v115 (W10 m ρ c)).trans ?_
  rw [W10_arg10]

theorem W11_v116 : W11 m ρ c (Proc.devRef .tc main_v116) = row (arg m c main_arg16) := by
  refine (host6_v116 (W10 m ρ c)).trans ?_
  rw [W10_arg16]

theorem W11_v98 : W11 m ρ c (Proc.devRef .tc main_v98) = agg (lin (gII m c) (arg m c main_arg9)) (rowV m c) (colV m c) :=
  (host6_keeps (W10 m ρ c) main_v98 (by decide)).trans (W10_v98 m ρ c)

/-- THE RESULT: after the last region the result array is the network, normalisations as scale and shift, of the
    arguments as launched. -/
theorem W12_v117 : W12 m ρ c (Proc.devRef .tc main_v117)
    = outK (arg m c main_arg0) (rowV m c) (colV m c) (arg m c main_arg3) (arg m c main_arg4) (arg m c main_arg5)
        (arg m c main_arg6) (arg m c main_arg7) (arg m c main_arg8) (arg m c main_arg9) (arg m c main_arg10)
        (arg m c main_arg11) (arg m c main_arg12) (arg m c main_arg13) (arg m c main_arg14) (arg m c main_arg15)
        (arg m c main_arg16) := by
  refine (W12_arr m ρ c 6).trans ((proj6_final (V11 m ρ) c).trans ?_)
  show rowAdd (lin (affine (W11 m ρ c (Proc.devRef .tc main_v111)) (W11 m ρ c (Proc.devRef .tc main_v114))
      (rowAdd (W11 m ρ c (Proc.devRef .tc main_v98)) (W11 m ρ c (Proc.devRef .tc main_v115)))) (W11 m ρ c (Proc.devRef .tc main_arg15)))
      (W11 m ρ c (Proc.devRef .tc main_v116)) = _
  rw [W11_v111, W11_v114, W11_v98, W11_v115, W11_arg15, W11_v116]
  rfl

end Cert.KernelIdeal.KVal

end
-- ==== Proof.RStages.lean ====
/-
  The reference program read as whole-array stages: each layer of the network, as the reference's host operations
  compute it, is the corresponding whole-array function of the stage before it and of the parameter arrays.

  Three small facts do the reading. A host matrix product with one contracted axis is the sum over that axis of the
  products of the entries (the function lin). A vector broadcast to a one-row matrix and then down the rows, added to
  a matrix, adds the vector laid out as a row to every row (rowAdd after row). The maximum with the broadcast zero
  constant is the entrywise maximum with the zero word's value (relu). The batch normalisation's chain of column sums,
  quotients by the row count, deviations, squares, reciprocal square root, scale and offset, read at an entry, is
  the normalisation by deviations written index by index (bnDev). The graph aggregation is the same operations in
  the same order as the function agg, so that stage holds by unfolding.
-/
import proofs.«135957_j57604101374612_1_alg».proof.Proof.Gen.ReferenceIdeal.Read
import proofs.«135957_j57604101374612_1_alg».proof.Proof.Spec
import proofs.«135957_j57604101374612_1_alg».proof.Proof.Agg
import proofs.«135957_j57604101374612_1_alg».proof.Proof.BnForms
import proofs.«135957_j57604101374612_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.ValueIdx Cert.Gnn

/-! ## The host operations, read as the whole-array pieces -/

/-- A host matrix product [M, K] × [K, N], contracted on the left operand's second axis and the right operand's
    first, is the matrix product of the two operands. -/
theorem hostDot_eq_lin {M K N : Nat}
    (wf : DotDims.WF ⟨2, ![M, K]⟩ ⟨2, ![K, N]⟩ ⟨2, ![M, N]⟩ [1] [0] [0] [1] [] [])
    (l : FVec Ideal ⟨2, ![M, K]⟩ .f32) (r : FVec Ideal ⟨2, ![K, N]⟩ .f32) :
    Host.dotGeneral (Cert.Lib.plainDot M K N wf) none l r = lin (l : Mat M K) (r : Mat K N) := by
  funext i
  obtain ⟨p, q, rfl⟩ : ∃ (p : Fin M) (q : Fin N), i = ix2 p q := ⟨i 0, i 1, eq_ix2 i⟩
  simp only [Host.dotGeneral]
  exact Cert.Lib.dotGeneral_plain_apply wf none _ l r p q

/-- A [256] vector broadcast to a one-row matrix and then down 50000 rows, at (p, q), is the vector at q. -/
theorem bcastRows_apply {α : Type} (b : S256.Idx → α) (p : Fin 50000) (q : Fin 256) :
    broadcastInDim S50000x256 ![0, 1] bcast_S1x256_S50000x256_0_1 (broadcastInDim S1x256 ![1] bcast_S256_S1x256_1 b) (ix2 p q)
      = b (ix1 q) := by
  refine (broadcastInDim_apply _ bcast_S1x256_S50000x256_0_1 _ (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])).trans ?_
  exact broadcastInDim_apply _ bcast_S256_S1x256_1 b (ix2 0 q) (ix1 q) (fun a => match a with
    | ⟨0, _⟩ => by show q.val = if (256 : Nat) = 1 then 0 else q.val; rw [if_neg (by decide)])

/-- Adding that broadcast to a matrix adds the vector, laid out as a row, to every row. -/
theorem add_bcastRows (h : FVec Ideal S50000x256 .f32) (b : FVec Ideal S256 .f32) :
    addf h (broadcastInDim S50000x256 ![0, 1] bcast_S1x256_S50000x256_0_1 (broadcastInDim S1x256 ![1] bcast_S256_S1x256_1 b))
      = rowAdd (h : Mat 50000 256) (row (b : Vc 256)) := by
  funext i
  obtain ⟨p, q, rfl⟩ : ∃ (p : Fin 50000) (q : Fin 256), i = ix2 p q := ⟨i 0, i 1, eq_ix2 i⟩
  refine (addf_apply _ _ (ix2 p q)).trans ?_
  exact congrArg (h (ix2 p q) + ·) (bcastRows_apply b p q)

/-- The same for the one-column output: a [1] vector broadcast to [1, 1] and down 50000 rows, added to a [50000, 1]
    matrix, adds the vector as a row to every row. -/
theorem add_bcastRows_one (h : FVec Ideal S50000x1 .f32) (b : FVec Ideal S1 .f32) :
    addf h (broadcastInDim S50000x1 ![0, 1] bcast_S1x1_S50000x1_0_1 (broadcastInDim S1x1 ![1] bcast_S1_S1x1_1 b))
      = rowAdd (h : Mat 50000 1) (row (b : Vc 1)) := by
  funext i
  obtain ⟨p, q, rfl⟩ : ∃ (p : Fin 50000) (q : Fin 1), i = ix2 p q := ⟨i 0, i 1, eq_ix2 i⟩
  refine (addf_apply _ _ (ix2 p q)).trans ?_
  refine congrArg (h (ix2 p q) + ·) ?_
  have hq : q.val = 0 := by omega
  refine (broadcastInDim_apply _ bcast_S1x1_S50000x1_0_1 _ (ix2 p q) (ix2 0 q) (fun a => match a with
    | ⟨0, _⟩ => by show 0 = if (1 : Nat) = 1 then 0 else p.val; rw [if_pos rfl]
    | ⟨1, _⟩ => by show q.val = if (1 : Nat) = 1 then 0 else q.val; rw [if_pos rfl]; exact hq)).trans ?_
  exact broadcastInDim_apply _ bcast_S1_S1x1_1 b (ix2 0 q) (ix1 q) (fun a => match a with
    | ⟨0, _⟩ => by show q.val = if (1 : Nat) = 1 then 0 else q.val; rw [if_pos rfl]; exact hq)

/-- The maximum with the broadcast zero constant is the entrywise maximum with the zero word's value. -/
theorem max_bcastZero (h : FVec Ideal S50000x256 .f32) :
    maximumf h (broadcastInDim S50000x256 ![] bcast_S_S50000x256 (constant (F := Ideal) S_ .f32 0x00000000#32))
      = relu (h : Mat 50000 256) := by
  funext i
  refine (maximumf_apply _ _ i).trans ?_
  refine congrArg (max (h i) ·) ?_
  exact broadcastInDim_apply _ bcast_S_S50000x256 _ i (fun a => a.elim0) (fun a => a.elim0)

/-! ## Batch normalisation, as the host computes it, on any matrix -/

/-- A [256] vector broadcast to a one-row matrix and then down the 50000 rows. -/
def downRows {α : Type} (v : S256.Idx → α) : S50000x256.Idx → α :=
  broadcastInDim S50000x256 ![0, 1] bcast_S1x256_S50000x256_0_1 (broadcastInDim S1x256 ![1] bcast_S256_S1x256_1 v)

theorem downRows_apply {α : Type} (v : S256.Idx → α) (p : Fin 50000) (q : Fin 256) : downRows v (ix2 p q) = v (ix1 q) :=
  bcastRows_apply v p q

/-- A scalar constant broadcast to a [256] vector. -/
def splat256 (w : BitVec 32) : FVec Ideal S256 .f32 :=
  broadcastInDim S256 ![] bcast_S_S256 (constant (F := Ideal) S_ .f32 w)

theorem splat256_apply (w : BitVec 32) (j : S256.Idx) : splat256 w j = Ideal.ofBits .f32 w :=
  broadcastInDim_apply _ bcast_S_S256 _ j (fun a => a.elim0) (fun a => a.elim0)

/-- The column means as the host computes them: the column sums from the zero constant, divided by the count constant. -/
def hostColMean (h : FVec Ideal S50000x256 .f32) : FVec Ideal S256 .f32 :=
  Host.divf (Host.reduceAdd h (constant (F := Ideal) S_ .f32 0x00000000#32) reducesTo_S50000x256_S256_d0 h_S_)
    (splat256 0x47435000#32)

/-- Column q's mean is the sum of the column from the zero word, divided by the count word. -/
theorem hostColMean_apply (h : FVec Ideal S50000x256 .f32) (q : Fin 256) :
    hostColMean h (ix1 q) = Ideal.div (zeroW + ∑ n : Fin 50000, h (ix2 n q)) countW := by
  unfold hostColMean
  show Ideal.div (Host.reduceAdd h (constant (F := Ideal) S_ .f32 0x00000000#32) reducesTo_S50000x256_S256_d0 h_S_ (ix1 q))
    (splat256 0x47435000#32 (ix1 q)) = _
  rw [splat256_apply]
  refine congrArg (fun a => Ideal.div a countW) ?_
  simp only [Host.reduceAdd, Ideal.hostReduceAdd_def]
  rw [Ideal.hostReduceAdd_single reducesTo_S50000x256_S256_d0 (by decide)]
  refine congrArg (zeroW + ·) (Finset.sum_congr rfl fun k _ => ?_)
  exact congrArg h (funext fun a => Fin.ext (by match a with | ⟨0, _⟩ => rfl | ⟨1, _⟩ => rfl))

/-- The host's normalisation of the columns of a matrix: the deviations from the column means, scaled by the weights,
    times the reciprocal square root of the mean squared deviation plus ε, plus the offsets. -/
def hostBn (hb : FVec Ideal S50000x256 .f32) (g b : FVec Ideal S256 .f32) : FVec Ideal S50000x256 .f32 :=
  addf (mulf (mulf (downRows g) (subf hb (downRows (hostColMean hb))))
      (downRows (Host.rsqrt (addf (hostColMean (mulf (subf hb (downRows (hostColMean hb))) (subf hb (downRows (hostColMean hb)))))
        (splat256 0x3727C5AC#32)))))
    (downRows b)

/-- Read at an entry, it is the normalisation by deviations written index by index. -/
theorem hostBn_eq (hb : FVec Ideal S50000x256 .f32) (g b : FVec Ideal S256 .f32) :
    hostBn hb g b = bnDev (hb : Mat 50000 256) (g : Vc 256) (b : Vc 256) := by
  funext i
  obtain ⟨p, q, rfl⟩ : ∃ (p : Fin 50000) (q : Fin 256), i = ix2 p q := ⟨i 0, i 1, eq_ix2 i⟩
  have hdev : ∀ n : Fin 50000, subf hb (downRows (hostColMean hb)) (ix2 n q)
      = hb (ix2 n q) - Ideal.div (zeroW + ∑ n : Fin 50000, hb (ix2 n q)) countW := fun n =>
    (subf_apply _ _ (ix2 n q)).trans (congrArg (hb (ix2 n q) - ·) ((downRows_apply _ n q).trans (hostColMean_apply hb q)))
  have hvar : hostColMean (mulf (subf hb (downRows (hostColMean hb))) (subf hb (downRows (hostColMean hb)))) (ix1 q)
      = Ideal.div (zeroW + ∑ n : Fin 50000,
          (hb (ix2 n q) - Ideal.div (zeroW + ∑ n : Fin 50000, hb (ix2 n q)) countW)
            * (hb (ix2 n q) - Ideal.div (zeroW + ∑ n : Fin 50000, hb (ix2 n q)) countW)) countW := by
    refine (hostColMean_apply _ q).trans ?_
    refine congrArg (fun a => Ideal.div (zeroW + a) countW) (Finset.sum_congr rfl fun n _ => ?_)
    refine (mulf_apply _ _ (ix2 n q)).trans ?_
    rw [hdev n]
  unfold hostBn
  refine (addf_apply _ _ (ix2 p q)).trans ?_
  refine congrArg₂ (· + ·) ?_ (downRows_apply b p q)
  refine (mulf_apply _ _ (ix2 p q)).trans ?_
  refine congrArg₂ (· * ·) ?_ ?_
  · refine (mulf_apply _ _ (ix2 p q)).trans ?_
    exact congrArg₂ (· * ·) (downRows_apply g p q) (hdev p)
  · refine (downRows_apply _ p q).trans ?_
    show Ideal.rsqrt (hostColMean (mulf (subf hb (downRows (hostColMean hb))) (subf hb (downRows (hostColMean hb)))) (ix1 q)
      + splat256 0x3727C5AC#32 (ix1 q)) = _
    rw [hvar, splat256_apply]

/-! ## The stages -/

variable (x0 : (⟨S50000x26, .f32⟩ : BufTy).Contents (Elt Ideal)) (x1 : (⟨S2x800000, .i32⟩ : BufTy).Contents (Elt Ideal))
  (x3 : (⟨S26x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal))
  (x9 : (⟨S256x256, .f32⟩ : BufTy).Contents (Elt Ideal)) (x10 x11 x12 x13 x14 : (⟨S256, .f32⟩ : BufTy).Contents (Elt Ideal))
  (x15 : (⟨S256x1, .f32⟩ : BufTy).Contents (Elt Ideal)) (x16 : (⟨S1, .f32⟩ : BufTy).Contents (Elt Ideal))

/-- The encoder: two dense layers, each with its bias row, the first followed by the maximum with zero. -/
theorem ref_enc : val_main_v12 (F := Ideal) x0 x3 x4 x5 x6 = enc (x0 : Mat 50000 26) (x3 : Mat 26 256) (row (x4 : Vc 256)) (x5 : Mat 256 256) (row (x6 : Vc 256)) := by
  unfold val_main_v12 val_main_v11 val_main_v10 val_main_v9 val_main_v8 val_main_call0_v0 val_main_call0_cst val_main_v7
    val_main_v6 val_main_v5 val_main_v4
  rw [add_bcastRows, max_bcastZero, add_bcastRows]
  refine congrArg (fun a : Mat 50000 256 => rowAdd a (row (x6 : Vc 256))) ?_
  refine (hostDot_eq_lin _ _ x5).trans ?_
  refine congrArg (fun a : Mat 50000 256 => lin a (x5 : Mat 256 256)) ?_
  refine congrArg (fun a : Mat 50000 256 => relu (rowAdd a (row (x4 : Vc 256)))) ?_
  exact hostDot_eq_lin _ x0 x3

/-- The first layer's dense product. -/
theorem ref_lin1 : val_main_v13 (F := Ideal) x0 x3 x4 x5 x6 x7 = lin (val_main_v12 (F := Ideal) x0 x3 x4 x5 x6 : Mat 50000 256) (x7 : Mat 256 256) := by
  unfold val_main_v13
  exact hostDot_eq_lin _ _ x7

/-- The first layer's aggregation over the graph. -/
theorem ref_agg1 : val_main_v49 (F := Ideal) x0 x1 x3 x4 x5 x6 x7 = Cert.GnnHost.agg (val_main_v13 (F := Ideal) x0 x3 x4 x5 x6 x7) (val_main_v1 (F := Ideal) x1) (val_main_v3 (F := Ideal) x1) := rfl

/-- The first layer's bias row added. -/
theorem ref_hb1 : val_main_v52 (F := Ideal) x0 x1 x3 x4 x5 x6 x7 x8 = rowAdd (val_main_v49 (F := Ideal) x0 x1 x3 x4 x5 x6 x7 : Mat 50000 256) (row (x8 : Vc 256)) := by
  unfold val_main_v52 val_main_v51 val_main_v50
  exact add_bcastRows _ x8

/-- The first layer's residual: the maximum with zero of the normalised features, plus the encoder's output. -/
theorem ref_res1 : val_main_v79 (F := Ideal) x0 x1 x3 x4 x5 x6 x7 x8 x11 x12 = addA (relu (val_main_v77 (F := Ideal) x0 x1 x3 x4 x5 x6 x7 x8 x11 x12 : Mat 50000 256)) (val_main_v12 (F := Ideal) x0 x3 x4 x5 x6 : Mat 50000 256) := by
  unfold val_main_v79 val_main_v78 val_main_call1_v0 val_main_call1_cst
  rw [max_bcastZero]
  rfl

/-- The second layer's dense product. -/
theorem ref_lin2 : val_main_v80 (F := Ideal) x0 x1 x3 x4 x5 x6 x7 x8 x9 x11 x12 = lin (val_main_v79 (F := Ideal) x0 x1 x3 x4 x5 x6 x7 x8 x11 x12 : Mat 50000 256) (x9 : Mat 256 256) := by
  unfold val_main_v80
  exact hostDot_eq_lin _ _ x9

/-- The second layer's aggregation over the graph. -/
theorem ref_agg2 : val_main_v116 (F := Ideal) x0 x1 x3 x4 x5 x6 x7 x8 x9 x11 x12 = Cert.GnnHost.agg (val_main_v80 (F := Ideal) x0 x1 x3 x4 x5 x6 x7 x8 x9 x11 x12) (val_main_v1 (F := Ideal) x1) (val_main_v3 (F := Ideal) x1) := rfl

/-- The second layer's bias row added. -/
theorem ref_hb2 : val_main_v119 (F := Ideal) x0 x1 x3 x4 x5 x6 x7 x8 x9 x10 x11 x12 = rowAdd (val_main_v116 (F := Ideal) x0 x1 x3 x4 x5 x6 x7 x8 x9 x11 x12 : Mat 50000 256) (row (x10 : Vc 256)) := by
  unfold val_main_v119 val_main_v118 val_main_v117
  exact add_bcastRows _ x10

/-- The output projection: the product with the [256, 1] weight column plus the one-entry bias. -/
theorem ref_out : val_main_v148 (F := Ideal) x0 x1 x3 x4 x5 x6 x7 x8 x9 x10 x11 x12 x13 x14 x15 x16 = rowAdd (lin (val_main_v144 (F := Ideal) x0 x1 x3 x4 x5 x6 x7 x8 x9 x10 x11 x12 x13 x14 : Mat 50000 256) (x15 : Mat 256 1)) (row (x16 : Vc 1)) := by
  unfold val_main_v148 val_main_v147 val_main_v146 val_main_v145
  rw [add_bcastRows_one]
  exact congrArg (fun a : Mat 50000 1 => rowAdd a (row (x16 : Vc 1))) (hostDot_eq_lin _ _ x15)

/-- The first layer's batch normalisation. -/
theorem ref_bn1 : val_main_v77 (F := Ideal) x0 x1 x3 x4 x5 x6 x7 x8 x11 x12 = bnDev (val_main_v52 (F := Ideal) x0 x1 x3 x4 x5 x6 x7 x8 : Mat 50000 256) (x11 : Vc 256) (x12 : Vc 256) :=
  hostBn_eq (val_main_v52 (F := Ideal) x0 x1 x3 x4 x5 x6 x7 x8) x11 x12

/-- The second layer's batch normalisation. -/
theorem ref_bn2 : val_main_v144 (F := Ideal) x0 x1 x3 x4 x5 x6 x7 x8 x9 x10 x11 x12 x13 x14 = bnDev (val_main_v119 (F := Ideal) x0 x1 x3 x4 x5 x6 x7 x8 x9 x10 x11 x12 : Mat 50000 256) (x13 : Vc 256) (x14 : Vc 256) :=
  hostBn_eq (val_main_v119 (F := Ideal) x0 x1 x3 x4 x5 x6 x7 x8 x9 x10 x11 x12) x13 x14

end Cert.ReferenceIdeal.RefValue

end
-- ==== Proof.RefOut.lean ====
/-
  The reference program's result is the network by deviations, applied to its arguments.

  The reference's last stage is read back stage by stage: the output projection and its bias, the second layer's
  normalisation, its bias row, its aggregation, its dense weight; the residual sum with the first layer's rectified
  normalisation; the first layer the same way; and the encoder.
-/
import proofs.«135957_j57604101374612_1_alg».proof.Proof.RStages
import proofs.«135957_j57604101374612_1_alg».proof.Proof.Model

noncomputable section

namespace Cert.ReferenceIdeal.RefValue

open Idealize.ShloMosaic Cert.ReferenceIdeal Cert.ReferenceIdeal.Read Cert.Gnn Cert.GnnHost

variable (x0 : (⟨S50000x26, .f32⟩ : BufTy).Contents (Elt Ideal)) (x1 : (⟨S2x800000, .i32⟩ : BufTy).Contents (Elt Ideal))
  (x3 : (⟨S26x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal))
  (x9 : (⟨S256x256, .f32⟩ : BufTy).Contents (Elt Ideal)) (x10 x11 x12 x13 x14 : (⟨S256, .f32⟩ : BufTy).Contents (Elt Ideal))
  (x15 : (⟨S256x1, .f32⟩ : BufTy).Contents (Elt Ideal)) (x16 : (⟨S1, .f32⟩ : BufTy).Contents (Elt Ideal))

/-- The reference's result array as the network by deviations of its arguments; the edge end points are the two rows
    of the edge-index argument. -/
theorem ref_value :
    val_main_v148 (F := Ideal) x0 x1 x3 x4 x5 x6 x7 x8 x9 x10 x11 x12 x13 x14 x15 x16
      = outR (x0 : Mat 50000 26) (val_main_v1 (F := Ideal) x1) (val_main_v3 (F := Ideal) x1) (x3 : Mat 26 256) (x4 : Vc 256)
          (x5 : Mat 256 256) (x6 : Vc 256) (x7 : Mat 256 256) (x8 : Vc 256) (x9 : Mat 256 256) (x10 : Vc 256)
          (x11 : Vc 256) (x12 : Vc 256) (x13 : Vc 256) (x14 : Vc 256) (x15 : Mat 256 1) (x16 : Vc 1) := by
  rw [ref_out, ref_bn2, ref_hb2, ref_agg2, ref_lin2, ref_res1, ref_bn1, ref_hb1, ref_agg1, ref_lin1, ref_enc]
  rfl

end Cert.ReferenceIdeal.RefValue

end
-- ==== Proof.PreReal.lean ====
/-
  From the finiteness precondition to real entries.

  The precondition computes, for each of the sixteen float arguments x, the conjunction over all entries of
  |x| < +∞, and takes the conjunction of the sixteen results. On the extended reals |v| is max v (−v), and the
  word 0x7F800000 denotes ⊤; an extended real v with max v (−v) < ⊤ is neither ⊤ nor ⊥, so it is a real number.
  Hence, when the precondition holds, every entry of every tested argument is a real number.
-/
import proofs.«135957_j57604101374612_1_alg».proof.Pre_finite_inputs
import proofs.«135957_j57604101374612_1_alg».proof.Proof.Gen.Pre_finite_inputs
import proofs.«135957_j57604101374612_1_alg».proof.Proof.LibRealCollapse
import Idealize.ShloMosaic.Lib.ReduceAll
import Idealize.ShloMosaic.Lib.ValueIdx
import Idealize.ShloMosaic.PureOps.Ideal

noncomputable section

namespace Cert.PreReal

open Idealize.ShloMosaic Cert.Pre_finite_inputs Cert.Gcn

/-- The rank-0 shape has exactly one index. -/
instance : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value max v (−v) lies below ⊤ is a real number: at ⊤ and at ⊥ the maximum is ⊤. -/
theorem isReal_of_abs_lt_top (v : EReal) (h : max v (-v) < ⊤) : IsReal v := by
  induction v using EReal.rec with
  | bot => simp at h
  | coe r => exact ⟨r, rfl⟩
  | top => simp at h

/-- One entry of the test: if the comparison |v| < +∞ comes out 1, then v is a real number. -/
theorem isReal_of_cmp (v : EReal)
    (h : Ideal.cmp .olt (max v (-v)) (Ideal.ofBits .f32 0x7F800000#32) = 1#1) : IsReal v := by
  rw [inf_word] at h
  refine isReal_of_abs_lt_top v ?_
  by_contra hn
  simp [Ideal.cmp, hn] at h

/-- The test of one array, of any shape: if the conjunction over all entries of |x| < +∞ is 1,
    then every entry of x is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ValueIdx.ix0 = 1#1)
    (i : s.Idx) : IsReal (x i) :=
  isReal_of_cmp (x i) (Host.reduce_andi_all _ _ hr hu _ e i)

/-- A conjunction of two one-bit results that is 1 at the point has both conjuncts 1 there. -/
theorem and_at_point {a b : IVec S_ 1} (h : andi a b ValueIdx.ix0 = 1#1) :
    a ValueIdx.ix0 = 1#1 ∧ b ValueIdx.ix0 = 1#1 :=
  IntOp.andi_eq_one.1 h

variable [Facts]

/-- If the precondition holds of the arrays, every entry of every tested float array is a real number.
    The conjunction is nested to the left, so the tests are taken off from the last to the first. -/
theorem real_of_finite (x0 : FVec Ideal S50000x26 .f32) (x1 : IVec S2x800000 32) (x2 : FVec Ideal S800000x5 .f32) (x3 : FVec Ideal S26x256 .f32) (x4 : FVec Ideal S256 .f32) (x5 : FVec Ideal S256x256 .f32) (x6 : FVec Ideal S256 .f32) (x7 : FVec Ideal S256x256 .f32) (x8 : FVec Ideal S256 .f32) (x9 : FVec Ideal S256x256 .f32) (x10 : FVec Ideal S256 .f32) (x11 : FVec Ideal S256 .f32) (x12 : FVec Ideal S256 .f32) (x13 : FVec Ideal S256 .f32) (x14 : FVec Ideal S256 .f32) (x15 : FVec Ideal S256x1 .f32) (x16 : FVec Ideal S1 .f32)
    (h : fn (F := Ideal) x0 x1 x2 x3 x4 x5 x6 x7 x8 x9 x10 x11 x12 x13 x14 x15 x16 = fun _ => 1#1) :
    (∀ i, IsReal (x0 i)) ∧
      (∀ i, IsReal (x3 i)) ∧
      (∀ i, IsReal (x4 i)) ∧
      (∀ i, IsReal (x5 i)) ∧
      (∀ i, IsReal (x6 i)) ∧
      (∀ i, IsReal (x7 i)) ∧
      (∀ i, IsReal (x8 i)) ∧
      (∀ i, IsReal (x9 i)) ∧
      (∀ i, IsReal (x10 i)) ∧
      (∀ i, IsReal (x11 i)) ∧
      (∀ i, IsReal (x12 i)) ∧
      (∀ i, IsReal (x13 i)) ∧
      (∀ i, IsReal (x14 i)) ∧
      (∀ i, IsReal (x15 i)) ∧
      (∀ i, IsReal (x16 i)) := by
  have h := congrFun h ValueIdx.ix0
  dsimp only [fn, fn_part1, fn_part2, fn_part3, fn_part4] at h
  obtain ⟨h, h16⟩ := and_at_point h
  obtain ⟨h, h15⟩ := and_at_point h
  obtain ⟨h, h14⟩ := and_at_point h
  obtain ⟨h, h13⟩ := and_at_point h
  obtain ⟨h, h12⟩ := and_at_point h
  obtain ⟨h, h11⟩ := and_at_point h
  obtain ⟨h, h10⟩ := and_at_point h
  obtain ⟨h, h9⟩ := and_at_point h
  obtain ⟨h, h8⟩ := and_at_point h
  obtain ⟨h, h7⟩ := and_at_point h
  obtain ⟨h, h6⟩ := and_at_point h
  obtain ⟨h, h5⟩ := and_at_point h
  obtain ⟨h, h4⟩ := and_at_point h
  obtain ⟨h, h3⟩ := and_at_point h
  obtain ⟨h0, h2⟩ := and_at_point h
  exact ⟨all_real x0 _ _ _ h0,
    all_real x3 _ _ _ h3,
    all_real x4 _ _ _ h4,
    all_real x5 _ _ _ h5,
    all_real x6 _ _ _ h6,
    all_real x7 _ _ _ h7,
    all_real x8 _ _ _ h8,
    all_real x9 _ _ _ h9,
    all_real x10 _ _ _ h10,
    all_real x11 _ _ _ h11,
    all_real x12 _ _ _ h12,
    all_real x13 _ _ _ h13,
    all_real x14 _ _ _ h14,
    all_real x15 _ _ _ h15,
    all_real x16 _ _ _ h16⟩

end Cert.PreReal

end
-- ==== Proof.lean ====
/-
  The certificate's five claims for the two-layer graph network.

  The three frames are the generated frame certificates of the kernel program at its two instances and the reference
  program's generated run with its result dropped; the ideal pass rewrote nothing, so the idealization claim is trivial.
  The value claim: the idealized kernel program ends with its result array at the network, batch normalisations written
  as one scale and one shift per column, of its arguments (the boundary contents followed region by region and stretch
  by stretch); the idealized reference ends at the same network with the normalisations written by deviations from the
  mean (its generated run, read stage by stage); the arguments agree; and under the precondition every float argument is
  entrywise a real number, where the two arrangements of the normalisation coincide.
-/
import proofs.«135957_j57604101374612_1_alg».proof.Defs
import proofs.«135957_j57604101374612_1_alg».proof.Proof.Gen.Kernel
import proofs.«135957_j57604101374612_1_alg».proof.Proof.Gen.Kernel.Skeleton
import proofs.«135957_j57604101374612_1_alg».proof.Proof.Gen.Kernel.Launch
import proofs.«135957_j57604101374612_1_alg».proof.Proof.Gen.Kernel.Points
import proofs.«135957_j57604101374612_1_alg».proof.Proof.Gen.Kernel.Frame
import proofs.«135957_j57604101374612_1_alg».proof.Proof.Gen.KernelIdeal
import proofs.«135957_j57604101374612_1_alg».proof.Proof.Gen.KernelIdeal.Skeleton
import proofs.«135957_j57604101374612_1_alg».proof.Proof.Gen.KernelIdeal.Launch
import proofs.«135957_j57604101374612_1_alg».proof.Proof.Gen.KernelIdeal.Points
import proofs.«135957_j57604101374612_1_alg».proof.Proof.Gen.KernelIdeal.Frame
import proofs.«135957_j57604101374612_1_alg».proof.Proof.Gen.ReferenceIdeal
import proofs.«135957_j57604101374612_1_alg».proof.Proof.Gen.Pre_finite_inputs
import proofs.«135957_j57604101374612_1_alg».proof.Proof.Gen.ReferenceIdeal.Run
import proofs.«135957_j57604101374612_1_alg».proof.Proof.Gen.ReferenceIdeal.Read
import proofs.«135957_j57604101374612_1_alg».proof.Proof.KRun
import proofs.«135957_j57604101374612_1_alg».proof.Proof.KThread
import proofs.«135957_j57604101374612_1_alg».proof.Proof.RefOut
import proofs.«135957_j57604101374612_1_alg».proof.Proof.PreReal
import proofs.«135957_j57604101374612_1_alg».proof.Proof.Model
import Idealize.ShloMosaic.Adequacy
import Idealize.ShloMosaic.Init

noncomputable section

namespace Cert.Proof

open Idealize.ShloMosaic Idealize.SL.Sem Cert.Gnn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end, from memories agreeing on the arguments, with the same result array: the network of
    the arguments, where — every float argument being real under the precondition — the kernel's scale-and-shift
    normalisation and the reference's normalisation by deviations are one function. -/
theorem algebraic : Cert.algebraic_KernelIdeal_ReferenceIdeal := by
  intro m ρ m' ρ' hpre hagree
  refine ⟨_, (θ_run Cert.KernelIdeal.defs _ _).mono
    (fun r h c => ⟨(h c).1.trans (Cert.KernelIdeal.KVal.W12_v117 m ρ c), (h c).2⟩)
    (Cert.KernelIdeal.KVal.run_result (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v148_eq, Cert.ReferenceIdeal.RefValue.ref_value]
  obtain ⟨a0, a1, a2, a3, a4, a5, a6, a7, a8, a9, a10, a11, a12, a13, a14, a15, a16⟩ := hagree c
  rw [a0, a1, a3, a4, a5, a6, a7, a8, a9, a10, a11, a12, a13, a14, a15, a16]
  obtain ⟨r0, r3, r4, r5, r6, r7, r8, r9, r10, r11, r12, r13, r14, -, -⟩ :=
    Cert.PreReal.real_of_finite _ _ _ _ _ _ _ _ _ _ _ _ _ _ _ _ _ (hpre c)
  exact (outK_eq_outR _ _ _ _ _ _ _ _ _ _ _ _ _ _ _ _ _ r0 r3 r4 r5 r6 r7 r8 r9 r10 r11 r12 r13 r14).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
